-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S4096 .f32 .bf16
  ∧ IdealRules.truncf_extf.Statement Cert.KernelIdeal.S4096 .f32 .bf16
  ∧ IdealRules.truncf_extf.Statement Cert.KernelIdeal.S4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v269) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x3x33x33x33 : Shape := ⟨5, ![1, 3, 33, 33, 33]⟩
abbrev S8x3x1024x1024 : Shape := ⟨4, ![8, 3, 1024, 1024]⟩
abbrev S_ : Shape := ⟨0, ![]⟩

class Facts : Prop where
  bcast_S_S1x3x33x33x33 : S_.BroadcastsInDim S1x3x33x33x33 (![] : Fin 0 → Fin S1x3x33x33x33.rank)
  reducesTo_S1x3x33x33x33_S_d0_1_2_3_4 : S1x3x33x33x33.ReducesTo [0, 1, 2, 3, 4] S_
  h_S_ : 0 < S_.numel
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_

variable [Facts]

def fn {F : FTy → Type} [FloatOps F] (main_arg0 : FVec F S1x3x33x33x33 .f32) (main_arg1 : FVec F S8x3x1024x1024 .f32) : IVec S_ 1 :=
  let main_v0 : FVec F S1x3x33x33x33 .f32 := Host.absf main_arg0
  let main_cst : FVec F S_ .f32 := constant S_ .f32 0x7F800000#32
  let main_v1 : FVec F S1x3x33x33x33 .f32 := broadcastInDim S1x3x33x33x33 ![] bcast_S_S1x3x33x33x33 main_cst
  let main_v2 : IVec S1x3x33x33x33 1 := cmpf .olt main_v0 main_v1
  let main_c : IVec S_ 1 := constantI S_ 1 1#1
  let main_v3 : IVec S_ 1 := (fun x v => Host.reduce IntOp.andi x v reducesTo_S1x3x33x33x33_S_d0_1_2_3_4 h_S_) main_v2 main_c
  let main_v4 : FVec F S8x3x1024x1024 .f32 := Host.absf main_arg1
  let main_cst_0 : FVec F S_ .f32 := constant S_ .f32 0x7F800000#32
  let main_v5 : FVec F S8x3x1024x1024 .f32 := broadcastInDim S8x3x1024x1024 ![] bcast_S_S8x3x1024x1024 main_cst_0
  let main_v6 : IVec S8x3x1024x1024 1 := cmpf .olt main_v4 main_v5
  let main_c_1 : IVec S_ 1 := constantI S_ 1 1#1
  let main_v7 : IVec S_ 1 := (fun x v => Host.reduce IntOp.andi x v reducesTo_S8x3x1024x1024_S_d0_1_2_3 h_S_) main_v6 main_c_1
  let main_v8 : IVec S_ 1 := andi main_v3 main_v7
  main_v8
-- ==== Kernel.lean ====
abbrev S1x3x33x33x33 : Shape := ⟨5, ![1, 3, 33, 33, 33]⟩
abbrev S8x3x1024x1024 : Shape := ⟨4, ![8, 3, 1024, 1024]⟩
abbrev S3x33x33x33 : Shape := ⟨4, ![3, 33, 33, 33]⟩
abbrev S1x3x8x512 : Shape := ⟨4, ![1, 3, 8, 512]⟩
abbrev S1x1x8x512 : Shape := ⟨4, ![1, 1, 8, 512]⟩
abbrev S8x512 : Shape := ⟨2, ![8, 512]⟩
abbrev S4096 : Shape := ⟨1, ![4096]⟩
abbrev S4096x33 : Shape := ⟨2, ![4096, 33]⟩
abbrev S4096x1 : Shape := ⟨2, ![4096, 1]⟩
abbrev S1x33x33x33 : Shape := ⟨4, ![1, 33, 33, 33]⟩
abbrev S33x33x33 : Shape := ⟨3, ![33, 33, 33]⟩
abbrev S33x1089 : Shape := ⟨2, ![33, 1089]⟩
abbrev S4096x1089 : Shape := ⟨2, ![4096, 1089]⟩
abbrev S4096x33x33 : Shape := ⟨3, ![4096, 33, 33]⟩
abbrev S4096x33x1 : Shape := ⟨3, ![4096, 33, 1]⟩
abbrev S1x4096 : Shape := ⟨2, ![1, 4096]⟩
abbrev S3x4096 : Shape := ⟨2, ![3, 4096]⟩
abbrev S3x8x512 : Shape := ⟨3, ![3, 8, 512]⟩

abbrev nBuf : Space → Nat
  | .hbm => 4
  | .vmem => 5
  | .smem => 0
  | _ => 0

abbrev bufTy : (tb : Table) → Fin (tcTables nBuf tb) → BufTy
  | .hbm, ⟨0, _⟩ => ⟨S1x3x33x33x33, .f32⟩
  | .hbm, ⟨1, _⟩ => ⟨S8x3x1024x1024, .f32⟩
  | .hbm, ⟨2, _⟩ => ⟨S3x33x33x33, .f32⟩
  | .hbm, ⟨3, _⟩ => ⟨S8x3x1024x1024, .f32⟩
  | .local _ .vmem, ⟨0, _⟩ => ⟨S1x3x8x512, .f32⟩
  | .local _ .vmem, ⟨1, _⟩ => ⟨S1x3x8x512, .f32⟩
  | .local _ .vmem, ⟨2, _⟩ => ⟨S3x33x33x33, .f32⟩
  | .local _ .vmem, ⟨3, _⟩ => ⟨S1x3x8x512, .f32⟩
  | .local _ .vmem, ⟨4, _⟩ => ⟨S1x3x8x512, .f32⟩
  | _, _ => ⟨S1x3x33x33x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 128, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x3x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S3x33x33x33 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x3x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  shapeCasts_S1x3x33x33x33_S3x33x33x33 : S1x3x33x33x33.ShapeCasts S3x33x33x33
  inb_S1x3x8x512_S1x1x8x512_0_0_0_0 : ∀ a, (![0, 0, 0, 0] : Fin 4 → Nat) a + S1x1x8x512.size a ≤ S1x3x8x512.size a
  h_S1x1x8x512 : 0 < S1x1x8x512.numel
  shapeCasts_S1x1x8x512_S8x512 : S1x1x8x512.ShapeCasts S8x512
  shapeCasts_S8x512_S4096 : S8x512.ShapeCasts S4096
  inb_S1x3x8x512_S1x1x8x512_0_1_0_0 : ∀ a, (![0, 1, 0, 0] : Fin 4 → Nat) a + S1x1x8x512.size a ≤ S1x3x8x512.size a
  inb_S1x3x8x512_S1x1x8x512_0_2_0_0 : ∀ a, (![0, 2, 0, 0] : Fin 4 → Nat) a + S1x1x8x512.size a ≤ S1x3x8x512.size a
  iota_S4096x33_d1_w32 : S4096x33.Iotas .tc 32 [1]
  shapeCasts_S4096_S4096x1 : S4096.ShapeCasts S4096x1
  broadcasts_S4096x1_S4096x33 : S4096x1.Broadcasts S4096x33
  shapeCasts_S4096x1_S4096x1 : S4096x1.ShapeCasts S4096x1
  bitsLt_bf16_f32 : FTy.bits .bf16 < FTy.bits .f32
  inb_S3x33x33x33_S1x33x33x33_0_0_0_0 : ∀ a, (![0, 0, 0, 0] : Fin 4 → Nat) a + S1x33x33x33.size a ≤ S3x33x33x33.size a
  h_S1x33x33x33 : 0 < S1x33x33x33.numel
  shapeCasts_S1x33x33x33_S33x33x33 : S1x33x33x33.ShapeCasts S33x33x33
  shapeCasts_S33x33x33_S33x1089 : S33x33x33.ShapeCasts S33x1089
  shapeCasts_S4096x1089_S4096x33x33 : S4096x1089.ShapeCasts S4096x33x33
  shapeCasts_S4096x33_S4096x33x1 : S4096x33.ShapeCasts S4096x33x1
  broadcasts_S4096x33x1_S4096x33x33 : S4096x33x1.Broadcasts S4096x33x33
  reduces_S4096x33x33_S4096x33 : S4096x33x33.Reduces [1] S4096x33
  reduces_S4096x33_S4096 : S4096x33.Reduces [1] S4096
  inb_S3x33x33x33_S1x33x33x33_1_0_0_0 : ∀ a, (![1, 0, 0, 0] : Fin 4 → Nat) a + S1x33x33x33.size a ≤ S3x33x33x33.size a
  inb_S3x33x33x33_S1x33x33x33_2_0_0_0 : ∀ a, (![2, 0, 0, 0] : Fin 4 → Nat) a + S1x33x33x33.size a ≤ S3x33x33x33.size a
  shapeCasts_S4096_S1x4096 : S4096.ShapeCasts S1x4096
  concatenates_S1x4096_S1x4096_S1x4096_S3x4096_d0 : Shape.Concatenates [S1x4096, S1x4096, S1x4096] S3x4096 0
  shapeCasts_S3x4096_S3x8x512 : S3x4096.ShapeCasts S3x8x512
  inb_S1x3x8x512_S1x3x8x512_0_0_0_0 : ∀ a, (![0, 0, 0, 0] : Fin 4 → Nat) a + S1x3x8x512.size a ≤ S1x3x8x512.size a
  h_S1x3x8x512 : 0 < S1x3x8x512.numel
  shapeCasts_S1x3x8x512_S3x8x512 : S1x3x8x512.ShapeCasts S3x8x512
  shapeCasts_S3x8x512_S1x3x8x512 : S3x8x512.ShapeCasts S1x3x8x512
  dot_S4096x33_S33x1089_S4096x1089_1_0_0_1_n_n_wf : DotDims.WF S4096x33 S33x1089 S4096x1089 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x8x512.size a ≤ S8x3x1024x1024.size a
  hwx0_0 : ∀ i : grid0.Coords, EltTy.bits .f32 = 32 ∨ (Rect.block (s := S8x3x1024x1024) S1x3x8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x33x33x33.size a ≤ S3x33x33x33.size a
  hwx0_1 : ∀ i : grid0.Coords, EltTy.bits .f32 = 32 ∨ (Rect.block (s := S3x33x33x33) S3x33x33x33.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x8x512.size a ≤ S8x3x1024x1024.size a
  hwx0_2 : ∀ i : grid0.Coords, EltTy.bits .f32 = 32 ∨ (Rect.block (s := S8x3x1024x1024) S1x3x8x512.size (cc0_transform_2 i) (hinb0_2 i)).WholeWords (EltTy.packing .f32)

variable [Facts₀]

def dot_S4096x33_S33x1089_S4096x1089_1_0_0_1_n_n : DotDims S4096x33 S33x1089 S4096x1089 where
  lhsContracting := [1]
  rhsContracting := [0]
  lhsNonContracting := [0]
  rhsNonContracting := [1]
  lhsBatch := []
  rhsBatch := []
  wf := dot_S4096x33_S33x1089_S4096x1089_1_0_0_1_n_n_wf

abbrev win0_0 : Pipeline.Window sig grid0 :=
  Pipeline.Window.ofSpec (Memref.whole main_arg1) S1x3x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x33x33x33.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x3x8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x3x33x33x33 : Shape := ⟨5, ![1, 3, 33, 33, 33]⟩
abbrev S8x3x1024x1024 : Shape := ⟨4, ![8, 3, 1024, 1024]⟩
abbrev S3x33x33x33 : Shape := ⟨4, ![3, 33, 33, 33]⟩
abbrev S_ : Shape := ⟨0, ![]⟩
abbrev S8x1024x1024x3 : Shape := ⟨4, ![8, 1024, 1024, 3]⟩
abbrev S8x1024x1024x1 : Shape := ⟨4, ![8, 1024, 1024, 1]⟩
abbrev S8x1024x1024 : Shape := ⟨3, ![8, 1024, 1024]⟩
abbrev S3x8x1024x1024 : Shape := ⟨4, ![3, 8, 1024, 1024]⟩
abbrev S8x1x1024x1024 : Shape := ⟨4, ![8, 1, 1024, 1024]⟩

abbrev nBuf : Space → Nat
  | .hbm => 342
  | .vmem => 0
  | .smem => 0
  | _ => 0

abbrev hbmTy0_0 (i : Nat) : BufTy := match i % 128 with
  | 0 => ⟨S1x3x33x33x33, .f32⟩
  | 1 => ⟨S8x3x1024x1024, .f32⟩
  | 2 => ⟨S3x33x33x33, .f32⟩
  | 3 => ⟨S_, .f32⟩
  | 4 => ⟨S_, .f32⟩
  | 5 => ⟨S_, .f32⟩
  | 6 => ⟨S8x3x1024x1024, .f32⟩
  | 7 => ⟨S8x3x1024x1024, .f32⟩
  | 8 => ⟨S_, .f32⟩
  | 9 => ⟨S8x3x1024x1024, .f32⟩
  | 10 => ⟨S8x3x1024x1024, .f32⟩
  | 11 => ⟨S_, .f32⟩
  | 12 => ⟨S8x3x1024x1024, .f32⟩
  | 13 => ⟨S8x3x1024x1024, .f32⟩
  | 14 => ⟨S8x1024x1024x3, .f32⟩
  | 15 => ⟨S8x1024x1024x3, .f32⟩
  | 16 => ⟨S8x1024x1024x3, .i32⟩
  | 17 => ⟨S_, .i32⟩
  | 18 => ⟨S8x1024x1024x3, .i32⟩
  | 19 => ⟨S8x1024x1024x3, .i32⟩
  | 20 => ⟨S_, .i32⟩
  | 21 => ⟨S8x1024x1024x3, .i32⟩
  | 22 => ⟨S8x1024x1024x3, .i32⟩
  | 23 => ⟨S8x1024x1024x3, .f32⟩
  | 24 => ⟨S8x1024x1024x3, .f32⟩
  | 25 => ⟨S8x1024x1024x1, .i32⟩
  | 26 => ⟨S8x1024x1024, .i32⟩
  | 27 => ⟨S8x1024x1024x1, .i32⟩
  | 28 => ⟨S8x1024x1024, .i32⟩
  | 29 => ⟨S8x1024x1024x1, .i32⟩
  | 30 => ⟨S8x1024x1024, .i32⟩
  | 31 => ⟨S8x1024x1024x1, .i32⟩
  | 32 => ⟨S8x1024x1024, .i32⟩
  | 33 => ⟨S8x1024x1024x1, .i32⟩
  | 34 => ⟨S8x1024x1024, .i32⟩
  | 35 => ⟨S8x1024x1024x1, .i32⟩
  | 36 => ⟨S8x1024x1024, .i32⟩
  | 37 => ⟨S8x1024x1024x1, .f32⟩
  | 38 => ⟨S8x1024x1024, .f32⟩
  | 39 => ⟨S8x1024x1024x1, .f32⟩
  | 40 => ⟨S8x1024x1024, .f32⟩
  | 41 => ⟨S8x1024x1024x1, .f32⟩
  | 42 => ⟨S8x1024x1024, .f32⟩
  | 43 => ⟨S_, .i32⟩
  | 44 => ⟨S8x1024x1024, .i32⟩
  | 45 => ⟨S8x1024x1024, .i1⟩
  | 46 => ⟨S_, .i32⟩
  | 47 => ⟨S8x1024x1024, .i32⟩
  | 48 => ⟨S8x1024x1024, .i32⟩
  | 49 => ⟨S8x1024x1024, .i32⟩
  | 50 => ⟨S_, .i32⟩
  | 51 => ⟨S8x1024x1024, .i32⟩
  | 52 => ⟨S8x1024x1024, .i1⟩
  | 53 => ⟨S_, .i32⟩
  | 54 => ⟨S8x1024x1024, .i32⟩
  | 55 => ⟨S8x1024x1024, .i32⟩
  | 56 => ⟨S8x1024x1024, .i32⟩
  | 57 => ⟨S_, .i32⟩
  | 58 => ⟨S8x1024x1024, .i32⟩
  | 59 => ⟨S8x1024x1024, .i1⟩
  | 60 => ⟨S_, .i32⟩
  | 61 => ⟨S8x1024x1024, .i32⟩
  | 62 => ⟨S8x1024x1024, .i32⟩
  | 63 => ⟨S8x1024x1024, .i32⟩
  | 64 => ⟨S8x1024x1024x1, .i32⟩
  | 65 => ⟨S8x1024x1024x1, .i32⟩
  | 66 => ⟨S8x1024x1024x1, .i32⟩
  | 67 => ⟨S8x1024x1024x3, .i32⟩
  | 68 => ⟨S3x8x1024x1024, .f32⟩
  | 69 => ⟨S8x3x1024x1024, .f32⟩
  | 70 => ⟨S_, .i32⟩
  | 71 => ⟨S8x1024x1024, .i32⟩
  | 72 => ⟨S8x1024x1024, .i1⟩
  | 73 => ⟨S_, .i32⟩
  | 74 => ⟨S8x1024x1024, .i32⟩
  | 75 => ⟨S8x1024x1024, .i32⟩
  | 76 => ⟨S8x1024x1024, .i32⟩
  | 77 => ⟨S_, .i32⟩
  | 78 => ⟨S8x1024x1024, .i32⟩
  | 79 => ⟨S8x1024x1024, .i1⟩
  | 80 => ⟨S_, .i32⟩
  | 81 => ⟨S8x1024x1024, .i32⟩
  | 82 => ⟨S8x1024x1024, .i32⟩
  | 83 => ⟨S8x1024x1024, .i32⟩
  | 84 => ⟨S_, .i32⟩
  | 85 => ⟨S8x1024x1024, .i32⟩
  | 86 => ⟨S8x1024x1024, .i1⟩
  | 87 => ⟨S_, .i32⟩
  | 88 => ⟨S8x1024x1024, .i32⟩
  | 89 => ⟨S8x1024x1024, .i32⟩
  | 90 => ⟨S8x1024x1024, .i32⟩
  | 91 => ⟨S8x1024x1024x1, .i32⟩
  | 92 => ⟨S8x1024x1024x1, .i32⟩
  | 93 => ⟨S8x1024x1024x1, .i32⟩
  | 94 => ⟨S8x1024x1024x3, .i32⟩
  | 95 => ⟨S3x8x1024x1024, .f32⟩
  | 96 => ⟨S8x3x1024x1024, .f32⟩
  | 97 => ⟨S_, .i32⟩
  | 98 => ⟨S8x1024x1024, .i32⟩
  | 99 => ⟨S8x1024x1024, .i1⟩
  | 100 => ⟨S_, .i32⟩
  | 101 => ⟨S8x1024x1024, .i32⟩
  | 102 => ⟨S8x1024x1024, .i32⟩
  | 103 => ⟨S8x1024x1024, .i32⟩
  | 104 => ⟨S_, .i32⟩
  | 105 => ⟨S8x1024x1024, .i32⟩
  | 106 => ⟨S8x1024x1024, .i1⟩
  | 107 => ⟨S_, .i32⟩
  | 108 => ⟨S8x1024x1024, .i32⟩
  | 109 => ⟨S8x1024x1024, .i32⟩
  | 110 => ⟨S8x1024x1024, .i32⟩
  | 111 => ⟨S_, .i32⟩
  | 112 => ⟨S8x1024x1024, .i32⟩
  | 113 => ⟨S8x1024x1024, .i1⟩
  | 114 => ⟨S_, .i32⟩
  | 115 => ⟨S8x1024x1024, .i32⟩
  | 116 => ⟨S8x1024x1024, .i32⟩
  | 117 => ⟨S8x1024x1024, .i32⟩
  | 118 => ⟨S8x1024x1024x1, .i32⟩
  | 119 => ⟨S8x1024x1024x1, .i32⟩
  | 120 => ⟨S8x1024x1024x1, .i32⟩
  | 121 => ⟨S8x1024x1024x3, .i32⟩
  | 122 => ⟨S3x8x1024x1024, .f32⟩
  | 123 => ⟨S8x3x1024x1024, .f32⟩
  | 124 => ⟨S_, .i32⟩
  | 125 => ⟨S8x1024x1024, .i32⟩
  | 126 => ⟨S8x1024x1024, .i1⟩
  | 127 => ⟨S_, .i32⟩
  | _ => ⟨S1x3x33x33x33, .f32⟩

abbrev hbmTy0_1 (i : Nat) : BufTy := match i % 128 with
  | 0 => ⟨S8x1024x1024, .i32⟩
  | 1 => ⟨S8x1024x1024, .i32⟩
  | 2 => ⟨S8x1024x1024, .i32⟩
  | 3 => ⟨S_, .i32⟩
  | 4 => ⟨S8x1024x1024, .i32⟩
  | 5 => ⟨S8x1024x1024, .i1⟩
  | 6 => ⟨S_, .i32⟩
  | 7 => ⟨S8x1024x1024, .i32⟩
  | 8 => ⟨S8x1024x1024, .i32⟩
  | 9 => ⟨S8x1024x1024, .i32⟩
  | 10 => ⟨S_, .i32⟩
  | 11 => ⟨S8x1024x1024, .i32⟩
  | 12 => ⟨S8x1024x1024, .i1⟩
  | 13 => ⟨S_, .i32⟩
  | 14 => ⟨S8x1024x1024, .i32⟩
  | 15 => ⟨S8x1024x1024, .i32⟩
  | 16 => ⟨S8x1024x1024, .i32⟩
  | 17 => ⟨S8x1024x1024x1, .i32⟩
  | 18 => ⟨S8x1024x1024x1, .i32⟩
  | 19 => ⟨S8x1024x1024x1, .i32⟩
  | 20 => ⟨S8x1024x1024x3, .i32⟩
  | 21 => ⟨S3x8x1024x1024, .f32⟩
  | 22 => ⟨S8x3x1024x1024, .f32⟩
  | 23 => ⟨S_, .i32⟩
  | 24 => ⟨S8x1024x1024, .i32⟩
  | 25 => ⟨S8x1024x1024, .i1⟩
  | 26 => ⟨S_, .i32⟩
  | 27 => ⟨S8x1024x1024, .i32⟩
  | 28 => ⟨S8x1024x1024, .i32⟩
  | 29 => ⟨S8x1024x1024, .i32⟩
  | 30 => ⟨S_, .i32⟩
  | 31 => ⟨S8x1024x1024, .i32⟩
  | 32 => ⟨S8x1024x1024, .i1⟩
  | 33 => ⟨S_, .i32⟩
  | 34 => ⟨S8x1024x1024, .i32⟩
  | 35 => ⟨S8x1024x1024, .i32⟩
  | 36 => ⟨S8x1024x1024, .i32⟩
  | 37 => ⟨S_, .i32⟩
  | 38 => ⟨S8x1024x1024, .i32⟩
  | 39 => ⟨S8x1024x1024, .i1⟩
  | 40 => ⟨S_, .i32⟩
  | 41 => ⟨S8x1024x1024, .i32⟩
  | 42 => ⟨S8x1024x1024, .i32⟩
  | 43 => ⟨S8x1024x1024, .i32⟩
  | 44 => ⟨S8x1024x1024x1, .i32⟩
  | 45 => ⟨S8x1024x1024x1, .i32⟩
  | 46 => ⟨S8x1024x1024x1, .i32⟩
  | 47 => ⟨S8x1024x1024x3, .i32⟩
  | 48 => ⟨S3x8x1024x1024, .f32⟩
  | 49 => ⟨S8x3x1024x1024, .f32⟩
  | 50 => ⟨S_, .i32⟩
  | 51 => ⟨S8x1024x1024, .i32⟩
  | 52 => ⟨S8x1024x1024, .i1⟩
  | 53 => ⟨S_, .i32⟩
  | 54 => ⟨S8x1024x1024, .i32⟩
  | 55 => ⟨S8x1024x1024, .i32⟩
  | 56 => ⟨S8x1024x1024, .i32⟩
  | 57 => ⟨S_, .i32⟩
  | 58 => ⟨S8x1024x1024, .i32⟩
  | 59 => ⟨S8x1024x1024, .i1⟩
  | 60 => ⟨S_, .i32⟩
  | 61 => ⟨S8x1024x1024, .i32⟩
  | 62 => ⟨S8x1024x1024, .i32⟩
  | 63 => ⟨S8x1024x1024, .i32⟩
  | 64 => ⟨S_, .i32⟩
  | 65 => ⟨S8x1024x1024, .i32⟩
  | 66 => ⟨S8x1024x1024, .i1⟩
  | 67 => ⟨S_, .i32⟩
  | 68 => ⟨S8x1024x1024, .i32⟩
  | 69 => ⟨S8x1024x1024, .i32⟩
  | 70 => ⟨S8x1024x1024, .i32⟩
  | 71 => ⟨S8x1024x1024x1, .i32⟩
  | 72 => ⟨S8x1024x1024x1, .i32⟩
  | 73 => ⟨S8x1024x1024x1, .i32⟩
  | 74 => ⟨S8x1024x1024x3, .i32⟩
  | 75 => ⟨S3x8x1024x1024, .f32⟩
  | 76 => ⟨S8x3x1024x1024, .f32⟩
  | 77 => ⟨S_, .i32⟩
  | 78 => ⟨S8x1024x1024, .i32⟩
  | 79 => ⟨S8x1024x1024, .i1⟩
  | 80 => ⟨S_, .i32⟩
  | 81 => ⟨S8x1024x1024, .i32⟩
  | 82 => ⟨S8x1024x1024, .i32⟩
  | 83 => ⟨S8x1024x1024, .i32⟩
  | 84 => ⟨S_, .i32⟩
  | 85 => ⟨S8x1024x1024, .i32⟩
  | 86 => ⟨S8x1024x1024, .i1⟩
  | 87 => ⟨S_, .i32⟩
  | 88 => ⟨S8x1024x1024, .i32⟩
  | 89 => ⟨S8x1024x1024, .i32⟩
  | 90 => ⟨S8x1024x1024, .i32⟩
  | 91 => ⟨S_, .i32⟩
  | 92 => ⟨S8x1024x1024, .i32⟩
  | 93 => ⟨S8x1024x1024, .i1⟩
  | 94 => ⟨S_, .i32⟩
  | 95 => ⟨S8x1024x1024, .i32⟩
  | 96 => ⟨S8x1024x1024, .i32⟩
  | 97 => ⟨S8x1024x1024, .i32⟩
  | 98 => ⟨S8x1024x1024x1, .i32⟩
  | 99 => ⟨S8x1024x1024x1, .i32⟩
  | 100 => ⟨S8x1024x1024x1, .i32⟩
  | 101 => ⟨S8x1024x1024x3, .i32⟩
  | 102 => ⟨S3x8x1024x1024, .f32⟩
  | 103 => ⟨S8x3x1024x1024, .f32⟩
  | 104 => ⟨S_, .i32⟩
  | 105 => ⟨S8x1024x1024, .i32⟩
  | 106 => ⟨S8x1024x1024, .i1⟩
  | 107 => ⟨S_, .i32⟩
  | 108 => ⟨S8x1024x1024, .i32⟩
  | 109 => ⟨S8x1024x1024, .i32⟩
  | 110 => ⟨S8x1024x1024, .i32⟩
  | 111 => ⟨S_, .i32⟩
  | 112 => ⟨S8x1024x1024, .i32⟩
  | 113 => ⟨S8x1024x1024, .i1⟩
  | 114 => ⟨S_, .i32⟩
  | 115 => ⟨S8x1024x1024, .i32⟩
  | 116 => ⟨S8x1024x1024, .i32⟩
  | 117 => ⟨S8x1024x1024, .i32⟩
  | 118 => ⟨S_, .i32⟩
  | 119 => ⟨S8x1024x1024, .i32⟩
  | 120 => ⟨S8x1024x1024, .i1⟩
  | 121 => ⟨S_, .i32⟩
  | 122 => ⟨S8x1024x1024, .i32⟩
  | 123 => ⟨S8x1024x1024, .i32⟩
  | 124 => ⟨S8x1024x1024, .i32⟩
  | 125 => ⟨S8x1024x1024x1, .i32⟩
  | 126 => ⟨S8x1024x1024x1, .i32⟩
  | 127 => ⟨S8x1024x1024x1, .i32⟩
  | _ => ⟨S1x3x33x33x33, .f32⟩

abbrev hbmTy0_2 (i : Nat) : BufTy := match i % 128 with
  | 0 => ⟨S8x1024x1024x3, .i32⟩
  | 1 => ⟨S3x8x1024x1024, .f32⟩
  | 2 => ⟨S8x3x1024x1024, .f32⟩
  | 3 => ⟨S_, .f32⟩
  | 4 => ⟨S8x1024x1024, .f32⟩
  | 5 => ⟨S8x1024x1024, .f32⟩
  | 6 => ⟨S_, .f32⟩
  | 7 => ⟨S8x1024x1024, .f32⟩
  | 8 => ⟨S8x1024x1024, .f32⟩
  | 9 => ⟨S8x1024x1024, .f32⟩
  | 10 => ⟨S_, .f32⟩
  | 11 => ⟨S8x1024x1024, .f32⟩
  | 12 => ⟨S8x1024x1024, .f32⟩
  | 13 => ⟨S8x1024x1024, .f32⟩
  | 14 => ⟨S8x1x1024x1024, .f32⟩
  | 15 => ⟨S_, .f32⟩
  | 16 => ⟨S8x1024x1024, .f32⟩
  | 17 => ⟨S8x1024x1024, .f32⟩
  | 18 => ⟨S8x1024x1024, .f32⟩
  | 19 => ⟨S_, .f32⟩
  | 20 => ⟨S8x1024x1024, .f32⟩
  | 21 => ⟨S8x1024x1024, .f32⟩
  | 22 => ⟨S8x1024x1024, .f32⟩
  | 23 => ⟨S8x1x1024x1024, .f32⟩
  | 24 => ⟨S_, .f32⟩
  | 25 => ⟨S8x1024x1024, .f32⟩
  | 26 => ⟨S8x1024x1024, .f32⟩
  | 27 => ⟨S8x1024x1024, .f32⟩
  | 28 => ⟨S_, .f32⟩
  | 29 => ⟨S8x1024x1024, .f32⟩
  | 30 => ⟨S8x1024x1024, .f32⟩
  | 31 => ⟨S8x1024x1024, .f32⟩
  | 32 => ⟨S8x1x1024x1024, .f32⟩
  | 33 => ⟨S8x1024x1024, .f32⟩
  | 34 => ⟨S_, .f32⟩
  | 35 => ⟨S8x1024x1024, .f32⟩
  | 36 => ⟨S8x1024x1024, .f32⟩
  | 37 => ⟨S8x1024x1024, .f32⟩
  | 38 => ⟨S8x1x1024x1024, .f32⟩
  | 39 => ⟨S_, .f32⟩
  | 40 => ⟨S8x1024x1024, .f32⟩
  | 41 => ⟨S8x1024x1024, .f32⟩
  | 42 => ⟨S_, .f32⟩
  | 43 => ⟨S8x1024x1024, .f32⟩
  | 44 => ⟨S8x1024x1024, .f32⟩
  | 45 => ⟨S8x1024x1024, .f32⟩
  | 46 => ⟨S8x1024x1024, .f32⟩
  | 47 => ⟨S8x1x1024x1024, .f32⟩
  | 48 => ⟨S_, .f32⟩
  | 49 => ⟨S8x1024x1024, .f32⟩
  | 50 => ⟨S8x1024x1024, .f32⟩
  | 51 => ⟨S8x1024x1024, .f32⟩
  | 52 => ⟨S8x1024x1024, .f32⟩
  | 53 => ⟨S8x1x1024x1024, .f32⟩
  | 54 => ⟨S_, .f32⟩
  | 55 => ⟨S8x1024x1024, .f32⟩
  | 56 => ⟨S8x1024x1024, .f32⟩
  | 57 => ⟨S8x1024x1024, .f32⟩
  | 58 => ⟨S8x1024x1024, .f32⟩
  | 59 => ⟨S8x1x1024x1024, .f32⟩
  | 60 => ⟨S8x1024x1024, .f32⟩
  | 61 => ⟨S8x1024x1024, .f32⟩
  | 62 => ⟨S8x1x1024x1024, .f32⟩
  | 63 => ⟨S8x3x1024x1024, .f32⟩
  | 64 => ⟨S8x3x1024x1024, .f32⟩
  | 65 => ⟨S8x3x1024x1024, .f32⟩
  | 66 => ⟨S8x3x1024x1024, .f32⟩
  | 67 => ⟨S8x3x1024x1024, .f32⟩
  | 68 => ⟨S8x3x1024x1024, .f32⟩
  | 69 => ⟨S8x3x1024x1024, .f32⟩
  | 70 => ⟨S8x3x1024x1024, .f32⟩
  | 71 => ⟨S8x3x1024x1024, .f32⟩
  | 72 => ⟨S8x3x1024x1024, .f32⟩
  | 73 => ⟨S8x3x1024x1024, .f32⟩
  | 74 => ⟨S8x3x1024x1024, .f32⟩
  | 75 => ⟨S8x3x1024x1024, .f32⟩
  | 76 => ⟨S8x3x1024x1024, .f32⟩
  | 77 => ⟨S8x3x1024x1024, .f32⟩
  | 78 => ⟨S8x3x1024x1024, .f32⟩
  | 79 => ⟨S8x3x1024x1024, .f32⟩
  | 80 => ⟨S8x3x1024x1024, .f32⟩
  | 81 => ⟨S8x3x1024x1024, .f32⟩
  | 82 => ⟨S8x3x1024x1024, .f32⟩
  | 83 => ⟨S8x3x1024x1024, .f32⟩
  | 84 => ⟨S8x3x1024x1024, .f32⟩
  | 85 => ⟨S8x3x1024x1024, .f32⟩
  | _ => ⟨S1x3x33x33x33, .f32⟩

abbrev hbmTy (i : Nat) : BufTy := match i / 128 with
  | 0 => hbmTy0_0 i
  | 1 => hbmTy0_1 i
  | 2 => hbmTy0_2 i
  | _ => ⟨S1x3x33x33x33, .f32⟩

abbrev bufTy : (tb : Table) → Fin (tcTables nBuf tb) → BufTy
  | .hbm, ⟨i, _⟩ => hbmTy i
  | _, _ => ⟨S1x3x33x33x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_3 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_c_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_9 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_11 : Ref sig .tc := ⟨.hbm, 77, rfl⟩
abbrev main_v57 : Ref sig .tc := ⟨.hbm, 78, rfl⟩
abbrev main_v58 : Ref sig .tc := ⟨.hbm, 79, rfl⟩
abbrev main_c_12 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_13 : Ref sig .tc := ⟨.hbm, 84, rfl⟩
abbrev main_v62 : Ref sig .tc := ⟨.hbm, 85, rfl⟩
abbrev main_v63 : Ref sig .tc := ⟨.hbm, 86, rfl⟩
abbrev main_c_14 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_15 : Ref sig .tc := ⟨.hbm, 97, rfl⟩
abbrev main_v73 : Ref sig .tc := ⟨.hbm, 98, rfl⟩
abbrev main_v74 : Ref sig .tc := ⟨.hbm, 99, rfl⟩
abbrev main_c_16 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_17 : Ref sig .tc := ⟨.hbm, 104, rfl⟩
abbrev main_v78 : Ref sig .tc := ⟨.hbm, 105, rfl⟩
abbrev main_v79 : Ref sig .tc := ⟨.hbm, 106, rfl⟩
abbrev main_c_18 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_19 : Ref sig .tc := ⟨.hbm, 111, rfl⟩
abbrev main_v83 : Ref sig .tc := ⟨.hbm, 112, rfl⟩
abbrev main_v84 : Ref sig .tc := ⟨.hbm, 113, rfl⟩
abbrev main_c_20 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c_21 : Ref sig .tc := ⟨.hbm, 124, rfl⟩
abbrev main_v94 : Ref sig .tc := ⟨.hbm, 125, rfl⟩
abbrev main_v95 : Ref sig .tc := ⟨.hbm, 126, rfl⟩
abbrev main_c_22 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_c_23 : Ref sig .tc := ⟨.hbm, 131, rfl⟩
abbrev main_v99 : Ref sig .tc := ⟨.hbm, 132, rfl⟩
abbrev main_v100 : Ref sig .tc := ⟨.hbm, 133, rfl⟩
abbrev main_c_24 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_c_25 : Ref sig .tc := ⟨.hbm, 138, rfl⟩
abbrev main_v104 : Ref sig .tc := ⟨.hbm, 139, rfl⟩
abbrev main_v105 : Ref sig .tc := ⟨.hbm, 140, rfl⟩
abbrev main_c_26 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_c_27 : Ref sig .tc := ⟨.hbm, 151, rfl⟩
abbrev main_v115 : Ref sig .tc := ⟨.hbm, 152, rfl⟩
abbrev main_v116 : Ref sig .tc := ⟨.hbm, 153, rfl⟩
abbrev main_c_28 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_c_29 : Ref sig .tc := ⟨.hbm, 158, rfl⟩
abbrev main_v120 : Ref sig .tc := ⟨.hbm, 159, rfl⟩
abbrev main_v121 : Ref sig .tc := ⟨.hbm, 160, rfl⟩
abbrev main_c_30 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_c_31 : Ref sig .tc := ⟨.hbm, 165, rfl⟩
abbrev main_v125 : Ref sig .tc := ⟨.hbm, 166, rfl⟩
abbrev main_v126 : Ref sig .tc := ⟨.hbm, 167, rfl⟩
abbrev main_c_32 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_c_33 : Ref sig .tc := ⟨.hbm, 178, rfl⟩
abbrev main_v136 : Ref sig .tc := ⟨.hbm, 179, rfl⟩
abbrev main_v137 : Ref sig .tc := ⟨.hbm, 180, rfl⟩
abbrev main_c_34 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_c_35 : Ref sig .tc := ⟨.hbm, 185, rfl⟩
abbrev main_v141 : Ref sig .tc := ⟨.hbm, 186, rfl⟩
abbrev main_v142 : Ref sig .tc := ⟨.hbm, 187, rfl⟩
abbrev main_c_36 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_c_37 : Ref sig .tc := ⟨.hbm, 192, rfl⟩
abbrev main_v146 : Ref sig .tc := ⟨.hbm, 193, rfl⟩
abbrev main_v147 : Ref sig .tc := ⟨.hbm, 194, rfl⟩
abbrev main_c_38 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_c_39 : Ref sig .tc := ⟨.hbm, 205, rfl⟩
abbrev main_v157 : Ref sig .tc := ⟨.hbm, 206, rfl⟩
abbrev main_v158 : Ref sig .tc := ⟨.hbm, 207, rfl⟩
abbrev main_c_40 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_c_41 : Ref sig .tc := ⟨.hbm, 212, rfl⟩
abbrev main_v162 : Ref sig .tc := ⟨.hbm, 213, rfl⟩
abbrev main_v163 : Ref sig .tc := ⟨.hbm, 214, rfl⟩
abbrev main_c_42 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_c_43 : Ref sig .tc := ⟨.hbm, 219, rfl⟩
abbrev main_v167 : Ref sig .tc := ⟨.hbm, 220, rfl⟩
abbrev main_v168 : Ref sig .tc := ⟨.hbm, 221, rfl⟩
abbrev main_c_44 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_c_45 : Ref sig .tc := ⟨.hbm, 232, rfl⟩
abbrev main_v178 : Ref sig .tc := ⟨.hbm, 233, rfl⟩
abbrev main_v179 : Ref sig .tc := ⟨.hbm, 234, rfl⟩
abbrev main_c_46 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_c_47 : Ref sig .tc := ⟨.hbm, 239, rfl⟩
abbrev main_v183 : Ref sig .tc := ⟨.hbm, 240, rfl⟩
abbrev main_v184 : Ref sig .tc := ⟨.hbm, 241, rfl⟩
abbrev main_c_48 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_c_49 : Ref sig .tc := ⟨.hbm, 246, rfl⟩
abbrev main_v188 : Ref sig .tc := ⟨.hbm, 247, rfl⟩
abbrev main_v189 : Ref sig .tc := ⟨.hbm, 248, rfl⟩
abbrev main_c_50 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_cst_51 : Ref sig .tc := ⟨.hbm, 259, rfl⟩
abbrev main_v199 : Ref sig .tc := ⟨.hbm, 260, rfl⟩
abbrev main_v200 : Ref sig .tc := ⟨.hbm, 261, rfl⟩
abbrev main_cst_52 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_cst_53 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_cst_54 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_cst_55 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_cst_56 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_cst_57 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_cst_58 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_cst_59 : Ref sig .tc := ⟨.hbm, 295, rfl⟩
abbrev main_v227 : Ref sig .tc := ⟨.hbm, 296, rfl⟩
abbrev main_v228 : Ref sig .tc := ⟨.hbm, 297, rfl⟩
abbrev main_cst_60 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_cst_61 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_cst_62 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_v269 : Ref sig .tc := ⟨.hbm, 341, rfl⟩

abbrev nD : Nat := 1
abbrev τ : Topo := Topo.v7x

variable {F : FTy → Type} [FloatOps F]

class Facts₀ : Prop where
  shapeCasts_S1x3x33x33x33_S3x33x33x33 : S1x3x33x33x33.ShapeCasts S3x33x33x33
  bcast_S_S8x3x1024x1024 : S_.BroadcastsInDim S8x3x1024x1024 (![] : Fin 0 → Fin S8x3x1024x1024.rank)
  transposes_S8x3x1024x1024_S8x1024x1024x3_0_2_3_1 : S8x3x1024x1024.Transposes [0, 2, 3, 1] S8x1024x1024x3
  bcast_S_S8x1024x1024x3 : S_.BroadcastsInDim S8x1024x1024x3 (![] : Fin 0 → Fin S8x1024x1024x3.rank)
  slices_S8x1024x1024x3_S8x1024x1024x1_0_0_0_0 : S8x1024x1024x3.Slices ![0, 0, 0, 0] S8x1024x1024x1
  shapeCasts_S8x1024x1024x1_S8x1024x1024 : S8x1024x1024x1.ShapeCasts S8x1024x1024
  slices_S8x1024x1024x3_S8x1024x1024x1_0_0_0_1 : S8x1024x1024x3.Slices ![0, 0, 0, 1] S8x1024x1024x1
  slices_S8x1024x1024x3_S8x1024x1024x1_0_0_0_2 : S8x1024x1024x3.Slices ![0, 0, 0, 2] S8x1024x1024x1
  bcast_S_S8x1024x1024 : S_.BroadcastsInDim S8x1024x1024 (![] : Fin 0 → Fin S8x1024x1024.rank)
  bcast_S8x1024x1024_S8x1024x1024x1_0_1_2 : S8x1024x1024.BroadcastsInDim S8x1024x1024x1 (![0, 1, 2] : Fin 3 → Fin S8x1024x1024x1.rank)
  concatenates_S8x1024x1024x1_S8x1024x1024x1_S8x1024x1024x1_S8x1024x1024x3_d3 : Shape.Concatenates [S8x1024x1024x1, S8x1024x1024x1, S8x1024x1024x1] S8x1024x1024x3 3
  transposes_S3x8x1024x1024_S8x3x1024x1024_1_0_2_3 : S3x8x1024x1024.Transposes [1, 0, 2, 3] S8x3x1024x1024
  bcast_S8x1024x1024_S8x1x1024x1024_0_2_3 : S8x1024x1024.BroadcastsInDim S8x1x1024x1024 (![0, 2, 3] : Fin 3 → Fin S8x1x1024x1024.rank)
  bcast_S8x1x1024x1024_S8x3x1024x1024_0_1_2_3 : S8x1x1024x1024.BroadcastsInDim S8x3x1024x1024 (![0, 1, 2, 3] : Fin 4 → Fin S8x3x1024x1024.rank)
  gather_S3x33x33x33_S8x1024x1024x3_S3x8x1024x1024_0_123_n_n_123_3_3111_wf : GatherDims.WF S3x33x33x33 S8x1024x1024x3 S3x8x1024x1024 [0] [1, 2, 3] [] [1, 2, 3] [] 3 ![3, 1, 1, 1]

variable [Facts₀]

def gather_S3x33x33x33_S8x1024x1024x3_S3x8x1024x1024_0_123_n_n_123_3_3111 : GatherDims S3x33x33x33 S8x1024x1024x3 S3x8x1024x1024 where
  offsetDims := [0]
  collapsedSliceDims := [1, 2, 3]
  operandBatchingDims := []
  startIndicesBatchingDims := []
  startIndexMap := [1, 2, 3]
  indexVectorDim := 3
  sliceSizes := ![3, 1, 1, 1]
  wf := gather_S3x33x33x33_S8x1024x1024x3_S3x8x1024x1024_0_123_n_n_123_3_3111_wf

class Facts : Prop extends Facts₀ where

variable [Facts]
-- ==== Proof.Spec.lean ====
/-
  Trilinear interpolation in a 33×33×33 table, per pixel, on the extended reals.

  A colour coordinate x is clamped to [0, 1] and scaled by 32; its integer part picks a cell
  `lo x` (and the next one, `hi x = min (lo x + 1) 32`), its fractional part `frac x` the position
  inside the cell. Along one axis the two neighbours get the weights `1 - frac x` and `frac x`:
  `weight x d` is that weight spread over all 33 cells (zero away from the two neighbours).

  Two ways of writing the interpolated value of a table `L` at a pixel (xr, xg, xb):
  * `kerPix`: the table contracted with the three weight vectors, one axis after the other
    (first the r axis, then g, then b);
  * `refPix`: the eight corner values, each times the product of its three one-axis weights.
-/
import Idealize.ShloMosaic.PureOps.Ideal
import Idealize.ShloMosaic.PureOps.Ideal.Laws

noncomputable section

open scoped BigOperators

namespace Trilerp

open Idealize.ShloMosaic

/-- The f32 words of 0, 1 and 32, read on the extended reals. -/
abbrev zeroW : EReal := Ideal.ofBits .f32 0x00000000#32
abbrev oneW : EReal := Ideal.ofBits .f32 0x3F800000#32
abbrev c32W : EReal := Ideal.ofBits .f32 0x42000000#32

/-- A coordinate clamped to [0, 1] and scaled to the table's 32 cells. -/
def scaled (x : EReal) : EReal := min oneW (max zeroW x) * c32W

/-- The cell below: the integer part of the scaled coordinate, as a 32-bit word. -/
def lo (x : EReal) : BitVec 32 := Ideal.fptosi 32 (Ideal.liftRound Int.floor (scaled x))

/-- The cell above, kept inside the table. -/
def hi (x : EReal) : BitVec 32 := IntOp.minsi (IntOp.addi (lo x) 1#32) 32#32

/-- The position inside the cell. -/
def frac (x : EReal) : EReal := scaled x - (((lo x).toInt : ℝ) : EReal)

/-- Two weights `1 - f` and `f` placed at the cells `i0` and `i1` of a 33-cell axis (added where the two coincide). -/
def hat (i0 i1 : BitVec 32) (f : EReal) (d : Fin 33) : EReal :=
  (if BitVec.ofNat 32 d.val = i0 then oneW - f else zeroW) + (if BitVec.ofNat 32 d.val = i1 then f else zeroW)

/-- The one-axis interpolation weights of a coordinate. -/
def weight (x : EReal) (d : Fin 33) : EReal := hat (lo x) (hi x) (frac x) d

/-- The table contracted with the three weight vectors, axis by axis. -/
def kerPix (L : Fin 33 → Fin 33 → Fin 33 → EReal) (xr xg xb : EReal) : EReal :=
  ∑ b : Fin 33, (∑ g : Fin 33, (∑ d : Fin 33, weight xr d * L d g b) * weight xg g) * weight xb b

/-- The table cell a 32-bit word addresses: a negative word counts from the end, and the result is kept
    inside the table. -/
def cell (w : BitVec 32) : Fin 33 :=
  ⟨min (Scalar.select (IntOp.cmpi .slt w 0#32) (IntOp.addi w 33#32) w).toInt.toNat 32, by omega⟩

/-- The eight corners of the cell, each times the product of its three one-axis weights, summed in the
    order (r, g, b) = 000, 100, 010, 110, 001, 101, 011, 111. -/
def refPix (L : Fin 33 → Fin 33 → Fin 33 → EReal) (xr xg xb : EReal) : EReal :=
  L (cell (lo xr)) (cell (lo xg)) (cell (lo xb)) * (((oneW - frac xr) * (oneW - frac xg)) * (oneW - frac xb))
  + L (cell (hi xr)) (cell (lo xg)) (cell (lo xb)) * ((frac xr * (oneW - frac xg)) * (oneW - frac xb))
  + L (cell (lo xr)) (cell (hi xg)) (cell (lo xb)) * (((oneW - frac xr) * frac xg) * (oneW - frac xb))
  + L (cell (hi xr)) (cell (hi xg)) (cell (lo xb)) * ((frac xr * frac xg) * (oneW - frac xb))
  + L (cell (lo xr)) (cell (lo xg)) (cell (hi xb)) * (((oneW - frac xr) * (oneW - frac xg)) * frac xb)
  + L (cell (hi xr)) (cell (lo xg)) (cell (hi xb)) * ((frac xr * (oneW - frac xg)) * frac xb)
  + L (cell (lo xr)) (cell (hi xg)) (cell (hi xb)) * (((oneW - frac xr) * frac xg) * frac xb)
  + L (cell (hi xr)) (cell (hi xg)) (cell (hi xb)) * ((frac xr * frac xg) * frac xb)

end Trilerp

end
-- ==== Proof.Arrays.lean ====
/-
  The interpolated image as ONE function of the two argument arrays.

  The table array has shape [1, 3, 33, 33, 33] (a unit batch axis, the colour channel, then the r, g, b
  cells); the image has shape [8, 3, 1024, 1024] (batch, channel, row, column). Output entry
  (n, c, h, w) interpolates channel c's table at the pixel whose three coordinates are the image's
  entries (n, 0, h, w), (n, 1, h, w), (n, 2, h, w).
-/
import proofs.«122885_j82171314307385_1_alg».proof.Proof.Spec
import Idealize.ShloMosaic.Lib.ValueIdx

noncomputable section

namespace Trilerp

open Idealize.ShloMosaic Idealize.ShloMosaic.ValueIdx

/-- The 33×33×33 table of colour channel `c`. -/
def table (lut : (⟨5, ![1, 3, 33, 33, 33]⟩ : Shape).Idx → EReal) (c : Fin 3) : Fin 33 → Fin 33 → Fin 33 → EReal :=
  fun d g b => lut (ix5 (0 : Fin 1) c d g b)

/-- The pixel's colour coordinate on channel `k`. -/
def coord (x : (⟨4, ![8, 3, 1024, 1024]⟩ : Shape).Idx → EReal) (n : Fin 8) (k : Fin 3) (h w : Fin 1024) : EReal :=
  x (ix4 n k h w)

/-- The output array, every entry the axis-by-axis contraction of its channel's table with the pixel's weights. -/
def G (lut : (⟨5, ![1, 3, 33, 33, 33]⟩ : Shape).Idx → EReal) (x : (⟨4, ![8, 3, 1024, 1024]⟩ : Shape).Idx → EReal) :
    (⟨4, ![8, 3, 1024, 1024]⟩ : Shape).Idx → EReal :=
  fun i => kerPix (table lut (i 1)) (coord x (i 0) 0 (i 2) (i 3)) (coord x (i 0) 1 (i 2) (i 3)) (coord x (i 0) 2 (i 2) (i 3))

/-- The same array written corner by corner. -/
def Gref (lut : (⟨5, ![1, 3, 33, 33, 33]⟩ : Shape).Idx → EReal) (x : (⟨4, ![8, 3, 1024, 1024]⟩ : Shape).Idx → EReal) :
    (⟨4, ![8, 3, 1024, 1024]⟩ : Shape).Idx → EReal :=
  fun i => refPix (table lut (i 1)) (coord x (i 0) 0 (i 2) (i 3)) (coord x (i 0) 1 (i 2) (i 3)) (coord x (i 0) 2 (i 2) (i 3))

end Trilerp

end
-- ==== Proof.Algebra.lean ====
/-
  The two ways of writing the interpolated value agree for real data.

  For a real coordinate a the scaled value s = min 1 (max 0 a) · 32 lies in [0, 32], so its integer part is
  one of the 33 cells k = ⌊s⌋, the next cell is min (k + 1) 32, and the fraction f = s − k is a real. The
  one-axis weight vector is then (1 − f) at cell k plus f at the next cell (both at cell 32 when k = 32, where
  f = 0), and contracting any axis of a real table with it picks out (1 − f) · (value at k) + f · (value at the
  next cell). Doing this for the three axes in turn and multiplying out gives the eight-corner sum: an identity
  of polynomials over ℝ. Finiteness is what lets the product be distributed over the sums: on the extended
  reals that law fails at the infinities.
-/
import proofs.«122885_j82171314307385_1_alg».proof.Proof.Spec
import proofs.«122885_j82171314307385_1_alg».proof.Proof.Arrays

noncomputable section

open scoped BigOperators

namespace Trilerp

open Idealize.ShloMosaic

/-- The three float words denote 1, 0 and 32. -/
theorem oneW_eq : oneW = ((1 : ℝ) : EReal) := by
  simp [Ideal.ofBits, Ideal.ieee, -EReal.coe_mul]; norm_num

theorem zeroW_eq : zeroW = ((0 : ℝ) : EReal) := by
  simp [Ideal.ofBits, Ideal.ieee]

theorem c32W_eq : c32W = ((32 : ℝ) : EReal) := by
  simp [Ideal.ofBits, Ideal.ieee, -EReal.coe_mul]; norm_num

/-- The reading of a real on the extended reals commutes with max and min. -/
theorem coe_max' (a b : ℝ) : ((max a b : ℝ) : EReal) = max (a : EReal) (b : EReal) := EReal.coe_strictMono.monotone.map_max
theorem coe_min' (a b : ℝ) : ((min a b : ℝ) : EReal) = min (a : EReal) (b : EReal) := EReal.coe_strictMono.monotone.map_min

/-- The scaled coordinate of a real is a real. -/
theorem scaled_coe (a : ℝ) : scaled (a : EReal) = ((min 1 (max 0 a) * 32 : ℝ) : EReal) := by
  unfold scaled
  rw [oneW_eq, zeroW_eq, c32W_eq, ← coe_max', ← coe_min', ← EReal.coe_mul]

/-- Facts about the 33 cell numbers as 32-bit words, each checked on all cells: a cell's word reads signed as the cell,
    two cells with one word are one cell, the cell above (kept inside the table) is `next`, and a cell's word addresses that cell. -/
theorem toInt_word : ∀ k : Fin 33, (BitVec.ofNat 32 k.val).toInt = (k.val : ℤ) := by decide

theorem word_inj : ∀ d k : Fin 33, BitVec.ofNat 32 d.val = BitVec.ofNat 32 k.val ↔ d = k := by decide

/-- The cell above `k`, kept inside the table. -/
def next (k : Fin 33) : Fin 33 := ⟨min (k.val + 1) 32, by omega⟩

theorem hi_word : ∀ k : Fin 33, IntOp.minsi (IntOp.addi (BitVec.ofNat 32 k.val) 1#32) 32#32 = BitVec.ofNat 32 (next k).val := by decide

theorem cell_word : ∀ k : Fin 33, cell (BitVec.ofNat 32 k.val) = k := by decide

/-- The scaled coordinate of a real lies in [0, 32]. -/
theorem scaled_range (a : ℝ) : 0 ≤ min 1 (max 0 a) * 32 ∧ min 1 (max 0 a) * 32 ≤ 32 := by
  have h0 : 0 ≤ min 1 (max 0 a) := le_min zero_le_one (le_max_left _ _)
  have h1 : min 1 (max 0 a) ≤ 1 := min_le_left _ _
  constructor <;> nlinarith

/-- For a real coordinate the cell below is one of the 33 cells and the fraction is the real distance to it. -/
theorem lo_coe (a : ℝ) : ∃ k : Fin 33, lo (a : EReal) = BitVec.ofNat 32 k.val
    ∧ frac (a : EReal) = ((min 1 (max 0 a) * 32 - (k.val : ℝ) : ℝ) : EReal) := by
  obtain ⟨hs0, hs1⟩ := scaled_range a
  set s : ℝ := min 1 (max 0 a) * 32 with hs
  have hf0 : 0 ≤ ⌊s⌋ := Int.floor_nonneg.mpr hs0
  have hf1 : ⌊s⌋ ≤ 32 := by
    have : ⌊s⌋ ≤ ⌊(32 : ℝ)⌋ := Int.floor_le_floor hs1
    simpa using this
  obtain ⟨n, hn⟩ := Int.eq_ofNat_of_zero_le hf0
  have hn33 : n < 33 := by omega
  have hlo : lo (a : EReal) = BitVec.ofNat 32 n := by
    unfold lo
    rw [scaled_coe, ← hs, Ideal.liftRound_coe, Ideal.fptosi, Ideal.toIntClamped_coe,
      if_pos (by exact_mod_cast hf0), Int.floor_intCast, hn]
    rw [min_eq_right (by norm_num <;> omega), max_eq_right (by norm_num <;> omega), BitVec.ofInt_natCast]
  refine ⟨⟨n, hn33⟩, hlo, ?_⟩
  unfold frac
  rw [hlo, scaled_coe, ← hs, toInt_word ⟨n, hn33⟩, ← EReal.coe_sub]
  simp

/-- A finite sum of reals read on the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The one-axis weights of a real coordinate, as reals: `1 - f` at cell `k`, `f` at the next cell. -/
def rweight (k : Fin 33) (f : ℝ) (d : Fin 33) : ℝ := (if d = k then 1 - f else 0) + (if d = next k then f else 0)

/-- Everything the two formulas use about one real coordinate: its weight vector, its two cells and its fraction. -/
theorem axis_real (a : ℝ) : ∃ (k : Fin 33) (f : ℝ), (∀ d, weight (a : EReal) d = ((rweight k f d : ℝ) : EReal))
    ∧ cell (lo (a : EReal)) = k ∧ cell (hi (a : EReal)) = next k ∧ frac (a : EReal) = ((f : ℝ) : EReal) := by
  obtain ⟨k, hlo, hfr⟩ := lo_coe a
  have hhi : hi (a : EReal) = BitVec.ofNat 32 (next k).val := by unfold hi; rw [hlo, hi_word]
  refine ⟨k, _, fun d => ?_, by rw [hlo, cell_word], by rw [hhi, cell_word], hfr⟩
  unfold weight hat rweight
  rw [hlo, hhi, hfr]
  simp only [word_inj]
  rw [oneW_eq, zeroW_eq, EReal.coe_add]
  congr 1
  · split_ifs
    · exact (EReal.coe_sub 1 _).symm
    · rfl
  · split_ifs <;> rfl

/-- Contracting an axis with the two-cell weights picks the two neighbours. -/
theorem axis_sum (k : Fin 33) (f : ℝ) (F : Fin 33 → ℝ) : ∑ d, rweight k f d * F d = (1 - f) * F k + f * F (next k) := by
  simp only [rweight, add_mul, ite_mul, zero_mul, Finset.sum_add_distrib, Finset.sum_ite_eq', Finset.mem_univ, if_true]

theorem axis_sum' (k : Fin 33) (f : ℝ) (F : Fin 33 → ℝ) : ∑ d, F d * rweight k f d = (1 - f) * F k + f * F (next k) := by
  simp only [mul_comm (F _), axis_sum]

/-- For a real table and a real pixel the axis-by-axis contraction is the eight-corner sum. -/
theorem kerPix_eq_refPix (ℓ : Fin 33 → Fin 33 → Fin 33 → ℝ) (a b c : ℝ) :
    kerPix (fun d g e => ((ℓ d g e : ℝ) : EReal)) (a : EReal) (b : EReal) (c : EReal)
      = refPix (fun d g e => ((ℓ d g e : ℝ) : EReal)) (a : EReal) (b : EReal) (c : EReal) := by
  obtain ⟨kr, fr, hwr, hr0, hr1, hfr⟩ := axis_real a
  obtain ⟨kg, fg, hwg, hg0, hg1, hfg⟩ := axis_real b
  obtain ⟨kb, fb, hwb, hb0, hb1, hfb⟩ := axis_real c
  unfold kerPix refPix
  simp only [hwr, hwg, hwb, hr0, hr1, hg0, hg1, hb0, hb1, hfr, hfg, hfb, oneW_eq, ← EReal.coe_mul, ← EReal.coe_sub, ← EReal.coe_add,
    ← coe_sum, axis_sum, axis_sum']
  congr 1
  ring

/-- So the two arrays agree when the table and the image hold real numbers only. -/
theorem G_eq_Gref (lut : (⟨5, ![1, 3, 33, 33, 33]⟩ : Shape).Idx → EReal) (x : (⟨4, ![8, 3, 1024, 1024]⟩ : Shape).Idx → EReal)
    (hl : ∀ j, ∃ r : ℝ, lut j = (r : EReal)) (hx : ∀ j, ∃ r : ℝ, x j = (r : EReal)) : G lut x = Gref lut x := by
  choose l hl using hl
  choose y hy using hx
  funext i
  unfold G Gref table coord
  simp only [hl, hy]
  exact kerPix_eq_refPix _ _ _ _

end Trilerp
end
-- ==== Proof.LibFiniteEntry.lean ====
/-
  An entry that passes the test "its absolute value is below +∞" is a real number.

  A finiteness precondition prints, per float array, as: every entry's absolute value compares below the word of `+∞`.
  On the extended reals the absolute value is `max a (−a)`, the word `0x7F800000` denotes `⊤`, and `max a (−a) < ⊤`
  excludes both `⊤` and `⊥`: the entry is a real number (`real_of_abs_lt_top`). The all-true test over a whole array
  reduces to one index of a rank-0 result, which has a single index (the `Subsingleton` instance).
-/
import Idealize.ShloMosaic.PureOps.Ideal
import Idealize.ShloMosaic.PureOps.Ideal.Laws

noncomputable section

namespace Cert.FiniteEntry

open Idealize.ShloMosaic

/-- The f32 word of `+∞` denotes `⊤`. -/
theorem ofBits_inf : Ideal.ofBits .f32 0x7F800000#32 = (⊤ : EReal) := by
  simp [Ideal.ofBits, Ideal.ieee]

/-- An extended real whose absolute value compares below `+∞` is a real number. -/
theorem real_of_abs_lt_top (a : EReal)
    (h : FloatOps.cmpf (F := Ideal) (φ := .f32) .olt (FloatOps.absf (F := Ideal) (φ := .f32) a)
      (FloatOps.ofBits (F := Ideal) .f32 0x7F800000#32) = 1#1) :
    ∃ r : ℝ, a = (r : EReal) := by
  rw [Ideal.cmpf_def, Ideal.absf_def, Ideal.ofBits_def, ofBits_inf] at h
  have hlt : max a (-a) < ⊤ := by
    by_contra hn
    simp [Ideal.cmp, hn] at h
  induction a using EReal.rec with
  | bot => simp at hlt
  | top => simp at hlt
  | coe r => exact ⟨r, rfl⟩

/-- A rank-0 array has one index. -/
instance : Subsingleton (⟨0, ![]⟩ : Shape).Idx := ⟨fun a b => funext fun d => d.elim0⟩

end Cert.FiniteEntry

end
-- ==== Proof.Finite.lean ====
/-
  Finite inputs are real numbers.

  The precondition tests, for each of the two argument arrays, that every entry's absolute value
  compares below the word of +∞, and takes the conjunction of the two all-true tests. Read back:
  the conjunction is 1 only if both tests are; an all-true test over a whole array is 1 only if
  every entry passes; and an entry whose absolute value is below +∞ is a real number.
-/
import proofs.«122885_j82171314307385_1_alg».proof.Defs
import proofs.«122885_j82171314307385_1_alg».proof.Proof.Gen.Pre_finite_inputs
import proofs.«122885_j82171314307385_1_alg».proof.Proof.LibFiniteEntry
import Idealize.ShloMosaic.Lib.ReduceAll
import Idealize.ShloMosaic.Lib.ValueIdx

noncomputable section

namespace Cert.Proof.Finite

open Idealize.ShloMosaic Cert.Pre_finite_inputs Cert.FiniteEntry

/-- If the finiteness test of the two argument arrays is all ones, every entry of both is a real number. -/
theorem real_of_pre [Cert.Pre_finite_inputs.Facts]
    (a0 : (⟨S1x3x33x33x33, .f32⟩ : BufTy).Contents (Elt Ideal))
    (a1 : (⟨S8x3x1024x1024, .f32⟩ : BufTy).Contents (Elt Ideal))
    (h : Cert.Pre_finite_inputs.fn (F := Ideal) a0 a1 = fun _ => 1#1) :
    (∀ j, ∃ r : ℝ, a0 j = (r : EReal)) ∧ (∀ j, ∃ r : ℝ, a1 j = (r : EReal)) := by
  have h0 := congrFun h ValueIdx.ix0
  dsimp only [Cert.Pre_finite_inputs.fn] at h0
  obtain ⟨hA, hB⟩ := IntOp.andi_eq_one.1 h0
  refine ⟨fun j => ?_, fun j => ?_⟩
  · exact real_of_abs_lt_top (a0 j) (Host.reduce_andi_all _ _ _ _ _ hA j)
  · exact real_of_abs_lt_top (a1 j) (Host.reduce_andi_all _ _ _ _ _ hB j)

end Cert.Proof.Finite

end
-- ==== Proof.KernelCoord.lean ====
/-
  One colour plane of the image block at a pixel.

  The body loads each of the three colour planes of the `[1, 3, 8, 512]` image block as a `[1, 1, 8, 512]` array and
  flattens it to 4096 pixels: pixel `(h, w)` sits at position `h·512 + w`. From the flattened plane it computes, pixel
  by pixel, the coordinate clamped to `[0, 1]` and scaled by 32, the cell below (its integer part), the cell above
  (one more, at most 32) and the position inside the cell (the scaled coordinate less the cell below). At a pixel
  these are `Trilerp.scaled`, `lo`, `hi` and `frac` of the plane's entry there. The three planes go through the same
  operations, written out three times; the first two planes' chains are the third's applied to the flattened plane.
  Each channel of the table is loaded as a `[1, 33, 33, 33]` array whose entry `(0, d, g, b)` is the table's `(c, d, g, b)`.
-/
import proofs.«122885_j82171314307385_1_alg».proof.Proof.Gen.KernelIdeal.Skeleton
import proofs.«122885_j82171314307385_1_alg».proof.Proof.Spec
import Idealize.ShloMosaic.Lib.ValueIdx
import Idealize.ShloMosaic.Lib.ValueLayout
import Idealize.ShloMosaic.Lib.Pipeline.Value

noncomputable section

namespace Cert.KernelIdeal.Pixel

open Idealize.ShloMosaic Idealize.ShloMosaic.ValueIdx Cert.KernelIdeal Cert.KernelIdeal.Gen

/-! ## A flattened plane at a pixel -/

/-- The clamped, scaled coordinate at pixel `p`. -/
theorem scaled_apply (X : FVec Ideal S4096 .f32) (p : Fin 4096) :
    k0_pay11 X (ix1 p) = Trilerp.scaled (X (ix1 p)) := rfl

/-- The cell below at pixel `p`. -/
theorem lo_apply (X : FVec Ideal S4096 .f32) (p : Fin 4096) :
    k0_pay12 X (ix1 p) = Trilerp.lo (X (ix1 p)) := rfl

/-- The cell above at pixel `p`. -/
theorem hi_apply (X : FVec Ideal S4096 .f32) (p : Fin 4096) :
    k0_pay13 X (ix1 p) = Trilerp.hi (X (ix1 p)) := rfl

/-- The position inside the cell at pixel `p`. -/
theorem frac_apply (X : FVec Ideal S4096 .f32) (p : Fin 4096) :
    k0_pay14 X (ix1 p) = Trilerp.frac (X (ix1 p)) := rfl

/-! ## The first two planes' chains are the third's, applied to the flattened plane -/

theorem pay3_eq (v : Vec Ideal S1x1x8x512 .f32) : k0_pay3 v = k0_pay11 (k0_pay2 v) := rfl
theorem pay4_eq (v : Vec Ideal S1x1x8x512 .f32) : k0_pay4 v = k0_pay12 (k0_pay2 v) := rfl
theorem pay5_eq (v : Vec Ideal S1x1x8x512 .f32) : k0_pay5 v = k0_pay13 (k0_pay2 v) := rfl
theorem pay6_eq (v : Vec Ideal S1x1x8x512 .f32) : k0_pay6 v = k0_pay14 (k0_pay2 v) := rfl
theorem pay7_eq (v : Vec Ideal S1x1x8x512 .f32) : k0_pay7 v = k0_pay11 (k0_pay2 v) := rfl
theorem pay8_eq (v : Vec Ideal S1x1x8x512 .f32) : k0_pay8 v = k0_pay12 (k0_pay2 v) := rfl
theorem pay9_eq (v : Vec Ideal S1x1x8x512 .f32) : k0_pay9 v = k0_pay13 (k0_pay2 v) := rfl
theorem pay10_eq (v : Vec Ideal S1x1x8x512 .f32) : k0_pay10 (k0_pay7 v) (k0_pay8 v) = k0_pay14 (k0_pay2 v) := rfl

/-! ## Flattening, and the loads -/

/-- The position of pixel `(h, w)` of the 8 × 512 block in the flattened block. -/
def flat (h : Fin 8) (w : Fin 512) : Fin 4096 := ⟨h.val * 512 + w.val, by omega⟩

/-- A `[1, 1, 8, 512]` plane flattened to 4096 pixels reads, at the position of `(h, w)`, its entry `(0, 0, h, w)`:
    through `[8, 512]`, all three indices have the row-major position `h·512 + w`. -/
theorem flatten_apply {α : Type} (v : S1x1x8x512.Idx → α) (h : Fin 8) (w : Fin 512) :
    shapeCast S4096 (shapeCast S8x512 v shapeCasts_S1x1x8x512_S8x512) shapeCasts_S8x512_S4096 (ix1 (flat h w))
      = v (ix4 (0 : Fin 1) (0 : Fin 1) h w) := by
  refine (shapeCast_apply _ shapeCasts_S8x512_S4096 (ix1 (flat h w)) (ix2 h w) ?_).trans
    (shapeCast_apply v shapeCasts_S1x1x8x512_S8x512 (ix2 h w) (ix4 (0 : Fin 1) (0 : Fin 1) h w) ?_)
  · rw [Shape.rowMajor_val_two, Shape.rowMajor_val_one]; rfl
  · rw [Shape.rowMajor_val_four, Shape.rowMajor_val_two]
    show ((0 * 1 + 0) * 8 + h.val) * 512 + w.val = h.val * 512 + w.val
    omega

/-- Colour plane `k` of the image block, loaded: entry `(0, 0, h, w)` of the load is entry `(0, k, h, w)` of the block. -/
theorem plane_ld (x0 : Vec Ideal S1x3x8x512 .f32) (k : Nat) (hk : k < 3)
    (inb : ∀ a, (![0, k, 0, 0] : Fin 4 → Nat) a + S1x1x8x512.size a ≤ S1x3x8x512.size a) (h : Fin 8) (w : Fin 512) :
    View.ld x0 (Rect.unit (s := S1x3x8x512) ![0, k, 0, 0] S1x1x8x512.size inb) (ix4 (0 : Fin 1) (0 : Fin 1) h w)
      = x0 (ix4 (0 : Fin 1) (⟨k, hk⟩ : Fin 3) h w) := by
  show x0 ((Rect.unit (s := S1x3x8x512) ![0, k, 0, 0] S1x1x8x512.size inb).idx (ix4 (0 : Fin 1) (0 : Fin 1) h w)) = _
  refine congrArg x0 (funext fun ax => Fin.ext ?_)
  match ax with
  | ⟨0, _⟩ => show 0 + 1 * 0 = 0; omega
  | ⟨1, _⟩ => show k + 1 * 0 = k; omega
  | ⟨2, _⟩ => show 0 + 1 * h.val = h.val; omega
  | ⟨3, _⟩ => show 0 + 1 * w.val = w.val; omega

/-- Colour plane `k`, loaded and flattened, at the position of pixel `(h, w)`: the block's entry `(0, k, h, w)`. -/
theorem pay2_apply (x0 : Vec Ideal S1x3x8x512 .f32) (k : Nat) (hk : k < 3)
    (inb : ∀ a, (![0, k, 0, 0] : Fin 4 → Nat) a + S1x1x8x512.size a ≤ S1x3x8x512.size a) (h : Fin 8) (w : Fin 512) :
    k0_pay2 (View.ld x0 (Rect.unit (s := S1x3x8x512) ![0, k, 0, 0] S1x1x8x512.size inb)) (ix1 (flat h w))
      = x0 (ix4 (0 : Fin 1) (⟨k, hk⟩ : Fin 3) h w) :=
  (flatten_apply _ h w).trans (plane_ld x0 k hk inb h w)

/-- Channel `c` of the table, loaded: entry `(0, d, g, b)` of the load is entry `(c, d, g, b)` of the table. -/
theorem table_ld (x1 : Vec Ideal S3x33x33x33 .f32) (c : Nat) (hc : c < 3)
    (inb : ∀ a, (![c, 0, 0, 0] : Fin 4 → Nat) a + S1x33x33x33.size a ≤ S3x33x33x33.size a) (d g b : Fin 33) :
    View.ld x1 (Rect.unit (s := S3x33x33x33) ![c, 0, 0, 0] S1x33x33x33.size inb) (ix4 (0 : Fin 1) d g b)
      = x1 (ix4 (⟨c, hc⟩ : Fin 3) d g b) := by
  show x1 ((Rect.unit (s := S3x33x33x33) ![c, 0, 0, 0] S1x33x33x33.size inb).idx (ix4 (0 : Fin 1) d g b)) = _
  refine congrArg x1 (funext fun ax => Fin.ext ?_)
  match ax with
  | ⟨0, _⟩ => show c + 1 * 0 = c; omega
  | ⟨1, _⟩ => show 0 + 1 * d.val = d.val; omega
  | ⟨2, _⟩ => show 0 + 1 * g.val = g.val; omega
  | ⟨3, _⟩ => show 0 + 1 * b.val = b.val; omega

end Cert.KernelIdeal.Pixel

end
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.KernelWeights.lean ====
/-
  The one-axis interpolation weights, as the body builds them.

  For one colour plane the body has, per pixel, the cell below `i0`, the cell above `i1` and the position `f` inside
  the cell. It makes each a column `[4096, 1]`, spreads it over the 33 cells, compares the cell index (an index
  array along the second axis) with `i0` and with `i1`, and adds `1 - f` where the cell is `i0` to `f` where it is
  `i1` (zero elsewhere). At `(p, d)` this is `Trilerp.hat (i0 p) (i1 p) (f p) d`. The chain is written out three
  times, cut differently for the second and third planes; all three are the first's.
-/
import proofs.«122885_j82171314307385_1_alg».proof.Proof.Gen.KernelIdeal.Skeleton
import proofs.«122885_j82171314307385_1_alg».proof.Proof.Spec
import proofs.«122885_j82171314307385_1_alg».proof.Proof.LibColumnLayout
import Idealize.ShloMosaic.Lib.ValueIdx
import Idealize.ShloMosaic.Lib.Pipeline.Value

noncomputable section

namespace Cert.KernelIdeal.Pixel

open Idealize.ShloMosaic Idealize.ShloMosaic.ValueIdx Cert.KernelIdeal Cert.KernelIdeal.Gen

/-- A select on the "equal" bit of two words is the choice on their equality. -/
theorem select_cmpi_eq {α : Type} {w : Nat} (a b : BitVec w) (u v : α) :
    Scalar.select (IntOp.cmpi .eq a b) u v = if a = b then u else v := by
  by_cases h : a = b
  · subst h
    rw [if_pos rfl]
    show (if BitVec.ofBool (a == a) = 1#1 then u else v) = u
    simp
  · rw [if_neg h]
    show (if BitVec.ofBool (a == b) = 1#1 then u else v) = v
    have hb : (a == b) = false := by simpa using h
    rw [hb]
    exact if_neg (by decide)

/-- A per-pixel vector made a column and spread over the 33 cells reads, at `(p, d)`, its entry `p`. -/
theorem column_apply {α : Type} (x : S4096.Idx → α) (p : Fin 4096) (d : Fin 33) :
    broadcastTo S4096x33 (shapeCast S4096x1 x shapeCasts_S4096_S4096x1) broadcasts_S4096x1_S4096x33 (ix2 p d) = x (ix1 p) :=
  (Cert.ColumnLayout.broadcastTo_a1_ab_apply _ broadcasts_S4096x1_S4096x33 p d).trans
    (Cert.ColumnLayout.shapeCast_a_a1_apply x shapeCasts_S4096_S4096x1 p 0)

/-- The weight array at `(p, d)`: `1 - f p` if cell `d` is `i0 p`, plus `f p` if it is `i1 p`. -/
theorem weights_apply (i0 i1 : IVec S4096 32) (f : FVec Ideal S4096 .f32) (p : Fin 4096) (d : Fin 33) :
    k0_pay15 i0 i1 f (ix2 p d) = Trilerp.hat (i0 (ix1 p)) (i1 (ix1 p)) (f (ix1 p)) d := by
  have hio : iota .tc S4096x33 32 [1] iota_S4096x33_d1_w32 (ix2 p d) = BitVec.ofNat 32 d.val :=
    iota_single_apply .tc S4096x33 32 1 iota_S4096x33_d1_w32 (ix2 p d)
  have hone : broadcastTo S4096x33 (subf (broadcast S4096x1 (FloatOps.ofBits (F := Ideal) .f32 0x3F800000#32))
        (shapeCast S4096x1 f shapeCasts_S4096_S4096x1)) broadcasts_S4096x1_S4096x33 (ix2 p d)
      = Trilerp.oneW - f (ix1 p) :=
    (Cert.ColumnLayout.broadcastTo_a1_ab_apply _ broadcasts_S4096x1_S4096x33 p d).trans
      (congrArg (fun t => Trilerp.oneW - t) (Cert.ColumnLayout.shapeCast_a_a1_apply f shapeCasts_S4096_S4096x1 p 0))
  unfold k0_pay15 Trilerp.hat
  simp only [shapeCast_self]
  show Scalar.select (IntOp.cmpi .eq (iota .tc S4096x33 32 [1] iota_S4096x33_d1_w32 (ix2 p d))
        (broadcastTo S4096x33 (shapeCast S4096x1 i0 shapeCasts_S4096_S4096x1) broadcasts_S4096x1_S4096x33 (ix2 p d)))
      (broadcastTo S4096x33 (subf (broadcast S4096x1 (FloatOps.ofBits (F := Ideal) .f32 0x3F800000#32))
        (shapeCast S4096x1 f shapeCasts_S4096_S4096x1)) broadcasts_S4096x1_S4096x33 (ix2 p d)) Trilerp.zeroW
    + Scalar.select (IntOp.cmpi .eq (iota .tc S4096x33 32 [1] iota_S4096x33_d1_w32 (ix2 p d))
        (broadcastTo S4096x33 (shapeCast S4096x1 i1 shapeCasts_S4096_S4096x1) broadcasts_S4096x1_S4096x33 (ix2 p d)))
      (broadcastTo S4096x33 (shapeCast S4096x1 f shapeCasts_S4096_S4096x1) broadcasts_S4096x1_S4096x33 (ix2 p d)) Trilerp.zeroW = _
  rw [hio, hone, column_apply, column_apply, column_apply, select_cmpi_eq, select_cmpi_eq]

/-- The weights of a flattened plane `X` at `(p, d)`: the one-axis interpolation weights of its entry at `p`. -/
theorem plane_weights_apply (X : FVec Ideal S4096 .f32) (p : Fin 4096) (d : Fin 33) :
    k0_pay15 (k0_pay12 X) (k0_pay13 X) (k0_pay14 X) (ix2 p d) = Trilerp.weight (X (ix1 p)) d :=
  weights_apply (k0_pay12 X) (k0_pay13 X) (k0_pay14 X) p d

/-- The second plane's weight chain, cut in three, is the first's. -/
theorem pay18_eq (v28 : FVec Ideal S4096 .f32) (v30 v34 : IVec S4096 32) :
    k0_pay18 (k0_pay10 v28 v30) (k0_pay16 v28 v30) (k0_pay17 v34) = k0_pay15 v30 v34 (k0_pay10 v28 v30) := rfl

/-- The third plane's weight chain, given the index array, is the first's. -/
theorem pay19_eq (v44 v48 : IVec S4096 32) (v50 : FVec Ideal S4096 .f32) :
    k0_pay19 v44 v48 v50 (iota .tc S4096x33 32 [1] iota_S4096x33_d1_w32) = k0_pay15 v44 v48 v50 := rfl

end Cert.KernelIdeal.Pixel

end
-- ==== Proof.KernelAssemble.lean ====
/-
  The three channels' per-pixel results put back into the block.

  Each channel's result is a vector over the 4096 pixels. The body lays each as a row `[1, 4096]`, stacks the three
  rows into `[3, 4096]` and views the stack as `[3, 8, 512]`, then as the block `[1, 3, 8, 512]`. Entry `(0, c, h, w)`
  of the block is channel `c`'s result at the position `h·512 + w` of pixel `(h, w)`.
-/
import proofs.«122885_j82171314307385_1_alg».proof.Proof.KernelCoord

noncomputable section

namespace Cert.KernelIdeal.Pixel

open Idealize.ShloMosaic Idealize.ShloMosaic.ValueIdx Cert.KernelIdeal Cert.KernelIdeal.Gen

/-- Three per-pixel vectors laid as rows and stacked: row `c` of the stack is vector `c`. -/
theorem stack_apply {α : Type} (a : Fin 3 → (S4096.Idx → α)) (c : Fin 3) (q : Fin 4096) :
    concatenate S3x4096 0
        [⟨S1x4096, shapeCast S1x4096 (a 0) shapeCasts_S4096_S1x4096⟩,
         ⟨S1x4096, shapeCast S1x4096 (a 1) shapeCasts_S4096_S1x4096⟩,
         ⟨S1x4096, shapeCast S1x4096 (a 2) shapeCasts_S4096_S1x4096⟩]
        concatenates_S1x4096_S1x4096_S1x4096_S3x4096_d0 (ix2 c q)
      = a c (ix1 q) := by
  have hi : ∀ b : Fin S1x4096.rank, b.cast (rfl : S1x4096.rank = S3x4096.rank) ≠ (0 : Fin S3x4096.rank) →
      ((ix2 (0 : Fin 1) q : S1x4096.Idx) b).val = ((ix2 c q : S3x4096.Idx) (b.cast rfl)).val := fun b hb => by
    match b with
    | ⟨0, _⟩ => exact absurd rfl hb
    | ⟨1, _⟩ => rfl
  match c with
  | ⟨0, _⟩ =>
    refine (concatenate_apply_piece (0 : Fin S3x4096.rank) _ _ _ 0 (by show (0 : Nat) < 3; omega)
      S1x4096 _ rfl rfl 0 rfl (ix2 (0 : Fin 1) q) hi rfl).trans ?_
    exact shapeCast_a_1a_apply (a 0) shapeCasts_S4096_S1x4096 0 q
  | ⟨1, _⟩ =>
    refine (concatenate_apply_piece (0 : Fin S3x4096.rank) _ _ _ 1 (by show (1 : Nat) < 3; omega)
      S1x4096 _ rfl rfl 1 rfl (ix2 (0 : Fin 1) q) hi rfl).trans ?_
    exact shapeCast_a_1a_apply (a 1) shapeCasts_S4096_S1x4096 0 q
  | ⟨2, _⟩ =>
    refine (concatenate_apply_piece (0 : Fin S3x4096.rank) _ _ _ 2 (by show (2 : Nat) < 3; omega)
      S1x4096 _ rfl rfl 2 rfl (ix2 (0 : Fin 1) q) hi rfl).trans ?_
    exact shapeCast_a_1a_apply (a 2) shapeCasts_S4096_S1x4096 0 q

/-- The stack `[3, 4096]` viewed as the block `[1, 3, 8, 512]`: entry `(0, c, h, w)` is entry `(c, h·512 + w)`; through
    `[3, 8, 512]`, all three indices have the row-major position `c·4096 + h·512 + w`. -/
theorem block_apply {α : Type} (y : S3x4096.Idx → α) (c : Fin 3) (h : Fin 8) (w : Fin 512) :
    shapeCast S1x3x8x512 (shapeCast S3x8x512 y shapeCasts_S3x4096_S3x8x512) shapeCasts_S3x8x512_S1x3x8x512
        (ix4 (0 : Fin 1) c h w) = y (ix2 c (flat h w)) := by
  refine (shapeCast_apply _ shapeCasts_S3x8x512_S1x3x8x512 (ix4 (0 : Fin 1) c h w) (ix3 c h w) ?_).trans
    (shapeCast_apply y shapeCasts_S3x4096_S3x8x512 (ix3 c h w) (ix2 c (flat h w)) ?_)
  · rw [Shape.rowMajor_val_three, Shape.rowMajor_val_four]
    show (c.val * 8 + h.val) * 512 + w.val = ((0 * 3 + c.val) * 8 + h.val) * 512 + w.val
    omega
  · rw [Shape.rowMajor_val_two, Shape.rowMajor_val_three]
    show c.val * 4096 + (h.val * 512 + w.val) = (c.val * 8 + h.val) * 512 + w.val
    omega

/-- The block assembled from three per-pixel vectors: entry `(0, c, h, w)` is vector `c` at the position of `(h, w)`. -/
theorem assemble_apply {α : Type} (a : Fin 3 → (S4096.Idx → α)) (c : Fin 3) (h : Fin 8) (w : Fin 512) :
    shapeCast S1x3x8x512 (shapeCast S3x8x512 (concatenate S3x4096 0
        [⟨S1x4096, shapeCast S1x4096 (a 0) shapeCasts_S4096_S1x4096⟩,
         ⟨S1x4096, shapeCast S1x4096 (a 1) shapeCasts_S4096_S1x4096⟩,
         ⟨S1x4096, shapeCast S1x4096 (a 2) shapeCasts_S4096_S1x4096⟩]
        concatenates_S1x4096_S1x4096_S1x4096_S3x4096_d0) shapeCasts_S3x4096_S3x8x512) shapeCasts_S3x8x512_S1x3x8x512
        (ix4 (0 : Fin 1) c h w) = a c (ix1 (flat h w)) :=
  (block_apply _ c h w).trans (stack_apply a c (flat h w))

end Cert.KernelIdeal.Pixel

end
-- ==== Proof.LibOuterLayout.lean ====
/-
  Layout operations and reductions of an OUTER-PRODUCT body, read at coordinates.

  A body that multiplies every entry of one row by every entry of another builds an `[a, b, n]` array from two
  matrices: the first, `[a, b]`, is given a trailing unit axis and spread along the last axis; the second, `[a, n]`,
  is given a MIDDLE unit axis and spread along the middle axis. It then sums the product along one of the two
  trailing axes, and takes a row's maximum for a softmax. None of these computes anything but the sums and the
  maximum; the lemmas name, by coordinates, which entries each result reads:
    • `[a, n] → [a, 1, n]` (a shape cast): entry `(r, u, k)` is entry `(r, k)`, whatever the unit coordinate;
    • `[a, 1, n] → [a, b, n]` (a broadcast): entry `(r, s, k)` is entry `(r, 0, k)`;
    • their composite: `(r, s, k)` reads the matrix at `(r, k)`;
    • a sum along the LAST axis of an `[a, b, n]` array of extended reals: entry `(r, s)` is `∑ₖ` of `(r, s, k)`;
    • a sum along the MIDDLE axis: entry `(r, k)` is `∑ₛ` of `(r, s, k)`;
    • a maximum along the second axis of an `[a, b]` array, from the accumulator's value: entry `r` is the fold of
      `max` over `j` of the entries `(r, j)` — for a vector reduction and for the host's one-operand reduce alike.
  The trailing-unit-axis forms (`[a, b] → [a, b, 1] → [a, b, n]`) and the column forms are in their own files.
-/
import Idealize.ShloMosaic.Lib.Pipeline.Value
import Idealize.ShloMosaic.Lib.ValueIdx
import Idealize.ShloMosaic.PureOps.Ideal.Laws

namespace Cert.OuterLayout

open Idealize.ShloMosaic Idealize.ShloMosaic.ValueIdx

variable {α : Type}

/-- An `[a, n]` array cast to `[a, 1, n]` reads, at `(r, u, k)`, the operand at `(r, k)`: the two indices have the same
    row-major position, `(r·1 + u)·n + k = r·n + k` since `u = 0`. -/
theorem shapeCast_an_a1n_apply {a n : ℕ} (x : (⟨2, ![a, n]⟩ : Shape).Idx → α)
    (h : (⟨2, ![a, n]⟩ : Shape).ShapeCasts ⟨3, ![a, 1, n]⟩) (r : Fin a) (u : Fin 1) (k : Fin n) :
    shapeCast ⟨3, ![a, 1, n]⟩ x h (ix3 r u k) = x (ix2 r k) :=
  shapeCast_apply x h _ _ (by
    have hu : u.val = 0 := by omega
    rw [Shape.rowMajor_val_two, Shape.rowMajor_val_three]
    show r.val * n + k.val = (r.val * 1 + u.val) * n + k.val
    rw [hu, Nat.mul_one, Nat.add_zero])

/-- An `[a, 1, n]` array broadcast to `[a, b, n]` reads, at `(r, s, k)`, the operand at `(r, 0, k)`. -/
theorem broadcastTo_a1n_abn_apply {a b n : ℕ} (y : (⟨3, ![a, 1, n]⟩ : Shape).Idx → α)
    (h : (⟨3, ![a, 1, n]⟩ : Shape).Broadcasts ⟨3, ![a, b, n]⟩) (r : Fin a) (s : Fin b) (k : Fin n) :
    broadcastTo ⟨3, ![a, b, n]⟩ y h (ix3 r s k) = y (ix3 r (0 : Fin 1) k) := by
  refine broadcastTo_apply y h (ix3 r s k) (ix3 r (0 : Fin 1) k) fun ax => ?_
  match ax with
  | ⟨0, _⟩ =>
    show r.val = if a = 1 then 0 else r.val
    split
    · have := r.isLt; omega
    · rfl
  | ⟨1, _⟩ => rfl
  | ⟨2, _⟩ =>
    show k.val = if n = 1 then 0 else k.val
    split
    · have := k.isLt; omega
    · rfl

/-- An `[a, n]` matrix given a middle unit axis and broadcast along it: `(r, s, k)` reads the matrix at `(r, k)`. -/
theorem middle_apply {a b n : ℕ} (x : (⟨2, ![a, n]⟩ : Shape).Idx → α)
    (hc : (⟨2, ![a, n]⟩ : Shape).ShapeCasts ⟨3, ![a, 1, n]⟩) (hb : (⟨3, ![a, 1, n]⟩ : Shape).Broadcasts ⟨3, ![a, b, n]⟩)
    (r : Fin a) (s : Fin b) (k : Fin n) :
    broadcastTo ⟨3, ![a, b, n]⟩ (shapeCast ⟨3, ![a, 1, n]⟩ x hc) hb (ix3 r s k) = x (ix2 r k) :=
  (broadcastTo_a1n_abn_apply _ hb r s k).trans (shapeCast_an_a1n_apply x hc r 0 k)

/-- A sum along the last axis of an `[a, b, n]` array of extended reals, from the zero accumulator, reads at `(r, s)`
    the sum over `k` of the entries `(r, s, k)`. The last hypothesis says that the accumulator's word, zero, is the
    neutral word of addition. -/
theorem sumLast_apply {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = FKind.add.neutral .f32 hφ) (r : Fin a) (s : Fin b) :
    multiReduction .add [2] ⟨2, ![a, b]⟩ src 0x00000000#32 h hφ hacc (ix2 r s) = ∑ k : Fin n, src (ix3 r s k) := by
  refine (Ideal.multiReduction_add_single src 0x00000000#32 h hφ hacc (ix2 r s)).trans ?_
  show ∑ k : Fin n, src (h.lift (ix2 r s) k) = ∑ k : Fin n, src (ix3 r s k)
  refine Finset.sum_congr rfl fun k _ => congrArg src (funext fun c => Fin.ext ?_)
  match c with
  | ⟨0, _⟩ => rfl
  | ⟨1, _⟩ => rfl
  | ⟨2, _⟩ => rfl

/-- A sum along the middle axis of an `[a, b, n]` array of extended reals, from the zero accumulator, reads at `(r, k)`
    the sum over `s` of the entries `(r, s, k)`. -/
theorem sumMiddle_apply {a b n : ℕ} (src : FVec Ideal ⟨3, ![a, b, n]⟩ .f32)
    (h : (⟨3, ![a, b, n]⟩ : Shape).Reduces [1] ⟨2, ![a, n]⟩) (hφ : FKind.Formats .f32)
    (hacc : (0x00000000#32 : BitVec 32) = FKind.add.neutral .f32 hφ) (r : Fin a) (k : Fin n) :
    multiReduction .add [1] ⟨2, ![a, n]⟩ src 0x00000000#32 h hφ hacc (ix2 r k) = ∑ s : Fin b, src (ix3 r s k) := by
  refine (Ideal.multiReduction_add_single src 0x00000000#32 h hφ hacc (ix2 r k)).trans ?_
  show ∑ s : Fin b, src (h.lift (ix2 r k) s) = ∑ s : Fin b, src (ix3 r s k)
  refine Finset.sum_congr rfl fun s _ => congrArg src (funext fun c => Fin.ext ?_)
  match c with
  | ⟨0, _⟩ => rfl
  | ⟨1, _⟩ => rfl
  | ⟨2, _⟩ => rfl

/-- A maximum along the second axis of an `[a, b]` array of extended reals reads, at `r`, the fold of `max`, from the
    value the accumulator's word denotes, over `j` of the entries `(r, j)`. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun j => src (ix2 r j)) := by
  refine (Ideal.multiReduction_maximumf_single src acc h hφ hacc (ix1 r)).trans ?_
  show (Finset.univ : Finset (Fin b)).fold max (Ideal.ofBits .f32 acc) (src ∘ h.lift (ix1 r)) = _
  refine congrArg (fun f => Finset.fold max (Ideal.ofBits .f32 acc) f (Finset.univ : Finset (Fin b)))
    (funext fun j => congrArg src (funext fun c => Fin.ext ?_))
  match c with
  | ⟨0, _⟩ => rfl
  | ⟨1, _⟩ => rfl

/-- The host's one-operand reduce with a maximum body along the second axis of an `[a, b]` array of extended reals
    reads, at `r`, the fold of `max`, from the initial value's one element, over `j` of the entries `(r, j)`: the same
    fold as the vector reduction's. -/
theorem hostRowMax_apply {a b : ℕ} {u : Shape} (x : (⟨2, ![a, b]⟩ : Shape).Idx → Ideal .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun j => x (ix2 r j)) := by
  refine (Host.reduce_eq_fold_single FloatOps.maximumf x init h' h hu (ix1 r)).trans ?_
  show (Finset.univ : Finset (Fin b)).fold max (init (Shape.Idx.first hu)) (x ∘ h.lift (ix1 r)) = _
  refine congrArg (fun f => Finset.fold max (init (Shape.Idx.first hu)) f (Finset.univ : Finset (Fin b)))
    (funext fun j => congrArg x (funext fun c => Fin.ext ?_))
  match c with
  | ⟨0, _⟩ => rfl
  | ⟨1, _⟩ => rfl

end Cert.OuterLayout
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibRank3Layout.lean ====
/-
  Rank-3 layout operations read at coordinates — the forms a body meets when it compares every entry of an `[a, b]`
  block with every entry of a length-`n` vector and then flattens the two leading axes for a matrix product:

  • a TRAILING unit axis added by a shape cast, `[a, b] → [a, b, 1]` (`shapeCast_ab_ab1_apply`);
  • a vector laid along the LAST axis by a shape cast, `[n] → [1, 1, n]` (`shapeCast_n_11n_apply`);
  • the broadcast of the first along the last axis, `[a, b, 1] → [a, b, n]` (`broadcastTo_ab1_abn_apply`), and of the
    second along the two leading axes, `[1, 1, n] → [a, b, n]` (`broadcastTo_11n_abn_apply`);
  • the two composites, which read `(r, s, k)` at `(r, s)` of the block (`column_apply`) and at `k` of the vector
    (`row_apply`);
  • the two leading axes MERGED, `[a, b, n] → [m, n]` with `m = a·b`, and SPLIT again, `[m, d] → [a, b, d]`: row
    `j = r·b + s` of the flat array is row `(r, s)` of the stacked one (`shapeCast_abn_mn_apply`,
    `shapeCast_md_abd_apply`; the flat row is passed with the equation `j = r·b + s`, so that a literal extent such
    as `4096` need not be recognised as a product).

  Each is the library's `shapeCast_apply` (equal row-major positions) or `broadcastTo_apply` (a unit axis reads
  coordinate `0`) with both indices written by coordinates, at every extent.
-/
import Idealize.ShloMosaic.Lib.Pipeline.Value
import Idealize.ShloMosaic.Lib.ValueIdx

namespace Cert.Rank3Layout

open Idealize.ShloMosaic Idealize.ShloMosaic.ValueIdx

variable {α : Type}

/-- An `[a, b]` array cast to `[a, b, 1]` reads, at `(r, s, u)`, the operand at `(r, s)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (r : Fin a) (s : Fin b) (u : Fin 1) :
    shapeCast ⟨3, ![a, b, 1]⟩ x h (ix3 r s u) = x (ix2 r s) :=
  shapeCast_apply x h _ _ (by
    have hu : u.val = 0 := by omega
    rw [Shape.rowMajor_val_two, Shape.rowMajor_val_three]
    show r.val * b + s.val = (r.val * b + s.val) * 1 + u.val
    rw [hu, Nat.mul_one, Nat.add_zero])

/-- An `[n]` vector cast to `[1, 1, n]` reads, at `(u, u', k)`, the operand at `k`, whatever the unit coordinates. -/
theorem shapeCast_n_11n_apply {n : ℕ} (q : (⟨1, ![n]⟩ : Shape).Idx → α)
    (h : (⟨1, ![n]⟩ : Shape).ShapeCasts ⟨3, ![1, 1, n]⟩) (u u' : Fin 1) (k : Fin n) :
    shapeCast ⟨3, ![1, 1, n]⟩ q h (ix3 u u' k) = q (ix1 k) :=
  shapeCast_apply q h _ _ (by
    have hu : u.val = 0 := by omega
    have hu' : u'.val = 0 := by omega
    rw [Shape.rowMajor_val_one, Shape.rowMajor_val_three]
    show k.val = (u.val * 1 + u'.val) * n + k.val
    rw [hu, hu']; simp)

/-- An `[a, b, 1]` array broadcast to `[a, b, n]` reads, at `(r, s, k)`, the operand at `(r, s, 0)`. -/
theorem broadcastTo_ab1_abn_apply {a b n : ℕ} (y : (⟨3, ![a, b, 1]⟩ : Shape).Idx → α)
    (h : (⟨3, ![a, b, 1]⟩ : Shape).Broadcasts ⟨3, ![a, b, n]⟩) (r : Fin a) (s : Fin b) (k : Fin n) :
    broadcastTo ⟨3, ![a, b, n]⟩ y h (ix3 r s k) = y (ix3 r s (0 : Fin 1)) := by
  refine broadcastTo_apply y h (ix3 r s k) (ix3 r s (0 : Fin 1)) fun ax => ?_
  match ax with
  | ⟨0, _⟩ =>
    show r.val = if a = 1 then 0 else r.val
    split
    · have := r.isLt; omega
    · rfl
  | ⟨1, _⟩ =>
    show s.val = if b = 1 then 0 else s.val
    split
    · have := s.isLt; omega
    · rfl
  | ⟨2, _⟩ => rfl

/-- A `[1, 1, n]` array broadcast to `[a, b, n]` reads, at `(r, s, k)`, the operand at `(0, 0, k)`. -/
theorem broadcastTo_11n_abn_apply {a b n : ℕ} (q : (⟨3, ![1, 1, n]⟩ : Shape).Idx → α)
    (h : (⟨3, ![1, 1, n]⟩ : Shape).Broadcasts ⟨3, ![a, b, n]⟩) (r : Fin a) (s : Fin b) (k : Fin n) :
    broadcastTo ⟨3, ![a, b, n]⟩ q h (ix3 r s k) = q (ix3 (0 : Fin 1) (0 : Fin 1) k) := by
  refine broadcastTo_apply q h (ix3 r s k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- An `[a, b]` block given a trailing unit axis and broadcast along it: `(r, s, k)` reads the block at `(r, s)`. -/
theorem column_apply {a b n : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, n]⟩)
    (r : Fin a) (s : Fin b) (k : Fin n) :
    broadcastTo ⟨3, ![a, b, n]⟩ (shapeCast ⟨3, ![a, b, 1]⟩ x hc) hb (ix3 r s k) = x (ix2 r s) :=
  (broadcastTo_ab1_abn_apply _ hb r s k).trans (shapeCast_ab_ab1_apply x hc r s 0)

/-- A length-`n` vector laid along the last axis and broadcast over the two leading ones: `(r, s, k)` reads it at `k`. -/
theorem row_apply {a b n : ℕ} (q : (⟨1, ![n]⟩ : Shape).Idx → α)
    (hc : (⟨1, ![n]⟩ : Shape).ShapeCasts ⟨3, ![1, 1, n]⟩) (hb : (⟨3, ![1, 1, n]⟩ : Shape).Broadcasts ⟨3, ![a, b, n]⟩)
    (r : Fin a) (s : Fin b) (k : Fin n) :
    broadcastTo ⟨3, ![a, b, n]⟩ (shapeCast ⟨3, ![1, 1, n]⟩ q hc) hb (ix3 r s k) = q (ix1 k) :=
  (broadcastTo_11n_abn_apply _ hb r s k).trans (shapeCast_n_11n_apply q hc 0 0 k)

/-- The two leading axes merged: an `[a, b, n]` array cast to `[m, n]` reads, at `(j, k)` with `j = r·b + s`, the
    operand at `(r, s, k)`. -/
theorem shapeCast_abn_mn_apply {a b n m : ℕ} (w : (⟨3, ![a, b, n]⟩ : Shape).Idx → α)
    (h : (⟨3, ![a, b, n]⟩ : Shape).ShapeCasts ⟨2, ![m, n]⟩) (r : Fin a) (s : Fin b) (k : Fin n) (j : Fin m)
    (hj : j.val = r.val * b + s.val) :
    shapeCast ⟨2, ![m, n]⟩ w h (ix2 j k) = w (ix3 r s k) :=
  shapeCast_apply w h _ _ (by
    rw [Shape.rowMajor_val_three, Shape.rowMajor_val_two]
    show (r.val * b + s.val) * n + k.val = j.val * n + k.val
    rw [hj])

/-- The leading axis split in two: an `[m, d]` array cast to `[a, b, d]` reads, at `(r, s, e)`, the operand at `(j, e)`
    with `j = r·b + s`. -/
theorem shapeCast_md_abd_apply {a b d m : ℕ} (z : (⟨2, ![m, d]⟩ : Shape).Idx → α)
    (h : (⟨2, ![m, d]⟩ : Shape).ShapeCasts ⟨3, ![a, b, d]⟩) (r : Fin a) (s : Fin b) (e : Fin d) (j : Fin m)
    (hj : j.val = r.val * b + s.val) :
    shapeCast ⟨3, ![a, b, d]⟩ z h (ix3 r s e) = z (ix2 j e) :=
  shapeCast_apply z h _ _ (by
    rw [Shape.rowMajor_val_two, Shape.rowMajor_val_three]
    show j.val * d + e.val = (r.val * b + s.val) * d + e.val
    rw [hj])

end Cert.Rank3Layout
-- ==== Proof.LibPoolLayout.lean ====
/-
  Reductions and layout operations of a POOLING body, read at coordinates, at every extent.

  A body that pools a stack of matrices over its leading axis and then flattens what is left for a matrix product
  meets these forms; none computes anything but the maximum, and the lemmas name, by coordinates, which entries
  each result reads:
    • a maximum along the LEADING axis of an `[n, a, b]` array of extended reals, from the accumulator's value:
      entry `(r, s)` is the fold of `max` over `k` of the entries `(k, r, s)` (`leadMax_apply`);
    • the host's one-operand reduce with a maximum body along axis 1 of a `[p, n, a, b]` array: entry `(q, r, s)` is
      the fold of `max`, from the initial value's one element, over `k` of the entries `(q, k, r, s)`
      (`hostMaxAxis1_apply`) — the same fold;
    • the two TRAILING axes merged, `[a, b, n] → [a, m]` with `m = b·n`: column `j = s·n + k` of row `r` is entry
      `(r, s, k)` (`shapeCast_abn_am_apply`; the flat column is passed with its equation, so that a literal extent
      such as `1024` need not be recognised as a product);
    • the two leading axes of a rank-3 array exchanged (permutation `[1, 0, 2]`): entry `(s, r, k)` is entry
      `(r, s, k)` of the operand (`transpose_ix3_102_apply`).
-/
import Idealize.ShloMosaic.Lib.Pipeline.Value
import Idealize.ShloMosaic.Lib.ValueIdx
import Idealize.ShloMosaic.PureOps.Ideal.Laws

namespace Cert.PoolLayout

open Idealize.ShloMosaic Idealize.ShloMosaic.ValueIdx

variable {α : Type}

/-- A maximum along the leading axis of an `[n, a, b]` array of extended reals reads, at `(r, s)`, the fold of `max`,
    from the value the accumulator's word denotes, over `k` of the entries `(k, r, s)`. -/
theorem leadMax_apply {n a b : ℕ} (src : FVec Ideal ⟨3, ![n, a, b]⟩ .f32) (acc : BitVec 32)
    (h : (⟨3, ![n, a, b]⟩ : Shape).Reduces [0] ⟨2, ![a, b]⟩) (hφ : FKind.Formats .f32)
    (hacc : acc = FKind.maximumf.neutral .f32 hφ) (r : Fin a) (s : Fin b) :
    multiReduction .maximumf [0] ⟨2, ![a, b]⟩ src acc h hφ hacc (ix2 r s)
      = (Finset.univ : Finset (Fin n)).fold max (Ideal.ofBits .f32 acc) (fun k => src (ix3 k r s)) := by
  refine (Ideal.multiReduction_maximumf_single src acc h hφ hacc (ix2 r s)).trans ?_
  show (Finset.univ : Finset (Fin n)).fold max (Ideal.ofBits .f32 acc) (src ∘ h.lift (ix2 r s)) = _
  refine congrArg (fun f => Finset.fold max (Ideal.ofBits .f32 acc) f (Finset.univ : Finset (Fin n)))
    (funext fun k => congrArg src (funext fun c => Fin.ext ?_))
  match c with
  | ⟨0, _⟩ => rfl
  | ⟨1, _⟩ => rfl
  | ⟨2, _⟩ => rfl

/-- The host's one-operand reduce with a maximum body along axis 1 of a `[p, n, a, b]` array of extended reals reads,
    at `(q, r, s)`, the fold of `max`, from the initial value's one element, over `k` of the entries `(q, k, r, s)`. -/
theorem hostMaxAxis1_apply {p n a b : ℕ} {u : Shape} (x : (⟨4, ![p, n, a, b]⟩ : Shape).Idx → Ideal .f32)
    (init : u.Idx → Ideal .f32) (h' : (⟨4, ![p, n, a, b]⟩ : Shape).ReducesTo [1] ⟨3, ![p, a, b]⟩)
    (h : (⟨4, ![p, n, a, b]⟩ : Shape).Reduces [1] ⟨3, ![p, a, b]⟩) (hu : 0 < u.numel) (q : Fin p) (r : Fin a) (s : Fin b) :
    Host.reduce FloatOps.maximumf x init h' hu (ix3 q r s)
      = (Finset.univ : Finset (Fin n)).fold max (init (Shape.Idx.first hu)) (fun k => x (ix4 q k r s)) := by
  refine (Host.reduce_eq_fold_single FloatOps.maximumf x init h' h hu (ix3 q r s)).trans ?_
  show (Finset.univ : Finset (Fin n)).fold max (init (Shape.Idx.first hu)) (x ∘ h.lift (ix3 q r s)) = _
  refine congrArg (fun f => Finset.fold max (init (Shape.Idx.first hu)) f (Finset.univ : Finset (Fin n)))
    (funext fun k => congrArg x (funext fun c => Fin.ext ?_))
  match c with
  | ⟨0, _⟩ => rfl
  | ⟨1, _⟩ => rfl
  | ⟨2, _⟩ => rfl
  | ⟨3, _⟩ => rfl

/-- The two trailing axes merged: an `[a, b, n]` array cast to `[a, m]`, `m = b·n`, reads, at `(r, j)` with
    `j = s·n + k`, the operand at `(r, s, k)`: the two indices have the same row-major position. -/
theorem shapeCast_abn_am_apply {a b n m : ℕ} (w : (⟨3, ![a, b, n]⟩ : Shape).Idx → α)
    (h : (⟨3, ![a, b, n]⟩ : Shape).ShapeCasts ⟨2, ![a, m]⟩) (hm : m = b * n) (r : Fin a) (s : Fin b) (k : Fin n)
    (j : Fin m) (hj : j.val = s.val * n + k.val) :
    shapeCast ⟨2, ![a, m]⟩ w h (ix2 r j) = w (ix3 r s k) :=
  shapeCast_apply w h _ _ (by
    rw [Shape.rowMajor_val_three, Shape.rowMajor_val_two]
    show (r.val * b + s.val) * n + k.val = r.val * m + j.val
    rw [hj, hm]; ring)

/-- The two leading axes of a rank-3 array exchanged: the result reads, at `(s, r, k)`, the operand at `(r, s, k)`. -/
theorem transpose_ix3_102_apply {a b n : ℕ} (x : (⟨3, ![a, b, n]⟩ : Shape).Idx → α)
    (h : (⟨3, ![a, b, n]⟩ : Shape).Transposes [1, 0, 2] ⟨3, ![b, a, n]⟩) (s : Fin b) (r : Fin a) (k : Fin n) :
    transpose ⟨3, ![b, a, n]⟩ [1, 0, 2] x h (ix3 s r k) = x (ix3 r s k) :=
  transpose_apply _ x h _ _ fun c => match c with | ⟨0, _⟩ => rfl | ⟨1, _⟩ => rfl | ⟨2, _⟩ => rfl

end Cert.PoolLayout
-- ==== Proof.KernelChannel.lean ====
/-
  One colour channel of the interpolation, as the kernel body computes it for the 4096 pixels of a block.

  The channel's table, a [1, 33, 33, 33] slab, is laid out as a 33 × 1089 matrix (row = r cell, column = g cell · 33
  + b cell). The r weights, a 4096 × 33 matrix, multiply it: a plain matrix product into zero. The product's
  columns are split back into (g, b), multiplied by the g weights spread along b and summed over g; the result
  is multiplied by the b weights and summed over b. The changes of float format in between are the identity on
  the extended reals. At pixel p this is
      ∑ b, (∑ g, (∑ d, wr(p, d) · table(d, g, b)) · wg(p, g)) · wb(p, b).
-/
import proofs.«122885_j82171314307385_1_alg».proof.Proof.Gen.KernelIdeal.Skeleton
import proofs.«122885_j82171314307385_1_alg».proof.Proof.LibColumnLayout
import proofs.«122885_j82171314307385_1_alg».proof.Proof.LibOuterLayout
import proofs.«122885_j82171314307385_1_alg».proof.Proof.LibPlainMatmul
import proofs.«122885_j82171314307385_1_alg».proof.Proof.LibRank3Layout
import proofs.«122885_j82171314307385_1_alg».proof.Proof.LibPoolLayout
import Idealize.ShloMosaic.Lib.Pipeline.Value
import Idealize.ShloMosaic.Lib.ValueIdx
import Idealize.ShloMosaic.PureOps.Ideal.Laws

noncomputable section

open scoped BigOperators

namespace Cert.KernelIdeal.Pixel

open Cert.KernelIdeal Cert.KernelIdeal.Gen Idealize.ShloMosaic Idealize.ShloMosaic.ValueIdx

variable {F : FTy → Type} [FloatOps F]

/-- One channel's chain of operations, from the table slab and the three weight matrices to the 4096 values. -/
def chan (wr wg wb : FVec F S4096x33 .bf16) (v112 : Vec F S1x33x33x33 .f32) : FVec F S4096 .f32 :=
  have v113 : FVec F S33x33x33 .f32 := shapeCast S33x33x33 v112 shapeCasts_S1x33x33x33_S33x33x33
  have v114 : FVec F S33x33x33 .bf16 := truncf .bf16 v113 bitsLt_bf16_f32
  have v115 : FVec F S33x1089 .bf16 := shapeCast S33x1089 v114 shapeCasts_S33x33x33_S33x1089
  have cst_34 : FVec F S4096x1089 .f32 := constant S4096x1089 .f32 0x00000000#32
  have v116 : FVec F S4096x1089 .f32 := matmul dot_S4096x33_S33x1089_S4096x1089_1_0_0_1_n_n none wr v115 cst_34
  have v117 : FVec F S4096x1089 .bf16 := truncf .bf16 v116 bitsLt_bf16_f32
  have v118 : FVec F S4096x33x33 .bf16 := shapeCast S4096x33x33 v117 shapeCasts_S4096x1089_S4096x33x33
  have v119 : FVec F S4096x33x1 .bf16 := shapeCast S4096x33x1 wg shapeCasts_S4096x33_S4096x33x1
  have v120 : FVec F S4096x33x33 .bf16 := broadcastTo S4096x33x33 v119 broadcasts_S4096x33x1_S4096x33x33
  have v121 : FVec F S4096x33x33 .bf16 := mulf v118 v120
  have v122 : FVec F S4096x33x33 .f32 := extf .f32 v121 bitsLt_bf16_f32
  have v123 : FVec F S4096x33 .f32 := multiReduction .add [1] S4096x33 v122 0x00000000#32 reduces_S4096x33x33_S4096x33 (.inl rfl) rfl
  have v124 : FVec F S4096x33 .bf16 := truncf .bf16 v123 bitsLt_bf16_f32
  have v125 : FVec F S4096x33 .bf16 := mulf v124 wb
  have v126 : FVec F S4096x33 .f32 := extf .f32 v125 bitsLt_bf16_f32
  have v127 : FVec F S4096 .f32 := multiReduction .add [1] S4096 v126 0x00000000#32 reduces_S4096x33_S4096 (.inl rfl) rfl
  v127

/-- The body's first channel is this chain. -/
theorem pay20_eq (v36 : FVec F S4096 .f32) (v44 v48 : IVec S4096 32) (v50 : FVec F S4096 .f32) (v51 : IVec S4096x33 32)
    (v71 : FVec F S4096x33 .bf16) (v81 : FVec F S4096x33 .f32) (v84 : IVec S4096x33 1) (v112 : Vec F S1x33x33x33 .f32) :
    k0_pay20 v36 v44 v48 v50 v51 v71 v81 v84 v112 = chan v71 (k0_pay18 v36 v81 v84) (k0_pay19 v44 v48 v50 v51) v112 := rfl

/-- The [4096, 1089] product split into [4096, 33, 33] reads, at (p, g, b), column g · 33 + b of row p. -/
theorem split_apply {α : Type} (z : S4096x1089.Idx → α) (p : Fin 4096) (g b : Fin 33) :
    shapeCast S4096x33x33 z shapeCasts_S4096x1089_S4096x33x33 (ix3 p g b)
      = z (ix2 p (⟨g.val * 33 + b.val, by omega⟩ : Fin 1089)) :=
  shapeCast_apply z shapeCasts_S4096x1089_S4096x33x33 _ _ (by
    rw [Shape.rowMajor_val_two, Shape.rowMajor_val_three]
    show p.val * 1089 + (g.val * 33 + b.val) = (p.val * 33 + g.val) * 33 + b.val
    omega)

/-- The table slab [1, 33, 33, 33] without its unit axis reads, at (d, g, b), the slab at (0, d, g, b). -/
theorem slab_apply {α : Type} (v : S1x33x33x33.Idx → α) (d g b : Fin 33) :
    shapeCast S33x33x33 v shapeCasts_S1x33x33x33_S33x33x33 (ix3 d g b) = v (ix4 (0 : Fin 1) d g b) :=
  shapeCast_apply v shapeCasts_S1x33x33x33_S33x33x33 _ _ (by
    rw [Shape.rowMajor_val_four, Shape.rowMajor_val_three]
    show ((0 * 33 + d.val) * 33 + g.val) * 33 + b.val = (d.val * 33 + g.val) * 33 + b.val
    omega)

/-- THE CHANNEL AT A PIXEL: the table contracted with the pixel's three weight rows, axis by axis. -/
theorem chan_apply (wr wg wb : FVec Ideal S4096x33 .bf16) (v : Vec Ideal S1x33x33x33 .f32) (p : Fin 4096) :
    chan (F := Ideal) wr wg wb v (ix1 p)
      = ∑ b : Fin 33, (∑ g : Fin 33, (∑ d : Fin 33, wr (ix2 p d) * v (ix4 (0 : Fin 1) d g b)) * wg (ix2 p g)) * wb (ix2 p b) := by
  unfold chan
  refine (Cert.ColumnLayout.rowSum_apply _ reduces_S4096x33_S4096 _ _ p).trans ?_
  refine Finset.sum_congr rfl fun b _ => ?_
  show (multiReduction (F := Ideal) (φ := .f32) .add [1] S4096x33 _ 0x00000000#32 reduces_S4096x33x33_S4096x33 (.inl rfl) rfl (ix2 p b) : EReal) * (wb (ix2 p b) : EReal) = _
  congr 1
  refine (Cert.OuterLayout.sumMiddle_apply _ reduces_S4096x33x33_S4096x33 _ _ p b).trans ?_
  refine Finset.sum_congr rfl fun g _ => ?_
  show (shapeCast S4096x33x33 _ shapeCasts_S4096x1089_S4096x33x33 (ix3 p g b) : EReal)
      * (broadcastTo S4096x33x33 (shapeCast S4096x33x1 wg shapeCasts_S4096x33_S4096x33x1) broadcasts_S4096x33x1_S4096x33x33 (ix3 p g b) : EReal) = _
  rw [Cert.Rank3Layout.column_apply wg _ _ p g b, split_apply]
  congr 1
  refine (show _ = _ from Cert.PlainMatmul.plain_apply (M := 4096) (K := 33) (N := 1089) wr _ p ⟨g.val * 33 + b.val, by omega⟩).trans ?_
  refine Finset.sum_congr rfl fun d _ => ?_
  congr 1
  refine (Cert.PoolLayout.shapeCast_abn_am_apply _ shapeCasts_S33x33x33_S33x1089 rfl d g b ⟨g.val * 33 + b.val, by omega⟩ rfl).trans ?_
  exact slab_apply v d g b

end Cert.KernelIdeal.Pixel

end
-- ==== Proof.KernelPixel.lean ====
/-
  The kernel body's value at one entry of its output block.

  The body loads the three colour planes of the image block and the three channels of the table, computes from each
  plane its one-axis interpolation weights over the 33 cells, contracts each channel's table with the three weight
  arrays, one axis after the other, and stores the three per-pixel results as the three channels of the output
  block. Entry `(0, c, h, w)` of what it stores is therefore `Trilerp.kerPix` of channel `c`'s table at the three
  colour coordinates of pixel `(h, w)`.
-/
import proofs.«122885_j82171314307385_1_alg».proof.Proof.Gen.KernelIdeal.Frame
import proofs.«122885_j82171314307385_1_alg».proof.Proof.Spec
import proofs.«122885_j82171314307385_1_alg».proof.Proof.KernelCoord
import proofs.«122885_j82171314307385_1_alg».proof.Proof.KernelWeights
import proofs.«122885_j82171314307385_1_alg».proof.Proof.KernelAssemble
import proofs.«122885_j82171314307385_1_alg».proof.Proof.KernelChannel

noncomputable section

open scoped BigOperators

namespace Cert.KernelIdeal.Pixel

open Idealize.ShloMosaic Idealize.ShloMosaic.ValueIdx Cert.KernelIdeal Cert.KernelIdeal.Gen

/-- Colour plane `k` of the image block, loaded and flattened to the 4096 pixels. -/
def plane (x0 : Vec Ideal S1x3x8x512 .f32) : Fin 3 → FVec Ideal S4096 .f32
  | ⟨0, _⟩ => k0_pay2 (View.ld x0 r0_0)
  | ⟨1, _⟩ => k0_pay2 (View.ld x0 r0_1)
  | ⟨2, _⟩ => k0_pay2 (View.ld x0 r0_2)

/-- At the position of pixel `(h, w)` it holds the block's entry `(0, k, h, w)`. -/
theorem plane_apply (x0 : Vec Ideal S1x3x8x512 .f32) (k : Fin 3) (h : Fin 8) (w : Fin 512) :
    plane x0 k (ix1 (flat h w)) = x0 (ix4 (0 : Fin 1) k h w) := by
  match k with
  | ⟨0, _⟩ => exact pay2_apply x0 0 (by omega) _ h w
  | ⟨1, _⟩ => exact pay2_apply x0 1 (by omega) _ h w
  | ⟨2, _⟩ => exact pay2_apply x0 2 (by omega) _ h w

/-- The weights of colour plane `k` over the 33 cells, for the 4096 pixels. -/
def wts (x0 : Vec Ideal S1x3x8x512 .f32) (k : Fin 3) : FVec Ideal S4096x33 .bf16 :=
  k0_pay15 (k0_pay12 (plane x0 k)) (k0_pay13 (plane x0 k)) (k0_pay14 (plane x0 k))

/-- At pixel `(h, w)` and cell `d`: the one-axis interpolation weight of the pixel's coordinate `k`. -/
theorem wts_apply (x0 : Vec Ideal S1x3x8x512 .f32) (k : Fin 3) (h : Fin 8) (w : Fin 512) (d : Fin 33) :
    wts x0 k (ix2 (flat h w) d) = Trilerp.weight (x0 (ix4 (0 : Fin 1) k h w)) d := by
  unfold wts
  rw [plane_weights_apply, plane_apply]

/-- Channel `c` of the table, loaded. -/
def tab (x1 : Vec Ideal S3x33x33x33 .f32) : Fin 3 → Vec Ideal S1x33x33x33 .f32
  | ⟨0, _⟩ => View.ld x1 r0_3
  | ⟨1, _⟩ => View.ld x1 r0_4
  | ⟨2, _⟩ => View.ld x1 r0_5

/-- Its entry `(0, d, g, b)` is the table's entry `(c, d, g, b)`. -/
theorem tab_apply (x1 : Vec Ideal S3x33x33x33 .f32) (c : Fin 3) (d g b : Fin 33) :
    tab x1 c (ix4 (0 : Fin 1) d g b) = x1 (ix4 c d g b) := by
  match c with
  | ⟨0, _⟩ => exact table_ld x1 0 (by omega) _ d g b
  | ⟨1, _⟩ => exact table_ld x1 1 (by omega) _ d g b
  | ⟨2, _⟩ => exact table_ld x1 2 (by omega) _ d g b

/-- Channel `c`'s result for the 4096 pixels: its table contracted with the three planes' weights. -/
def res (x0 : Vec Ideal S1x3x8x512 .f32) (x1 : Vec Ideal S3x33x33x33 .f32) (c : Fin 3) : FVec Ideal S4096 .f32 :=
  chan (wts x0 0) (wts x0 1) (wts x0 2) (tab x1 c)

/-- At pixel `(h, w)`: the axis-by-axis contraction of channel `c`'s table with the pixel's weights. -/
theorem res_apply (x0 : Vec Ideal S1x3x8x512 .f32) (x1 : Vec Ideal S3x33x33x33 .f32) (c : Fin 3) (h : Fin 8) (w : Fin 512) :
    res x0 x1 c (ix1 (flat h w))
      = Trilerp.kerPix (fun d g b => x1 (ix4 c d g b)) (x0 (ix4 (0 : Fin 1) (0 : Fin 3) h w))
          (x0 (ix4 (0 : Fin 1) (1 : Fin 3) h w)) (x0 (ix4 (0 : Fin 1) (2 : Fin 3) h w)) := by
  unfold res Trilerp.kerPix
  rw [chan_apply]
  simp only [wts_apply, tab_apply]

/-- What the body stores is the three channels' results assembled into the block: the body's operations, with the
    chains it repeats for the three planes and for the three channels named. -/
theorem stored_eq (x0 : Vec Ideal S1x3x8x512 .f32) (x1 : Vec Ideal S3x33x33x33 .f32) :
    k0_pay1 (k0_pay21 (k0_pay15 (k0_pay4 (View.ld x0 r0_0)) (k0_pay5 (View.ld x0 r0_0)) (k0_pay6 (View.ld x0 r0_0))) (k0_pay18 (k0_pay10 (k0_pay7 (View.ld x0 r0_1)) (k0_pay8 (View.ld x0 r0_1))) (k0_pay16 (k0_pay7 (View.ld x0 r0_1)) (k0_pay8 (View.ld x0 r0_1))) (k0_pay17 (k0_pay9 (View.ld x0 r0_1)))) (k0_pay19 (k0_pay12 (k0_pay2 (View.ld x0 r0_2))) (k0_pay13 (k0_pay2 (View.ld x0 r0_2))) (k0_pay14 (k0_pay2 (View.ld x0 r0_2))) (iota .tc S4096x33 32 [1] iota_S4096x33_d1_w32)) (k0_pay20 (k0_pay10 (k0_pay7 (View.ld x0 r0_1)) (k0_pay8 (View.ld x0 r0_1))) (k0_pay12 (k0_pay2 (View.ld x0 r0_2))) (k0_pay13 (k0_pay2 (View.ld x0 r0_2))) (k0_pay14 (k0_pay2 (View.ld x0 r0_2))) (iota .tc S4096x33 32 [1] iota_S4096x33_d1_w32) (k0_pay15 (k0_pay4 (View.ld x0 r0_0)) (k0_pay5 (View.ld x0 r0_0)) (k0_pay6 (View.ld x0 r0_0))) (k0_pay16 (k0_pay7 (View.ld x0 r0_1)) (k0_pay8 (View.ld x0 r0_1))) (k0_pay17 (k0_pay9 (View.ld x0 r0_1))) (View.ld x1 r0_3)) (View.ld x1 r0_4) (View.ld x1 r0_5))
      = shapeCast S1x3x8x512 (shapeCast S3x8x512 (concatenate S3x4096 0
          [⟨S1x4096, shapeCast S1x4096 (res x0 x1 0) shapeCasts_S4096_S1x4096⟩,
           ⟨S1x4096, shapeCast S1x4096 (res x0 x1 1) shapeCasts_S4096_S1x4096⟩,
           ⟨S1x4096, shapeCast S1x4096 (res x0 x1 2) shapeCasts_S4096_S1x4096⟩]
          concatenates_S1x4096_S1x4096_S1x4096_S3x4096_d0) shapeCasts_S3x4096_S3x8x512) shapeCasts_S3x8x512_S1x3x8x512 := rfl

/-- THE BODY AT AN ENTRY: entry `(0, c, h, w)` of the output block is channel `c`'s table interpolated at the three
    colour coordinates of pixel `(h, w)`, as the axis-by-axis contraction. -/
theorem out_apply (x0 : Vec Ideal S1x3x8x512 .f32) (x1 : Vec Ideal S3x33x33x33 .f32) (c : Fin 3) (h : Fin 8) (w : Fin 512) :
    Cert.KernelIdeal.Gen.out0_2 (F := Ideal) x0 x1 (ix4 (0 : Fin 1) c h w)
      = Trilerp.kerPix (fun d g b => x1 (ix4 c d g b)) (x0 (ix4 (0 : Fin 1) (0 : Fin 3) h w))
          (x0 (ix4 (0 : Fin 1) (1 : Fin 3) h w)) (x0 (ix4 (0 : Fin 1) (2 : Fin 3) h w)) := by
  have hz : (![0, 0, 0, 0] : Fin 4 → Nat) = fun _ => 0 := by
    funext a
    match a with
    | ⟨0, _⟩ => rfl
    | ⟨1, _⟩ => rfl
    | ⟨2, _⟩ => rfl
    | ⟨3, _⟩ => rfl
  unfold Gen.out0_2
  rw [View.canon_unit_zero hz, stored_eq]
  exact (assemble_apply (res x0 x1) c h w).trans (res_apply x0 x1 c h w)

end Cert.KernelIdeal.Pixel

end
-- ==== Proof.KernelArray.lean ====
/-
  From the blocks a grid point writes to the whole output array.

  The grid has 8 × 128 × 2 points (batch, row block, column block). At the point (n, p, q) the body sees the
  image's block of 3 channels × 8 rows × 512 columns at batch n, rows 8p … 8p + 7, columns 512q … 512q + 511,
  and the whole 3 × 33 × 33 × 33 table (the table argument with its unit batch axis reshaped away), and writes
  the output's block at the same place. With what the body leaves at one entry of its output block — the
  table of the entry's channel contracted with the three weight vectors of the pixel's coordinates — each
  point writes its block of the interpolated image `Trilerp.G`; the blocks cover the output (entry (n, c, h, w)
  lies in the block of the point (n, h / 8, w / 512)); so the output array ends holding `Trilerp.G` of the two
  argument arrays.
-/
import proofs.«122885_j82171314307385_1_alg».proof.Proof.Gen.KernelIdeal.Value
import proofs.«122885_j82171314307385_1_alg».proof.Proof.Spec
import proofs.«122885_j82171314307385_1_alg».proof.Proof.Arrays
import proofs.«122885_j82171314307385_1_alg».proof.Proof.KernelPixel
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The grid has 8 × 128 × 2 points, the last axis fastest: consecutive batches are 256 points apart. -/
theorem stride0 : grid0.stride 0 = 256 := by decide
/-- Consecutive points along the row-block axis are 2 apart. -/
theorem stride1 : grid0.stride 1 = 2 := by decide
/-- The column-block axis is the fastest. -/
theorem stride2 : grid0.stride 2 = 1 := by decide

/-- A grid coordinate, as a 32-bit word and back, is itself. -/
theorem word_coord (t : Fin cfg0.N) (a : Fin 3) : (BitVec.ofNat 32 (grid0.coords t a).val).toNat = (grid0.coords t a).val := by
  have h : (grid0.coords t a).val < 128 := by
    have := (grid0.coords t a).isLt
    match a with
    | ⟨0, _⟩ => exact Nat.lt_of_lt_of_le this (show (8 : Nat) ≤ 128 by decide)
    | ⟨1, _⟩ => exact this
    | ⟨2, _⟩ => exact Nat.lt_of_lt_of_le this (show (2 : Nat) ≤ 128 by decide)
  rw [BitVec.toNat_ofNat]
  exact Nat.mod_eq_of_lt (by omega)

/-- The output's block index at a point: (batch, 0, row block, column block). -/
theorem index2 (t : Fin cfg0.N) : win0_2.index t = ![(grid0.coords t 0).val, 0, (grid0.coords t 1).val, (grid0.coords t 2).val] := by
  show cc0_transform_2 (grid0.coords t) = _
  unfold cc0_transform_2
  dsimp only
  rw [word_coord t 0, word_coord t 1, word_coord t 2]
  rfl

/-- The image's block index at a point is the output's. -/
theorem index0 (t : Fin cfg0.N) : win0_0.index t = ![(grid0.coords t 0).val, 0, (grid0.coords t 1).val, (grid0.coords t 2).val] := by
  show cc0_transform_0 (grid0.coords t) = _
  unfold cc0_transform_0
  dsimp only
  rw [word_coord t 0, word_coord t 1, word_coord t 2]
  rfl

/-- The table's block index is zero at every point: the whole table. -/
theorem index1 (t : Fin cfg0.N) : win0_1.index t = ![0, 0, 0, 0] := rfl

/-- The image block at a point, read at (0, k, h, w), is the image at (batch, k, 8·row block + h, 512·column block + w). -/
theorem image_block (c : Dev nD) (t : Fin cfg0.N) (k : Fin 3) (h : Fin 8) (w : Fin 512) (i : S8x3x1024x1024.Idx)
    (h0 : (i 0).val = (grid0.coords t 0).val) (h1 : (i 1).val = k.val)
    (h2 : (i 2).val = (grid0.coords t 1).val * 8 + h.val) (h3 : (i 3).val = (grid0.coords t 2).val * 512 + w.val) :
    (iblk m c 0 t : Vec Ideal S1x3x8x512 .f32) (ix4 (0 : Fin 1) k h w)
      = (m ((c : Thread nD τ).loc main_arg1) : S8x3x1024x1024.Idx → EReal) i := by
  have hi := index0 t
  unfold iblk
  rw [View.read_apply]
  show V m c main_arg1 _ = m (c.tc.loc main_arg1) _
  rw [V_main_arg1]
  congr 1
  funext a
  apply Fin.ext
  match a with
  | ⟨0, _⟩ => show win0_0.index t 0 * 1 + 1 * 0 = (i 0).val; rw [hi, h0]; simp
  | ⟨1, _⟩ => show win0_0.index t 1 * 3 + 1 * k.val = (i 1).val; rw [hi, h1]; simp
  | ⟨2, _⟩ => show win0_0.index t 2 * 8 + 1 * h.val = (i 2).val; rw [hi, h2]; simp
  | ⟨3, _⟩ => show win0_0.index t 3 * 512 + 1 * w.val = (i 3).val; rw [hi, h3]; simp

/-- The table as the region finds it: the argument with its unit batch axis reshaped away. -/
theorem table_entry (c : Dev nD) :
    (V m c main_v0 : S3x33x33x33.Idx → EReal)
      = shapeCast S3x33x33x33 (m ((c : Thread nD τ).loc main_arg0) : S1x3x33x33x33.Idx → EReal) shapeCasts_S1x3x33x33x33_S3x33x33x33 := by
  dsimp only [Gen.V, Gen.hostOps0]
  after_results
  rfl

/-- The table's one block is the whole table: its indices are the table's own. -/
theorem table_emb (t : Fin cfg0.N) (y : S3x33x33x33.Idx) : ((cfg0.win 1).blk t).view.emb y = y := by
  funext a
  apply Fin.ext
  match a with
  | ⟨0, _⟩ => show win0_1.index t 0 * 3 + 1 * (y 0).val = (y 0).val; rw [index1]; simp
  | ⟨1, _⟩ => show win0_1.index t 1 * 33 + 1 * (y 1).val = (y 1).val; rw [index1]; simp
  | ⟨2, _⟩ => show win0_1.index t 2 * 33 + 1 * (y 2).val = (y 2).val; rw [index1]; simp
  | ⟨3, _⟩ => show win0_1.index t 3 * 33 + 1 * (y 3).val = (y 3).val; rw [index1]; simp

/-- The table block at any point, read at (c, d, g, b), is the table argument at (0, c, d, g, b). -/
theorem table_block (c : Dev nD) (t : Fin cfg0.N) (k : Fin 3) (d g b : Fin 33) :
    (iblk m c 1 t : Vec Ideal S3x33x33x33 .f32) (ix4 k d g b)
      = (m ((c : Thread nD τ).loc main_arg0) : S1x3x33x33x33.Idx → EReal) (ix5 (0 : Fin 1) k d g b) := by
  unfold iblk
  rw [View.read_apply]
  show V m c main_v0 (((cfg0.win 1).blk t).view.emb (ix4 k d g b)) = _
  rw [table_emb t (ix4 k d g b), table_entry]
  refine shapeCast_apply _ _ _ _ ?_
  show (S1x3x33x33x33.rowMajor (ix5 (0 : Fin 1) k d g b)).val = (S3x33x33x33.rowMajor (ix4 k d g b)).val
  rw [Shape.rowMajor_val_five, Shape.rowMajor_val_four]
  show ((((0 : Fin 1).val * 3 + k.val) * 33 + d.val) * 33 + g.val) * 33 + b.val = ((k.val * 33 + d.val) * 33 + g.val) * 33 + b.val
  simp

/-- An index of the output is in a point's block iff each coordinate is in the block's range on its axis. -/
theorem mem_block (t : Fin cfg0.N) (i : S8x3x1024x1024.Idx) :
    i ∈ ((cfg0.win 2).blk t).view.set ↔ ∀ a : Fin 4, win0_2.index t a * S1x3x8x512.size a ≤ (i a).val ∧ (i a).val < win0_2.index t a * S1x3x8x512.size a + S1x3x8x512.size a := by
  show i ∈ ((View.whole main_v1).slice (win0_2.rect t)).set ↔ _
  rw [View.set_slice_whole, Rect.mem_set_unit]
  exact Iff.rfl

/-- Every (batch, row block, column block) is some point's coordinates. -/
theorem point_of (n : Fin 8) (p : Fin 128) (q : Fin 2) :
    ∃ t : Fin cfg0.N, (grid0.coords t 0).val = n.val ∧ (grid0.coords t 1).val = p.val ∧ (grid0.coords t 2).val = q.val := by
  have hN : cfg0.N = 2048 := N_0
  have hn := n.isLt
  have hp := p.isLt
  have hq := q.isLt
  refine ⟨⟨n.val * 256 + p.val * 2 + q.val, by rw [hN]; omega⟩, ?_, ?_, ?_⟩
  · show (n.val * 256 + p.val * 2 + q.val) / grid0.stride 0 % 8 = n.val
    rw [stride0]; omega
  · show (n.val * 256 + p.val * 2 + q.val) / grid0.stride 1 % 128 = p.val
    rw [stride1]; omega
  · show (n.val * 256 + p.val * 2 + q.val) / grid0.stride 2 % 2 = q.val
    rw [stride2]; omega

/-- The output's blocks cover it: entry (n, c, h, w) lies in the block of the point (n, h / 8, w / 512). -/
theorem cover (i : S8x3x1024x1024.Idx) :
    ∃ t : Fin cfg0.N, (cfg0.win 2).flush t = true ∧ i ∈ ((cfg0.win 2).blk t).view.set := by
  have hi0 : (i 0).val < 8 := (i 0).isLt
  have hi1 : (i 1).val < 3 := (i 1).isLt
  have hi2 : (i 2).val < 1024 := (i 2).isLt
  have hi3 : (i 3).val < 1024 := (i 3).isLt
  obtain ⟨t, e0, e1, e2⟩ := point_of ⟨(i 0).val, hi0⟩ ⟨(i 2).val / 8, by omega⟩ ⟨(i 3).val / 512, by omega⟩
  refine ⟨t, flush0_2 t, ?_⟩
  rw [mem_block]
  have hx := index2 t
  have x0 : win0_2.index t 0 = (grid0.coords t 0).val := congrFun hx 0
  have x1 : win0_2.index t 1 = 0 := congrFun hx 1
  have x2 : win0_2.index t 2 = (grid0.coords t 1).val := congrFun hx 2
  have x3 : win0_2.index t 3 = (grid0.coords t 2).val := congrFun hx 3
  intro a
  match a with
  | ⟨0, _⟩ => show win0_2.index t 0 * 1 ≤ (i 0).val ∧ (i 0).val < win0_2.index t 0 * 1 + 1; rw [x0, e0]; show (i 0).val * 1 ≤ (i 0).val ∧ (i 0).val < (i 0).val * 1 + 1; omega
  | ⟨1, _⟩ => show win0_2.index t 1 * 3 ≤ (i 1).val ∧ (i 1).val < win0_2.index t 1 * 3 + 3; rw [x1]; omega
  | ⟨2, _⟩ => show win0_2.index t 2 * 8 ≤ (i 2).val ∧ (i 2).val < win0_2.index t 2 * 8 + 8; rw [x2, e1]; show (i 2).val / 8 * 8 ≤ (i 2).val ∧ (i 2).val < (i 2).val / 8 * 8 + 8; omega
  | ⟨3, _⟩ => show win0_2.index t 3 * 512 ≤ (i 3).val ∧ (i 3).val < win0_2.index t 3 * 512 + 512; rw [x3, e2]; show (i 3).val / 512 * 512 ≤ (i 3).val ∧ (i 3).val < (i 3).val / 512 * 512 + 512; omega

/-- What the body leaves at an entry of the output block, when the image block holds the image's entries of one
    (batch, row block, column block) and the table block the table: the interpolated image at the entry the block's
    rectangle puts there. -/
theorem block_entry (x0 : Vec Ideal S1x3x8x512 .f32) (x1 : Vec Ideal S3x33x33x33 .f32)
    (A0 : S1x3x33x33x33.Idx → EReal) (A1 : S8x3x1024x1024.Idx → EReal) (n : Fin 8) (p q : Nat)
    (hx0 : ∀ (k : Fin 3) (h : Fin 8) (w : Fin 512) (hh ww : Fin 1024), hh.val = p * 8 + h.val → ww.val = q * 512 + w.val →
      x0 (ix4 (0 : Fin 1) k h w) = A1 (ix4 n k hh ww))
    (hx1 : ∀ (k : Fin 3) (d g b : Fin 33), x1 (ix4 k d g b) = A0 (ix5 (0 : Fin 1) k d g b))
    (k : Fin 3) (h : Fin 8) (w : Fin 512) (hh ww : Fin 1024) (e2 : hh.val = p * 8 + h.val) (e3 : ww.val = q * 512 + w.val) :
    out0_2 (F := Ideal) x0 x1 (ix4 (0 : Fin 1) k h w) = Trilerp.G A0 A1 (ix4 n k hh ww) := by
  rw [Cert.KernelIdeal.Pixel.out_apply x0 x1 k h w, hx0 0 h w hh ww e2 e3, hx0 1 h w hh ww e2 e3, hx0 2 h w hh ww e2 e3]
  have ht : (fun d g b => x1 (ix4 k d g b)) = Trilerp.table A0 k :=
    funext fun d => funext fun g => funext fun b => hx1 k d g b
  rw [ht]
  rfl

/-- What a point writes back is its block of the interpolated image. -/
theorem flushed_eq (c : Dev nD) (t : Fin cfg0.N) :
    (dats m 0 c).flushed 2 t = ((cfg0.win 2).blk t).view.read (Elt Ideal)
      (Trilerp.G (m ((c : Thread nD τ).loc main_arg0)) (m ((c : Thread nD τ).loc main_arg1))) := by
  rw [Value.flushed2]
  funext y
  rw [View.read_apply]
  have hx := index2 t
  have x0 : win0_2.index t 0 = (grid0.coords t 0).val := congrFun hx 0
  have x1 : win0_2.index t 1 = 0 := congrFun hx 1
  have x2 : win0_2.index t 2 = (grid0.coords t 1).val := congrFun hx 2
  have x3 : win0_2.index t 3 = (grid0.coords t 2).val := congrFun hx 3
  have c0 : (grid0.coords t 0).val < 8 := (grid0.coords t 0).isLt
  have c1 : (grid0.coords t 1).val < 128 := (grid0.coords t 1).isLt
  have c2 : (grid0.coords t 2).val < 2 := (grid0.coords t 2).isLt
  obtain ⟨k, h, w, rfl⟩ : ∃ (k : Fin 3) (h : Fin 8) (w : Fin 512), y = ix4 (0 : Fin 1) k h w := by
    refine ⟨y 1, y 2, y 3, ?_⟩
    funext a
    match a with
    | ⟨0, _⟩ => exact Fin.ext (by have : (y 0).val < 1 := (y 0).isLt; show (y 0).val = 0; omega)
    | ⟨1, _⟩ => rfl
    | ⟨2, _⟩ => rfl
    | ⟨3, _⟩ => rfl
  have hk := k.isLt
  have hh := h.isLt
  have hw := w.isLt
  have hemb : ((cfg0.win 2).blk t).view.emb (ix4 (0 : Fin 1) k h w)
      = ix4 (⟨(grid0.coords t 0).val, c0⟩ : Fin 8) k (⟨(grid0.coords t 1).val * 8 + h.val, by omega⟩ : Fin 1024)
          (⟨(grid0.coords t 2).val * 512 + w.val, by omega⟩ : Fin 1024) := by
    funext a
    apply Fin.ext
    match a with
    | ⟨0, _⟩ => show win0_2.index t 0 * 1 + 1 * 0 = (grid0.coords t 0).val; rw [x0]; omega
    | ⟨1, _⟩ => show win0_2.index t 1 * 3 + 1 * k.val = k.val; rw [x1]; omega
    | ⟨2, _⟩ => show win0_2.index t 2 * 8 + 1 * h.val = (grid0.coords t 1).val * 8 + h.val; rw [x2]; omega
    | ⟨3, _⟩ => show win0_2.index t 3 * 512 + 1 * w.val = (grid0.coords t 2).val * 512 + w.val; rw [x3]; omega
  show out0_2 (F := Ideal) (iblk m c 0 t) (iblk m c 1 t) (ix4 (0 : Fin 1) k h w)
    = Trilerp.G (m ((c : Thread nD τ).loc main_arg0)) (m ((c : Thread nD τ).loc main_arg1)) (((cfg0.win 2).blk t).view.emb (ix4 (0 : Fin 1) k h w))
  rw [hemb]
  exact block_entry (iblk m c 0 t) (iblk m c 1 t) (m ((c : Thread nD τ).loc main_arg0)) (m ((c : Thread nD τ).loc main_arg1))
    (⟨(grid0.coords t 0).val, c0⟩ : Fin 8) (grid0.coords t 1).val (grid0.coords t 2).val
    (fun k' h' w' hh' ww' e2 e3 => image_block m c t k' h' w' (ix4 (⟨(grid0.coords t 0).val, c0⟩ : Fin 8) k' hh' ww') rfl rfl e2 e3)
    (fun k' d g b => table_block m c t k' d g b) k h w _ _ rfl rfl

/-- After the run the output array is the interpolated image. -/
theorem final (c : Dev nD) : (Gen.dats m 0 c).arrAt 2 cfg0.N
    = Trilerp.G (m ((c : Thread nD τ).loc main_arg0)) (m ((c : Thread nD τ).loc main_arg1)) :=
  (dats m 0 c).arrAt_eq_of_cover 2 (Trilerp.G (m ((c : Thread nD τ).loc main_arg0)) (m ((c : Thread nD τ).loc main_arg1)))
    (fun t _ => flushed_eq m c t) cover

/-- The run, read: the output array ends holding the interpolated image, the arguments unchanged. -/
theorem run : θ_run defs (onTc (τ := τ) (main (F := Ideal))) ⟨m, fun _ => 0, ρ⟩ fun r => ∀ c : Dev nD,
      r.2.mem ((c : Thread nD τ).loc main_v1) = Trilerp.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefGather.lean ====
/-
  Two layout operations read at an index, over the literal shapes of a 33×33×33 table lookup per pixel of an
  8×1024×1024 image: a gather of table cells addressed by triples of integers, and the joining of three index
  arrays into the array of triples.
-/
import Idealize.ShloMosaic.Lib.ValueIdx
import Idealize.ShloMosaic.Lib.Pipeline.Value

noncomputable section

namespace Cert.ReferenceIdeal.RefValue

open Idealize.ShloMosaic Idealize.ShloMosaic.ValueIdx

section Lut
variable {α : Type}

/-- The dimension numbers of reading a [3, 33, 33, 33] table at an [8, 1024, 1024, 3] array of cell triples: the channel
    axis is kept whole (an offset axis), the three cell axes are indexed and collapsed. -/
abbrev lutDims (wf : GatherDims.WF ⟨4, ![3, 33, 33, 33]⟩ ⟨4, ![8, 1024, 1024, 3]⟩ ⟨4, ![3, 8, 1024, 1024]⟩
      [0] [1, 2, 3] [] [1, 2, 3] [] 3 ![3, 1, 1, 1]) :
    GatherDims ⟨4, ![3, 33, 33, 33]⟩ ⟨4, ![8, 1024, 1024, 3]⟩ ⟨4, ![3, 8, 1024, 1024]⟩ where
  offsetDims := [0]
  collapsedSliceDims := [1, 2, 3]
  operandBatchingDims := []
  startIndicesBatchingDims := []
  startIndexMap := [1, 2, 3]
  indexVectorDim := 3
  sliceSizes := ![3, 1, 1, 1]
  wf := wf

/-- The table read at (c, n, h, v): channel c of the cell whose three coordinates are the start indices at
    (n, h, v, 0), (n, h, v, 1), (n, h, v, 2), each read signed and clamped into [0, 32]. -/
theorem gather_lut_apply {w : Nat}
    (wf : GatherDims.WF ⟨4, ![3, 33, 33, 33]⟩ ⟨4, ![8, 1024, 1024, 3]⟩ ⟨4, ![3, 8, 1024, 1024]⟩
      [0] [1, 2, 3] [] [1, 2, 3] [] 3 ![3, 1, 1, 1])
    (x : (⟨4, ![3, 33, 33, 33]⟩ : Shape).Idx → α) (idx : IVec ⟨4, ![8, 1024, 1024, 3]⟩ w)
    (c : Fin 3) (n : Fin 8) (h v : Fin 1024) :
    Host.gather (lutDims wf) x idx (ix4 c n h v)
      = x (ix4 c ⟨min (idx (ix4 n h v (0 : Fin 3))).toInt.toNat 32, by omega⟩
                 ⟨min (idx (ix4 n h v (1 : Fin 3))).toInt.toNat 32, by omega⟩
                 ⟨min (idx (ix4 n h v (2 : Fin 3))).toInt.toNat 32, by omega⟩) := by
  unfold Host.gather
  congr 1
  funext a
  refine Fin.ext ?_
  have e0 : (lutDims wf).start (ix4 c n h v) idx (0 : Fin 4) + (lutDims wf).batchCoord (ix4 c n h v) (0 : Fin 4)
      + (lutDims wf).offCoord (ix4 c n h v) (0 : Fin 4) = c.val := by
    have hn : (0 : Fin 4) ∉ ([1, 2, 3] : List (Fin 4)) := by decide
    have hk : (0 : Fin 4) ∈ (⟨4, ![3, 33, 33, 33]⟩ : Shape).kept (([1, 2, 3] : List (Fin 4)) ++ []) := by decide
    rw [GatherDims.batchCoord_eq_zero _ _ _ List.not_mem_nil]
    unfold GatherDims.start GatherDims.offCoord
    rw [dif_neg (show (0 : Fin 4) ∉ (lutDims wf).startIndexMap from hn), dif_pos (show (0 : Fin 4) ∈ (lutDims wf).sKept from hk)]
    have hg : ∀ (p : Nat) (hp : p < ([0] : List (Fin 4)).length), ([0] : List (Fin 4))[p] = 0 := by
      intro p hp
      have hp0 : p = 0 := by simpa using hp
      subst hp0; rfl
    show 0 + 0 + ((ix4 c n h v) (([0] : List (Fin 4))[List.idxOf (0 : Fin 4) (lutDims wf).sKept]'(by
      rw [(lutDims wf).offset_length]; exact List.idxOf_lt_length_iff.2 hk))).val = c.val
    rw [hg, Nat.zero_add]
  have e1 : (lutDims wf).start (ix4 c n h v) idx (1 : Fin 4) + (lutDims wf).batchCoord (ix4 c n h v) (1 : Fin 4)
      + (lutDims wf).offCoord (ix4 c n h v) (1 : Fin 4) = min (idx (ix4 n h v (0 : Fin 3))).toInt.toNat 32 := by
    have hmem : (1 : Fin 4) ∈ ([1, 2, 3] : List (Fin 4)) := by decide
    rw [GatherDims.batchCoord_eq_zero _ _ _ List.not_mem_nil,
      GatherDims.offCoord_eq_zero _ _ _ (fun hm => ((GatherDims.mem_sKept _ _).mp hm).1 hmem)]
    unfold GatherDims.start
    rw [dif_pos (show (1 : Fin 4) ∈ (lutDims wf).startIndexMap from hmem)]
    have hsi : (lutDims wf).siIdx (ix4 c n h v) ⟨List.idxOf (1 : Fin 4) (lutDims wf).startIndexMap,
        List.idxOf_lt_length_iff.2 hmem⟩ = ix4 n h v (0 : Fin 3) := by
      funext b; refine Fin.ext ?_
      match b with
      | ⟨0, _⟩ => rfl
      | ⟨1, _⟩ => rfl
      | ⟨2, _⟩ => rfl
      | ⟨3, _⟩ => rfl
    rw [hsi]
    rfl
  have e2 : (lutDims wf).start (ix4 c n h v) idx (2 : Fin 4) + (lutDims wf).batchCoord (ix4 c n h v) (2 : Fin 4)
      + (lutDims wf).offCoord (ix4 c n h v) (2 : Fin 4) = min (idx (ix4 n h v (1 : Fin 3))).toInt.toNat 32 := by
    have hmem : (2 : Fin 4) ∈ ([1, 2, 3] : List (Fin 4)) := by decide
    rw [GatherDims.batchCoord_eq_zero _ _ _ List.not_mem_nil,
      GatherDims.offCoord_eq_zero _ _ _ (fun hm => ((GatherDims.mem_sKept _ _).mp hm).1 hmem)]
    unfold GatherDims.start
    rw [dif_pos (show (2 : Fin 4) ∈ (lutDims wf).startIndexMap from hmem)]
    have hsi : (lutDims wf).siIdx (ix4 c n h v) ⟨List.idxOf (2 : Fin 4) (lutDims wf).startIndexMap,
        List.idxOf_lt_length_iff.2 hmem⟩ = ix4 n h v (1 : Fin 3) := by
      funext b; refine Fin.ext ?_
      match b with
      | ⟨0, _⟩ => rfl
      | ⟨1, _⟩ => rfl
      | ⟨2, _⟩ => rfl
      | ⟨3, _⟩ => rfl
    rw [hsi]
    rfl
  have e3 : (lutDims wf).start (ix4 c n h v) idx (3 : Fin 4) + (lutDims wf).batchCoord (ix4 c n h v) (3 : Fin 4)
      + (lutDims wf).offCoord (ix4 c n h v) (3 : Fin 4) = min (idx (ix4 n h v (2 : Fin 3))).toInt.toNat 32 := by
    have hmem : (3 : Fin 4) ∈ ([1, 2, 3] : List (Fin 4)) := by decide
    rw [GatherDims.batchCoord_eq_zero _ _ _ List.not_mem_nil,
      GatherDims.offCoord_eq_zero _ _ _ (fun hm => ((GatherDims.mem_sKept _ _).mp hm).1 hmem)]
    unfold GatherDims.start
    rw [dif_pos (show (3 : Fin 4) ∈ (lutDims wf).startIndexMap from hmem)]
    have hsi : (lutDims wf).siIdx (ix4 c n h v) ⟨List.idxOf (3 : Fin 4) (lutDims wf).startIndexMap,
        List.idxOf_lt_length_iff.2 hmem⟩ = ix4 n h v (2 : Fin 3) := by
      funext b; refine Fin.ext ?_
      match b with
      | ⟨0, _⟩ => rfl
      | ⟨1, _⟩ => rfl
      | ⟨2, _⟩ => rfl
      | ⟨3, _⟩ => rfl
    rw [hsi]
    rfl
  match a with
  | ⟨0, _⟩ => exact e0
  | ⟨1, _⟩ => exact e1
  | ⟨2, _⟩ => exact e2
  | ⟨3, _⟩ => exact e3

/-- The same, against any three cells whose coordinates are the clamped start indices. -/
theorem gather_lut_eq {w : Nat}
    (wf : GatherDims.WF ⟨4, ![3, 33, 33, 33]⟩ ⟨4, ![8, 1024, 1024, 3]⟩ ⟨4, ![3, 8, 1024, 1024]⟩
      [0] [1, 2, 3] [] [1, 2, 3] [] 3 ![3, 1, 1, 1])
    (x : (⟨4, ![3, 33, 33, 33]⟩ : Shape).Idx → α) (idx : IVec ⟨4, ![8, 1024, 1024, 3]⟩ w)
    (c : Fin 3) (n : Fin 8) (h v : Fin 1024) (k1 k2 k3 : Fin 33)
    (h1 : k1.val = min (idx (ix4 n h v (0 : Fin 3))).toInt.toNat 32)
    (h2 : k2.val = min (idx (ix4 n h v (1 : Fin 3))).toInt.toNat 32)
    (h3 : k3.val = min (idx (ix4 n h v (2 : Fin 3))).toInt.toNat 32) :
    Host.gather (lutDims wf) x idx (ix4 c n h v) = x (ix4 c k1 k2 k3) := by
  rw [gather_lut_apply]
  refine congrArg x ?_
  funext a
  match a with
  | ⟨0, _⟩ => rfl
  | ⟨1, _⟩ => exact Fin.ext h1.symm
  | ⟨2, _⟩ => exact Fin.ext h2.symm
  | ⟨3, _⟩ => exact Fin.ext h3.symm

end Lut

section Cat
variable {α : Type}

/-- Three [8, 1024, 1024, 1] arrays joined along the last axis, read at last coordinate 0, 1, 2: the first, second,
    third array at last coordinate 0. -/
theorem concat3_apply_0
    (hc : Shape.Concatenates [(⟨4, ![8, 1024, 1024, 1]⟩ : Shape), ⟨4, ![8, 1024, 1024, 1]⟩, ⟨4, ![8, 1024, 1024, 1]⟩] ⟨4, ![8, 1024, 1024, 3]⟩ 3)
    (a b c : (⟨4, ![8, 1024, 1024, 1]⟩ : Shape).Idx → α) (n : Fin 8) (h v : Fin 1024) :
    concatenate ⟨4, ![8, 1024, 1024, 3]⟩ 3 [⟨⟨4, ![8, 1024, 1024, 1]⟩, a⟩, ⟨⟨4, ![8, 1024, 1024, 1]⟩, b⟩, ⟨⟨4, ![8, 1024, 1024, 1]⟩, c⟩] hc
      (ix4 n h v (0 : Fin 3)) = a (ix4 n h v (0 : Fin 1)) := by
  refine concatenate_apply_piece (t := ⟨4, ![8, 1024, 1024, 3]⟩) (3 : Fin 4)
    [⟨⟨4, ![8, 1024, 1024, 1]⟩, a⟩, ⟨⟨4, ![8, 1024, 1024, 1]⟩, b⟩, ⟨⟨4, ![8, 1024, 1024, 1]⟩, c⟩] hc (ix4 n h v (0 : Fin 3)) 0 (by simp)
    ⟨4, ![8, 1024, 1024, 1]⟩ a rfl rfl 0 (by simp)
    (ix4 n h v (0 : Fin 1)) (fun p hp => ?_) rfl
  match p with
  | ⟨0, _⟩ => rfl
  | ⟨1, _⟩ => rfl
  | ⟨2, _⟩ => rfl
  | ⟨3, _⟩ => exact absurd rfl hp

theorem concat3_apply_1
    (hc : Shape.Concatenates [(⟨4, ![8, 1024, 1024, 1]⟩ : Shape), ⟨4, ![8, 1024, 1024, 1]⟩, ⟨4, ![8, 1024, 1024, 1]⟩] ⟨4, ![8, 1024, 1024, 3]⟩ 3)
    (a b c : (⟨4, ![8, 1024, 1024, 1]⟩ : Shape).Idx → α) (n : Fin 8) (h v : Fin 1024) :
    concatenate ⟨4, ![8, 1024, 1024, 3]⟩ 3 [⟨⟨4, ![8, 1024, 1024, 1]⟩, a⟩, ⟨⟨4, ![8, 1024, 1024, 1]⟩, b⟩, ⟨⟨4, ![8, 1024, 1024, 1]⟩, c⟩] hc
      (ix4 n h v (1 : Fin 3)) = b (ix4 n h v (0 : Fin 1)) := by
  refine concatenate_apply_piece (t := ⟨4, ![8, 1024, 1024, 3]⟩) (3 : Fin 4)
    [⟨⟨4, ![8, 1024, 1024, 1]⟩, a⟩, ⟨⟨4, ![8, 1024, 1024, 1]⟩, b⟩, ⟨⟨4, ![8, 1024, 1024, 1]⟩, c⟩] hc (ix4 n h v (1 : Fin 3)) 1 (by simp)
    ⟨4, ![8, 1024, 1024, 1]⟩ b rfl rfl 1 (by simp)
    (ix4 n h v (0 : Fin 1)) (fun p hp => ?_) rfl
  match p with
  | ⟨0, _⟩ => rfl
  | ⟨1, _⟩ => rfl
  | ⟨2, _⟩ => rfl
  | ⟨3, _⟩ => exact absurd rfl hp

theorem concat3_apply_2
    (hc : Shape.Concatenates [(⟨4, ![8, 1024, 1024, 1]⟩ : Shape), ⟨4, ![8, 1024, 1024, 1]⟩, ⟨4, ![8, 1024, 1024, 1]⟩] ⟨4, ![8, 1024, 1024, 3]⟩ 3)
    (a b c : (⟨4, ![8, 1024, 1024, 1]⟩ : Shape).Idx → α) (n : Fin 8) (h v : Fin 1024) :
    concatenate ⟨4, ![8, 1024, 1024, 3]⟩ 3 [⟨⟨4, ![8, 1024, 1024, 1]⟩, a⟩, ⟨⟨4, ![8, 1024, 1024, 1]⟩, b⟩, ⟨⟨4, ![8, 1024, 1024, 1]⟩, c⟩] hc
      (ix4 n h v (2 : Fin 3)) = c (ix4 n h v (0 : Fin 1)) := by
  refine concatenate_apply_piece (t := ⟨4, ![8, 1024, 1024, 3]⟩) (3 : Fin 4)
    [⟨⟨4, ![8, 1024, 1024, 1]⟩, a⟩, ⟨⟨4, ![8, 1024, 1024, 1]⟩, b⟩, ⟨⟨4, ![8, 1024, 1024, 1]⟩, c⟩] hc (ix4 n h v (2 : Fin 3)) 2 (by simp)
    ⟨4, ![8, 1024, 1024, 1]⟩ c rfl rfl 2 (by simp)
    (ix4 n h v (0 : Fin 1)) (fun p hp => ?_) rfl
  match p with
  | ⟨0, _⟩ => rfl
  | ⟨1, _⟩ => rfl
  | ⟨2, _⟩ => rfl
  | ⟨3, _⟩ => exact absurd rfl hp

end Cat

end Cert.ReferenceIdeal.RefValue

end
-- ==== Proof.RefValue.lean ====
/-
  The reference program's result read at an index: entry (n, c, h, w) is the corner-by-corner trilinear
  interpolation of channel c's table at the pixel (n, h, w).

  The chain follows the program: the clamped and scaled coordinates, their integer and fractional parts, the
  three cell indices of each of the eight corners (a negative index counts from the end; the table read keeps
  the index inside the table), the eight table reads, the eight products of one-axis weights, and the sum.
-/
import proofs.«122885_j82171314307385_1_alg».proof.Proof.RefReadPatched
import proofs.«122885_j82171314307385_1_alg».proof.Proof.Spec
import proofs.«122885_j82171314307385_1_alg».proof.Proof.Arrays
import proofs.«122885_j82171314307385_1_alg».proof.Proof.RefGather
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The layout operations' index maps at explicit coordinates -/

theorem idx_v4 {n : Fin 8} {h w : Fin 1024} {k : Fin 3} : idx_main_v4 (ix4 n h w k) = ix4 n k h w := by
  funext a
  match a with
  | ⟨0, _⟩ => rfl
  | ⟨1, _⟩ => rfl
  | ⟨2, _⟩ => rfl
  | ⟨3, _⟩ => rfl

theorem idx_v13 {n : Fin 8} {h w : Fin 1024} : idx_main_v13 (ix4 n h w (0 : Fin 1)) = ix4 n h w (0 : Fin 3) := by
  funext a
  match a with
  | ⟨0, _⟩ => rfl
  | ⟨1, _⟩ => rfl
  | ⟨2, _⟩ => rfl
  | ⟨3, _⟩ => rfl

theorem idx_v14 {n : Fin 8} {h w : Fin 1024} : idx_main_v14 (ix3 n h w) = ix4 n h w (0 : Fin 1) := by
  funext a
  have hn := n.isLt; have hh := h.isLt; have hw := w.isLt
  match a with
  | ⟨0, _⟩ => exact Fin.ext (by show ((n.val * 1024 + h.val) * 1024 + w.val) / 1048576 = n.val; omega)
  | ⟨1, _⟩ => exact Fin.ext (by show ((n.val * 1024 + h.val) * 1024 + w.val) / 1024 % 1024 = h.val; omega)
  | ⟨2, _⟩ => exact Fin.ext (by show ((n.val * 1024 + h.val) * 1024 + w.val) / 1 % 1024 = w.val; omega)
  | ⟨3, _⟩ => rfl

theorem idx_v15 {n : Fin 8} {h w : Fin 1024} : idx_main_v15 (ix4 n h w (0 : Fin 1)) = ix4 n h w (1 : Fin 3) := by
  funext a
  match a with
  | ⟨0, _⟩ => rfl
  | ⟨1, _⟩ => rfl
  | ⟨2, _⟩ => rfl
  | ⟨3, _⟩ => rfl

theorem idx_v16 {n : Fin 8} {h w : Fin 1024} : idx_main_v16 (ix3 n h w) = ix4 n h w (0 : Fin 1) := by
  funext a
  have hn := n.isLt; have hh := h.isLt; have hw := w.isLt
  match a with
  | ⟨0, _⟩ => exact Fin.ext (by show ((n.val * 1024 + h.val) * 1024 + w.val) / 1048576 = n.val; omega)
  | ⟨1, _⟩ => exact Fin.ext (by show ((n.val * 1024 + h.val) * 1024 + w.val) / 1024 % 1024 = h.val; omega)
  | ⟨2, _⟩ => exact Fin.ext (by show ((n.val * 1024 + h.val) * 1024 + w.val) / 1 % 1024 = w.val; omega)
  | ⟨3, _⟩ => rfl

theorem idx_v17 {n : Fin 8} {h w : Fin 1024} : idx_main_v17 (ix4 n h w (0 : Fin 1)) = ix4 n h w (2 : Fin 3) := by
  funext a
  match a with
  | ⟨0, _⟩ => rfl
  | ⟨1, _⟩ => rfl
  | ⟨2, _⟩ => rfl
  | ⟨3, _⟩ => rfl

theorem idx_v18 {n : Fin 8} {h w : Fin 1024} : idx_main_v18 (ix3 n h w) = ix4 n h w (0 : Fin 1) := by
  funext a
  have hn := n.isLt; have hh := h.isLt; have hw := w.isLt
  match a with
  | ⟨0, _⟩ => exact Fin.ext (by show ((n.val * 1024 + h.val) * 1024 + w.val) / 1048576 = n.val; omega)
  | ⟨1, _⟩ => exact Fin.ext (by show ((n.val * 1024 + h.val) * 1024 + w.val) / 1024 % 1024 = h.val; omega)
  | ⟨2, _⟩ => exact Fin.ext (by show ((n.val * 1024 + h.val) * 1024 + w.val) / 1 % 1024 = w.val; omega)
  | ⟨3, _⟩ => rfl

theorem idx_v19 {n : Fin 8} {h w : Fin 1024} : idx_main_v19 (ix4 n h w (0 : Fin 1)) = ix4 n h w (0 : Fin 3) := by
  funext a
  match a with
  | ⟨0, _⟩ => rfl
  | ⟨1, _⟩ => rfl
  | ⟨2, _⟩ => rfl
  | ⟨3, _⟩ => rfl

theorem idx_v20 {n : Fin 8} {h w : Fin 1024} : idx_main_v20 (ix3 n h w) = ix4 n h w (0 : Fin 1) := by
  funext a
  have hn := n.isLt; have hh := h.isLt; have hw := w.isLt
  match a with
  | ⟨0, _⟩ => exact Fin.ext (by show ((n.val * 1024 + h.val) * 1024 + w.val) / 1048576 = n.val; omega)
  | ⟨1, _⟩ => exact Fin.ext (by show ((n.val * 1024 + h.val) * 1024 + w.val) / 1024 % 1024 = h.val; omega)
  | ⟨2, _⟩ => exact Fin.ext (by show ((n.val * 1024 + h.val) * 1024 + w.val) / 1 % 1024 = w.val; omega)
  | ⟨3, _⟩ => rfl

theorem idx_v21 {n : Fin 8} {h w : Fin 1024} : idx_main_v21 (ix4 n h w (0 : Fin 1)) = ix4 n h w (1 : Fin 3) := by
  funext a
  match a with
  | ⟨0, _⟩ => rfl
  | ⟨1, _⟩ => rfl
  | ⟨2, _⟩ => rfl
  | ⟨3, _⟩ => rfl

theorem idx_v22 {n : Fin 8} {h w : Fin 1024} : idx_main_v22 (ix3 n h w) = ix4 n h w (0 : Fin 1) := by
  funext a
  have hn := n.isLt; have hh := h.isLt; have hw := w.isLt
  match a with
  | ⟨0, _⟩ => exact Fin.ext (by show ((n.val * 1024 + h.val) * 1024 + w.val) / 1048576 = n.val; omega)
  | ⟨1, _⟩ => exact Fin.ext (by show ((n.val * 1024 + h.val) * 1024 + w.val) / 1024 % 1024 = h.val; omega)
  | ⟨2, _⟩ => exact Fin.ext (by show ((n.val * 1024 + h.val) * 1024 + w.val) / 1 % 1024 = w.val; omega)
  | ⟨3, _⟩ => rfl

theorem idx_v23 {n : Fin 8} {h w : Fin 1024} : idx_main_v23 (ix4 n h w (0 : Fin 1)) = ix4 n h w (2 : Fin 3) := by
  funext a
  match a with
  | ⟨0, _⟩ => rfl
  | ⟨1, _⟩ => rfl
  | ⟨2, _⟩ => rfl
  | ⟨3, _⟩ => rfl

theorem idx_v24 {n : Fin 8} {h w : Fin 1024} : idx_main_v24 (ix3 n h w) = ix4 n h w (0 : Fin 1) := by
  funext a
  have hn := n.isLt; have hh := h.isLt; have hw := w.isLt
  match a with
  | ⟨0, _⟩ => exact Fin.ext (by show ((n.val * 1024 + h.val) * 1024 + w.val) / 1048576 = n.val; omega)
  | ⟨1, _⟩ => exact Fin.ext (by show ((n.val * 1024 + h.val) * 1024 + w.val) / 1024 % 1024 = h.val; omega)
  | ⟨2, _⟩ => exact Fin.ext (by show ((n.val * 1024 + h.val) * 1024 + w.val) / 1 % 1024 = w.val; omega)
  | ⟨3, _⟩ => rfl

theorem idx_v25 {n : Fin 8} {h w : Fin 1024} : idx_main_v25 (ix4 n h w (0 : Fin 1)) = ix4 n h w (0 : Fin 3) := by
  funext a
  match a with
  | ⟨0, _⟩ => rfl
  | ⟨1, _⟩ => rfl
  | ⟨2, _⟩ => rfl
  | ⟨3, _⟩ => rfl

theorem idx_v26 {n : Fin 8} {h w : Fin 1024} : idx_main_v26 (ix3 n h w) = ix4 n h w (0 : Fin 1) := by
  funext a
  have hn := n.isLt; have hh := h.isLt; have hw := w.isLt
  match a with
  | ⟨0, _⟩ => exact Fin.ext (by show ((n.val * 1024 + h.val) * 1024 + w.val) / 1048576 = n.val; omega)
  | ⟨1, _⟩ => exact Fin.ext (by show ((n.val * 1024 + h.val) * 1024 + w.val) / 1024 % 1024 = h.val; omega)
  | ⟨2, _⟩ => exact Fin.ext (by show ((n.val * 1024 + h.val) * 1024 + w.val) / 1 % 1024 = w.val; omega)
  | ⟨3, _⟩ => rfl

theorem idx_v27 {n : Fin 8} {h w : Fin 1024} : idx_main_v27 (ix4 n h w (0 : Fin 1)) = ix4 n h w (1 : Fin 3) := by
  funext a
  match a with
  | ⟨0, _⟩ => rfl
  | ⟨1, _⟩ => rfl
  | ⟨2, _⟩ => rfl
  | ⟨3, _⟩ => rfl

theorem idx_v28 {n : Fin 8} {h w : Fin 1024} : idx_main_v28 (ix3 n h w) = ix4 n h w (0 : Fin 1) := by
  funext a
  have hn := n.isLt; have hh := h.isLt; have hw := w.isLt
  match a with
  | ⟨0, _⟩ => exact Fin.ext (by show ((n.val * 1024 + h.val) * 1024 + w.val) / 1048576 = n.val; omega)
  | ⟨1, _⟩ => exact Fin.ext (by show ((n.val * 1024 + h.val) * 1024 + w.val) / 1024 % 1024 = h.val; omega)
  | ⟨2, _⟩ => exact Fin.ext (by show ((n.val * 1024 + h.val) * 1024 + w.val) / 1 % 1024 = w.val; omega)
  | ⟨3, _⟩ => rfl

theorem idx_v29 {n : Fin 8} {h w : Fin 1024} : idx_main_v29 (ix4 n h w (0 : Fin 1)) = ix4 n h w (2 : Fin 3) := by
  funext a
  match a with
  | ⟨0, _⟩ => rfl
  | ⟨1, _⟩ => rfl
  | ⟨2, _⟩ => rfl
  | ⟨3, _⟩ => rfl

theorem idx_v30 {n : Fin 8} {h w : Fin 1024} : idx_main_v30 (ix3 n h w) = ix4 n h w (0 : Fin 1) := by
  funext a
  have hn := n.isLt; have hh := h.isLt; have hw := w.isLt
  match a with
  | ⟨0, _⟩ => exact Fin.ext (by show ((n.val * 1024 + h.val) * 1024 + w.val) / 1048576 = n.val; omega)
  | ⟨1, _⟩ => exact Fin.ext (by show ((n.val * 1024 + h.val) * 1024 + w.val) / 1024 % 1024 = h.val; omega)
  | ⟨2, _⟩ => exact Fin.ext (by show ((n.val * 1024 + h.val) * 1024 + w.val) / 1 % 1024 = w.val; omega)
  | ⟨3, _⟩ => rfl

theorem idx_v0 {c : Fin 3} {d g b : Fin 33} : idx_main_v0 (ix4 c d g b) = ix5 (0 : Fin 1) c d g b := by
  funext a
  have hc := c.isLt; have hd := d.isLt; have hg := g.isLt; have hb := b.isLt
  match a with
  | ⟨0, _⟩ => rfl
  | ⟨1, _⟩ => exact Fin.ext (by show (((c.val * 33 + d.val) * 33 + g.val) * 33 + b.val) / 35937 % 3 = c.val; omega)
  | ⟨2, _⟩ => exact Fin.ext (by show (((c.val * 33 + d.val) * 33 + g.val) * 33 + b.val) / 1089 % 33 = d.val; omega)
  | ⟨3, _⟩ => exact Fin.ext (by show (((c.val * 33 + d.val) * 33 + g.val) * 33 + b.val) / 33 % 33 = g.val; omega)
  | ⟨4, _⟩ => exact Fin.ext (by show (((c.val * 33 + d.val) * 33 + g.val) * 33 + b.val) % 33 = b.val; omega)

theorem idx_v46 {n : Fin 8} {h w : Fin 1024} : idx_main_v46 (ix4 n h w (0 : Fin 1)) = ix3 n h w := by
  funext a
  match a with
  | ⟨0, _⟩ => rfl
  | ⟨1, _⟩ => rfl
  | ⟨2, _⟩ => rfl

theorem idx_v47 {n : Fin 8} {h w : Fin 1024} : idx_main_v47 (ix4 n h w (0 : Fin 1)) = ix3 n h w := by
  funext a
  match a with
  | ⟨0, _⟩ => rfl
  | ⟨1, _⟩ => rfl
  | ⟨2, _⟩ => rfl

theorem idx_v48 {n : Fin 8} {h w : Fin 1024} : idx_main_v48 (ix4 n h w (0 : Fin 1)) = ix3 n h w := by
  funext a
  match a with
  | ⟨0, _⟩ => rfl
  | ⟨1, _⟩ => rfl
  | ⟨2, _⟩ => rfl

theorem idx_v51 {n : Fin 8} {c : Fin 3} {h w : Fin 1024} : idx_main_v51 (ix4 n c h w) = ix4 c n h w := by
  funext a
  match a with
  | ⟨0, _⟩ => rfl
  | ⟨1, _⟩ => rfl
  | ⟨2, _⟩ => rfl
  | ⟨3, _⟩ => rfl

theorem idx_v67 {n : Fin 8} {h w : Fin 1024} : idx_main_v67 (ix4 n h w (0 : Fin 1)) = ix3 n h w := by
  funext a
  match a with
  | ⟨0, _⟩ => rfl
  | ⟨1, _⟩ => rfl
  | ⟨2, _⟩ => rfl

theorem idx_v68 {n : Fin 8} {h w : Fin 1024} : idx_main_v68 (ix4 n h w (0 : Fin 1)) = ix3 n h w := by
  funext a
  match a with
  | ⟨0, _⟩ => rfl
  | ⟨1, _⟩ => rfl
  | ⟨2, _⟩ => rfl

theorem idx_v69 {n : Fin 8} {h w : Fin 1024} : idx_main_v69 (ix4 n h w (0 : Fin 1)) = ix3 n h w := by
  funext a
  match a with
  | ⟨0, _⟩ => rfl
  | ⟨1, _⟩ => rfl
  | ⟨2, _⟩ => rfl

theorem idx_v72 {n : Fin 8} {c : Fin 3} {h w : Fin 1024} : idx_main_v72 (ix4 n c h w) = ix4 c n h w := by
  funext a
  match a with
  | ⟨0, _⟩ => rfl
  | ⟨1, _⟩ => rfl
  | ⟨2, _⟩ => rfl
  | ⟨3, _⟩ => rfl

theorem idx_v88 {n : Fin 8} {h w : Fin 1024} : idx_main_v88 (ix4 n h w (0 : Fin 1)) = ix3 n h w := by
  funext a
  match a with
  | ⟨0, _⟩ => rfl
  | ⟨1, _⟩ => rfl
  | ⟨2, _⟩ => rfl

theorem idx_v89 {n : Fin 8} {h w : Fin 1024} : idx_main_v89 (ix4 n h w (0 : Fin 1)) = ix3 n h w := by
  funext a
  match a with
  | ⟨0, _⟩ => rfl
  | ⟨1, _⟩ => rfl
  | ⟨2, _⟩ => rfl

theorem idx_v90 {n : Fin 8} {h w : Fin 1024} : idx_main_v90 (ix4 n h w (0 : Fin 1)) = ix3 n h w := by
  funext a
  match a with
  | ⟨0, _⟩ => rfl
  | ⟨1, _⟩ => rfl
  | ⟨2, _⟩ => rfl

theorem idx_v93 {n : Fin 8} {c : Fin 3} {h w : Fin 1024} : idx_main_v93 (ix4 n c h w) = ix4 c n h w := by
  funext a
  match a with
  | ⟨0, _⟩ => rfl
  | ⟨1, _⟩ => rfl
  | ⟨2, _⟩ => rfl
  | ⟨3, _⟩ => rfl

theorem idx_v109 {n : Fin 8} {h w : Fin 1024} : idx_main_v109 (ix4 n h w (0 : Fin 1)) = ix3 n h w := by
  funext a
  match a with
  | ⟨0, _⟩ => rfl
  | ⟨1, _⟩ => rfl
  | ⟨2, _⟩ => rfl

theorem idx_v110 {n : Fin 8} {h w : Fin 1024} : idx_main_v110 (ix4 n h w (0 : Fin 1)) = ix3 n h w := by
  funext a
  match a with
  | ⟨0, _⟩ => rfl
  | ⟨1, _⟩ => rfl
  | ⟨2, _⟩ => rfl

theorem idx_v111 {n : Fin 8} {h w : Fin 1024} : idx_main_v111 (ix4 n h w (0 : Fin 1)) = ix3 n h w := by
  funext a
  match a with
  | ⟨0, _⟩ => rfl
  | ⟨1, _⟩ => rfl
  | ⟨2, _⟩ => rfl

theorem idx_v114 {n : Fin 8} {c : Fin 3} {h w : Fin 1024} : idx_main_v114 (ix4 n c h w) = ix4 c n h w := by
  funext a
  match a with
  | ⟨0, _⟩ => rfl
  | ⟨1, _⟩ => rfl
  | ⟨2, _⟩ => rfl
  | ⟨3, _⟩ => rfl

theorem idx_v130 {n : Fin 8} {h w : Fin 1024} : idx_main_v130 (ix4 n h w (0 : Fin 1)) = ix3 n h w := by
  funext a
  match a with
  | ⟨0, _⟩ => rfl
  | ⟨1, _⟩ => rfl
  | ⟨2, _⟩ => rfl

theorem idx_v131 {n : Fin 8} {h w : Fin 1024} : idx_main_v131 (ix4 n h w (0 : Fin 1)) = ix3 n h w := by
  funext a
  match a with
  | ⟨0, _⟩ => rfl
  | ⟨1, _⟩ => rfl
  | ⟨2, _⟩ => rfl

theorem idx_v132 {n : Fin 8} {h w : Fin 1024} : idx_main_v132 (ix4 n h w (0 : Fin 1)) = ix3 n h w := by
  funext a
  match a with
  | ⟨0, _⟩ => rfl
  | ⟨1, _⟩ => rfl
  | ⟨2, _⟩ => rfl

theorem idx_v135 {n : Fin 8} {c : Fin 3} {h w : Fin 1024} : idx_main_v135 (ix4 n c h w) = ix4 c n h w := by
  funext a
  match a with
  | ⟨0, _⟩ => rfl
  | ⟨1, _⟩ => rfl
  | ⟨2, _⟩ => rfl
  | ⟨3, _⟩ => rfl

theorem idx_v151 {n : Fin 8} {h w : Fin 1024} : idx_main_v151 (ix4 n h w (0 : Fin 1)) = ix3 n h w := by
  funext a
  match a with
  | ⟨0, _⟩ => rfl
  | ⟨1, _⟩ => rfl
  | ⟨2, _⟩ => rfl

theorem idx_v152 {n : Fin 8} {h w : Fin 1024} : idx_main_v152 (ix4 n h w (0 : Fin 1)) = ix3 n h w := by
  funext a
  match a with
  | ⟨0, _⟩ => rfl
  | ⟨1, _⟩ => rfl
  | ⟨2, _⟩ => rfl

theorem idx_v153 {n : Fin 8} {h w : Fin 1024} : idx_main_v153 (ix4 n h w (0 : Fin 1)) = ix3 n h w := by
  funext a
  match a with
  | ⟨0, _⟩ => rfl
  | ⟨1, _⟩ => rfl
  | ⟨2, _⟩ => rfl

theorem idx_v156 {n : Fin 8} {c : Fin 3} {h w : Fin 1024} : idx_main_v156 (ix4 n c h w) = ix4 c n h w := by
  funext a
  match a with
  | ⟨0, _⟩ => rfl
  | ⟨1, _⟩ => rfl
  | ⟨2, _⟩ => rfl
  | ⟨3, _⟩ => rfl

theorem idx_v172 {n : Fin 8} {h w : Fin 1024} : idx_main_v172 (ix4 n h w (0 : Fin 1)) = ix3 n h w := by
  funext a
  match a with
  | ⟨0, _⟩ => rfl
  | ⟨1, _⟩ => rfl
  | ⟨2, _⟩ => rfl

theorem idx_v173 {n : Fin 8} {h w : Fin 1024} : idx_main_v173 (ix4 n h w (0 : Fin 1)) = ix3 n h w := by
  funext a
  match a with
  | ⟨0, _⟩ => rfl
  | ⟨1, _⟩ => rfl
  | ⟨2, _⟩ => rfl

theorem idx_v174 {n : Fin 8} {h w : Fin 1024} : idx_main_v174 (ix4 n h w (0 : Fin 1)) = ix3 n h w := by
  funext a
  match a with
  | ⟨0, _⟩ => rfl
  | ⟨1, _⟩ => rfl
  | ⟨2, _⟩ => rfl

theorem idx_v177 {n : Fin 8} {c : Fin 3} {h w : Fin 1024} : idx_main_v177 (ix4 n c h w) = ix4 c n h w := by
  funext a
  match a with
  | ⟨0, _⟩ => rfl
  | ⟨1, _⟩ => rfl
  | ⟨2, _⟩ => rfl
  | ⟨3, _⟩ => rfl

theorem idx_v193 {n : Fin 8} {h w : Fin 1024} : idx_main_v193 (ix4 n h w (0 : Fin 1)) = ix3 n h w := by
  funext a
  match a with
  | ⟨0, _⟩ => rfl
  | ⟨1, _⟩ => rfl
  | ⟨2, _⟩ => rfl

theorem idx_v194 {n : Fin 8} {h w : Fin 1024} : idx_main_v194 (ix4 n h w (0 : Fin 1)) = ix3 n h w := by
  funext a
  match a with
  | ⟨0, _⟩ => rfl
  | ⟨1, _⟩ => rfl
  | ⟨2, _⟩ => rfl

theorem idx_v195 {n : Fin 8} {h w : Fin 1024} : idx_main_v195 (ix4 n h w (0 : Fin 1)) = ix3 n h w := by
  funext a
  match a with
  | ⟨0, _⟩ => rfl
  | ⟨1, _⟩ => rfl
  | ⟨2, _⟩ => rfl

theorem idx_v198 {n : Fin 8} {c : Fin 3} {h w : Fin 1024} : idx_main_v198 (ix4 n c h w) = ix4 c n h w := by
  funext a
  match a with
  | ⟨0, _⟩ => rfl
  | ⟨1, _⟩ => rfl
  | ⟨2, _⟩ => rfl
  | ⟨3, _⟩ => rfl

theorem idx_v207 {n : Fin 8} {h w : Fin 1024} : idx_main_v207 (ix4 n (0 : Fin 1) h w) = ix3 n h w := by
  funext a
  match a with
  | ⟨0, _⟩ => rfl
  | ⟨1, _⟩ => rfl
  | ⟨2, _⟩ => rfl

theorem idx_v214 {n : Fin 8} {h w : Fin 1024} : idx_main_v214 (ix4 n (0 : Fin 1) h w) = ix3 n h w := by
  funext a
  match a with
  | ⟨0, _⟩ => rfl
  | ⟨1, _⟩ => rfl
  | ⟨2, _⟩ => rfl

theorem idx_v221 {n : Fin 8} {h w : Fin 1024} : idx_main_v221 (ix4 n (0 : Fin 1) h w) = ix3 n h w := by
  funext a
  match a with
  | ⟨0, _⟩ => rfl
  | ⟨1, _⟩ => rfl
  | ⟨2, _⟩ => rfl

theorem idx_v226 {n : Fin 8} {h w : Fin 1024} : idx_main_v226 (ix4 n (0 : Fin 1) h w) = ix3 n h w := by
  funext a
  match a with
  | ⟨0, _⟩ => rfl
  | ⟨1, _⟩ => rfl
  | ⟨2, _⟩ => rfl

theorem idx_v233 {n : Fin 8} {h w : Fin 1024} : idx_main_v233 (ix4 n (0 : Fin 1) h w) = ix3 n h w := by
  funext a
  match a with
  | ⟨0, _⟩ => rfl
  | ⟨1, _⟩ => rfl
  | ⟨2, _⟩ => rfl

theorem idx_v238 {n : Fin 8} {h w : Fin 1024} : idx_main_v238 (ix4 n (0 : Fin 1) h w) = ix3 n h w := by
  funext a
  match a with
  | ⟨0, _⟩ => rfl
  | ⟨1, _⟩ => rfl
  | ⟨2, _⟩ => rfl

theorem idx_v243 {n : Fin 8} {h w : Fin 1024} : idx_main_v243 (ix4 n (0 : Fin 1) h w) = ix3 n h w := by
  funext a
  match a with
  | ⟨0, _⟩ => rfl
  | ⟨1, _⟩ => rfl
  | ⟨2, _⟩ => rfl

theorem idx_v246 {n : Fin 8} {h w : Fin 1024} : idx_main_v246 (ix4 n (0 : Fin 1) h w) = ix3 n h w := by
  funext a
  match a with
  | ⟨0, _⟩ => rfl
  | ⟨1, _⟩ => rfl
  | ⟨2, _⟩ => rfl

theorem idx_v247 {n : Fin 8} {c : Fin 3} {h w : Fin 1024} : idx_main_v247 (ix4 n c h w) = ix4 n (0 : Fin 1) h w := by
  funext a
  match a with
  | ⟨0, _⟩ => rfl
  | ⟨1, _⟩ => rfl
  | ⟨2, _⟩ => rfl
  | ⟨3, _⟩ => rfl

theorem idx_v249 {n : Fin 8} {c : Fin 3} {h w : Fin 1024} : idx_main_v249 (ix4 n c h w) = ix4 n (0 : Fin 1) h w := by
  funext a
  match a with
  | ⟨0, _⟩ => rfl
  | ⟨1, _⟩ => rfl
  | ⟨2, _⟩ => rfl
  | ⟨3, _⟩ => rfl

theorem idx_v252 {n : Fin 8} {c : Fin 3} {h w : Fin 1024} : idx_main_v252 (ix4 n c h w) = ix4 n (0 : Fin 1) h w := by
  funext a
  match a with
  | ⟨0, _⟩ => rfl
  | ⟨1, _⟩ => rfl
  | ⟨2, _⟩ => rfl
  | ⟨3, _⟩ => rfl

theorem idx_v255 {n : Fin 8} {c : Fin 3} {h w : Fin 1024} : idx_main_v255 (ix4 n c h w) = ix4 n (0 : Fin 1) h w := by
  funext a
  match a with
  | ⟨0, _⟩ => rfl
  | ⟨1, _⟩ => rfl
  | ⟨2, _⟩ => rfl
  | ⟨3, _⟩ => rfl

theorem idx_v258 {n : Fin 8} {c : Fin 3} {h w : Fin 1024} : idx_main_v258 (ix4 n c h w) = ix4 n (0 : Fin 1) h w := by
  funext a
  match a with
  | ⟨0, _⟩ => rfl
  | ⟨1, _⟩ => rfl
  | ⟨2, _⟩ => rfl
  | ⟨3, _⟩ => rfl

theorem idx_v261 {n : Fin 8} {c : Fin 3} {h w : Fin 1024} : idx_main_v261 (ix4 n c h w) = ix4 n (0 : Fin 1) h w := by
  funext a
  match a with
  | ⟨0, _⟩ => rfl
  | ⟨1, _⟩ => rfl
  | ⟨2, _⟩ => rfl
  | ⟨3, _⟩ => rfl

theorem idx_v264 {n : Fin 8} {c : Fin 3} {h w : Fin 1024} : idx_main_v264 (ix4 n c h w) = ix4 n (0 : Fin 1) h w := by
  funext a
  match a with
  | ⟨0, _⟩ => rfl
  | ⟨1, _⟩ => rfl
  | ⟨2, _⟩ => rfl
  | ⟨3, _⟩ => rfl

theorem idx_v267 {n : Fin 8} {c : Fin 3} {h w : Fin 1024} : idx_main_v267 (ix4 n c h w) = ix4 n (0 : Fin 1) h w := by
  funext a
  match a with
  | ⟨0, _⟩ => rfl
  | ⟨1, _⟩ => rfl
  | ⟨2, _⟩ => rfl
  | ⟨3, _⟩ => rfl

/-! ## The shared intermediates -/

variable {x0 : (⟨S1x3x33x33x33, .f32⟩ : BufTy).Contents (Elt Ideal)} {x1 : (⟨S8x3x1024x1024, .f32⟩ : BufTy).Contents (Elt Ideal)}
  {n : Fin 8} {c : Fin 3} {h w : Fin 1024}

/-- The clamped coordinate scaled to the table's 32 cells. -/
theorem v4_at {k : Fin 3} : val_main_v4 (F := Ideal) x1 (ix4 n h w k) = Trilerp.scaled (Trilerp.coord x1 n k h w) := by
  rw [val_main_v4_apply, idx_v4, val_main_v3_apply, val_main_v1_apply, val_main_call0_v4_apply, val_main_call0_v2_apply,
    val_main_call0_v1_apply, val_main_v2_apply]
  first | done | rfl

/-- Its integer part, the cell below. -/
theorem v6_at {k : Fin 3} : val_main_v6 (F := Ideal) x1 (ix4 n h w k) = Trilerp.lo (Trilerp.coord x1 n k h w) := by
  rw [val_main_v6_apply, val_main_v5_apply, v4_at]
  first | done | rfl

/-- The cell above, kept inside the table. -/
theorem v10_at {k : Fin 3} : val_main_v10 (F := Ideal) x1 (ix4 n h w k) = Trilerp.hi (Trilerp.coord x1 n k h w) := by
  rw [val_main_v10_apply, val_main_v8_apply, val_main_v7_apply, val_main_v9_apply, v6_at]
  first | done | rfl

/-- The position inside the cell. -/
theorem v12_at {k : Fin 3} : val_main_v12 (F := Ideal) x1 (ix4 n h w k) = Trilerp.frac (Trilerp.coord x1 n k h w) := by
  rw [val_main_v12_apply, val_main_v11_apply, v4_at, v6_at]
  first | done | rfl

theorem v14_at : val_main_v14 (F := Ideal) x1 (ix3 n h w) = Trilerp.lo (Trilerp.coord x1 n 0 h w) := by
  rw [val_main_v14_apply, idx_v14, val_main_v13_apply, idx_v13, v6_at]
  first | done | rfl

theorem v16_at : val_main_v16 (F := Ideal) x1 (ix3 n h w) = Trilerp.lo (Trilerp.coord x1 n 1 h w) := by
  rw [val_main_v16_apply, idx_v16, val_main_v15_apply, idx_v15, v6_at]
  first | done | rfl

theorem v18_at : val_main_v18 (F := Ideal) x1 (ix3 n h w) = Trilerp.lo (Trilerp.coord x1 n 2 h w) := by
  rw [val_main_v18_apply, idx_v18, val_main_v17_apply, idx_v17, v6_at]
  first | done | rfl

theorem v20_at : val_main_v20 (F := Ideal) x1 (ix3 n h w) = Trilerp.hi (Trilerp.coord x1 n 0 h w) := by
  rw [val_main_v20_apply, idx_v20, val_main_v19_apply, idx_v19, v10_at]
  first | done | rfl

theorem v22_at : val_main_v22 (F := Ideal) x1 (ix3 n h w) = Trilerp.hi (Trilerp.coord x1 n 1 h w) := by
  rw [val_main_v22_apply, idx_v22, val_main_v21_apply, idx_v21, v10_at]
  first | done | rfl

theorem v24_at : val_main_v24 (F := Ideal) x1 (ix3 n h w) = Trilerp.hi (Trilerp.coord x1 n 2 h w) := by
  rw [val_main_v24_apply, idx_v24, val_main_v23_apply, idx_v23, v10_at]
  first | done | rfl

theorem v26_at : val_main_v26 (F := Ideal) x1 (ix3 n h w) = Trilerp.frac (Trilerp.coord x1 n 0 h w) := by
  rw [val_main_v26_apply, idx_v26, val_main_v25_apply, idx_v25, v12_at]
  first | done | rfl

theorem v28_at : val_main_v28 (F := Ideal) x1 (ix3 n h w) = Trilerp.frac (Trilerp.coord x1 n 1 h w) := by
  rw [val_main_v28_apply, idx_v28, val_main_v27_apply, idx_v27, v12_at]
  first | done | rfl

theorem v30_at : val_main_v30 (F := Ideal) x1 (ix3 n h w) = Trilerp.frac (Trilerp.coord x1 n 2 h w) := by
  rw [val_main_v30_apply, idx_v30, val_main_v29_apply, idx_v29, v12_at]
  first | done | rfl

/-! ## The eight table reads -/

theorem v35_at : val_main_v35 (F := Ideal) x1 (ix3 n h w) = Scalar.select (IntOp.cmpi .slt (Trilerp.lo (Trilerp.coord x1 n 0 h w)) 0#32) (IntOp.addi (Trilerp.lo (Trilerp.coord x1 n 0 h w)) 33#32) (Trilerp.lo (Trilerp.coord x1 n 0 h w)) := by
  rw [val_main_v35_apply, val_main_v32_apply, val_main_v34_apply, val_main_v31_apply, val_main_v33_apply, v14_at]
  first | done | rfl
theorem v46_at : val_main_v46 (F := Ideal) x1 (ix4 n h w (0 : Fin 1)) = Scalar.select (IntOp.cmpi .slt (Trilerp.lo (Trilerp.coord x1 n 0 h w)) 0#32) (IntOp.addi (Trilerp.lo (Trilerp.coord x1 n 0 h w)) 33#32) (Trilerp.lo (Trilerp.coord x1 n 0 h w)) := by
  rw [val_main_v46_apply, idx_v46, v35_at]
  first | done | rfl
theorem v49_at0 : val_main_v49 (F := Ideal) x1 (ix4 n h w (0 : Fin 3)) = Scalar.select (IntOp.cmpi .slt (Trilerp.lo (Trilerp.coord x1 n 0 h w)) 0#32) (IntOp.addi (Trilerp.lo (Trilerp.coord x1 n 0 h w)) 33#32) (Trilerp.lo (Trilerp.coord x1 n 0 h w)) := by
  unfold val_main_v49
  exact (concat3_apply_0 _ _ _ _ n h w).trans v46_at

theorem v40_at : val_main_v40 (F := Ideal) x1 (ix3 n h w) = Scalar.select (IntOp.cmpi .slt (Trilerp.lo (Trilerp.coord x1 n 1 h w)) 0#32) (IntOp.addi (Trilerp.lo (Trilerp.coord x1 n 1 h w)) 33#32) (Trilerp.lo (Trilerp.coord x1 n 1 h w)) := by
  rw [val_main_v40_apply, val_main_v37_apply, val_main_v39_apply, val_main_v36_apply, val_main_v38_apply, v16_at]
  first | done | rfl
theorem v47_at : val_main_v47 (F := Ideal) x1 (ix4 n h w (0 : Fin 1)) = Scalar.select (IntOp.cmpi .slt (Trilerp.lo (Trilerp.coord x1 n 1 h w)) 0#32) (IntOp.addi (Trilerp.lo (Trilerp.coord x1 n 1 h w)) 33#32) (Trilerp.lo (Trilerp.coord x1 n 1 h w)) := by
  rw [val_main_v47_apply, idx_v47, v40_at]
  first | done | rfl
theorem v49_at1 : val_main_v49 (F := Ideal) x1 (ix4 n h w (1 : Fin 3)) = Scalar.select (IntOp.cmpi .slt (Trilerp.lo (Trilerp.coord x1 n 1 h w)) 0#32) (IntOp.addi (Trilerp.lo (Trilerp.coord x1 n 1 h w)) 33#32) (Trilerp.lo (Trilerp.coord x1 n 1 h w)) := by
  unfold val_main_v49
  exact (concat3_apply_1 _ _ _ _ n h w).trans v47_at

theorem v45_at : val_main_v45 (F := Ideal) x1 (ix3 n h w) = Scalar.select (IntOp.cmpi .slt (Trilerp.lo (Trilerp.coord x1 n 2 h w)) 0#32) (IntOp.addi (Trilerp.lo (Trilerp.coord x1 n 2 h w)) 33#32) (Trilerp.lo (Trilerp.coord x1 n 2 h w)) := by
  rw [val_main_v45_apply, val_main_v42_apply, val_main_v44_apply, val_main_v41_apply, val_main_v43_apply, v18_at]
  first | done | rfl
theorem v48_at : val_main_v48 (F := Ideal) x1 (ix4 n h w (0 : Fin 1)) = Scalar.select (IntOp.cmpi .slt (Trilerp.lo (Trilerp.coord x1 n 2 h w)) 0#32) (IntOp.addi (Trilerp.lo (Trilerp.coord x1 n 2 h w)) 33#32) (Trilerp.lo (Trilerp.coord x1 n 2 h w)) := by
  rw [val_main_v48_apply, idx_v48, v45_at]
  first | done | rfl
theorem v49_at2 : val_main_v49 (F := Ideal) x1 (ix4 n h w (2 : Fin 3)) = Scalar.select (IntOp.cmpi .slt (Trilerp.lo (Trilerp.coord x1 n 2 h w)) 0#32) (IntOp.addi (Trilerp.lo (Trilerp.coord x1 n 2 h w)) 33#32) (Trilerp.lo (Trilerp.coord x1 n 2 h w)) := by
  unfold val_main_v49
  exact (concat3_apply_2 _ _ _ _ n h w).trans v48_at

theorem v50_at : val_main_v50 (F := Ideal) x0 x1 (ix4 c n h w) = Trilerp.table x0 c (Trilerp.cell (Trilerp.lo (Trilerp.coord x1 n 0 h w))) (Trilerp.cell (Trilerp.lo (Trilerp.coord x1 n 1 h w))) (Trilerp.cell (Trilerp.lo (Trilerp.coord x1 n 2 h w))) := by
  unfold val_main_v50
  refine (gather_lut_eq _ (val_main_v0 (F := Ideal) x0) (val_main_v49 (F := Ideal) x1) c n h w
    (Trilerp.cell (Trilerp.lo (Trilerp.coord x1 n 0 h w))) (Trilerp.cell (Trilerp.lo (Trilerp.coord x1 n 1 h w))) (Trilerp.cell (Trilerp.lo (Trilerp.coord x1 n 2 h w)))
    (by rw [v49_at0]; rfl) (by rw [v49_at1]; rfl) (by rw [v49_at2]; rfl)).trans ?_
  rw [val_main_v0_apply, idx_v0]
  first | done | rfl
theorem v51_at : val_main_v51 (F := Ideal) x0 x1 (ix4 n c h w) = Trilerp.table x0 c (Trilerp.cell (Trilerp.lo (Trilerp.coord x1 n 0 h w))) (Trilerp.cell (Trilerp.lo (Trilerp.coord x1 n 1 h w))) (Trilerp.cell (Trilerp.lo (Trilerp.coord x1 n 2 h w))) := by
  rw [val_main_v51_apply, idx_v51, v50_at]
  first | done | rfl

theorem v56_at : val_main_v56 (F := Ideal) x1 (ix3 n h w) = Scalar.select (IntOp.cmpi .slt (Trilerp.hi (Trilerp.coord x1 n 0 h w)) 0#32) (IntOp.addi (Trilerp.hi (Trilerp.coord x1 n 0 h w)) 33#32) (Trilerp.hi (Trilerp.coord x1 n 0 h w)) := by
  rw [val_main_v56_apply, val_main_v53_apply, val_main_v55_apply, val_main_v52_apply, val_main_v54_apply, v20_at]
  first | done | rfl
theorem v67_at : val_main_v67 (F := Ideal) x1 (ix4 n h w (0 : Fin 1)) = Scalar.select (IntOp.cmpi .slt (Trilerp.hi (Trilerp.coord x1 n 0 h w)) 0#32) (IntOp.addi (Trilerp.hi (Trilerp.coord x1 n 0 h w)) 33#32) (Trilerp.hi (Trilerp.coord x1 n 0 h w)) := by
  rw [val_main_v67_apply, idx_v67, v56_at]
  first | done | rfl
theorem v70_at0 : val_main_v70 (F := Ideal) x1 (ix4 n h w (0 : Fin 3)) = Scalar.select (IntOp.cmpi .slt (Trilerp.hi (Trilerp.coord x1 n 0 h w)) 0#32) (IntOp.addi (Trilerp.hi (Trilerp.coord x1 n 0 h w)) 33#32) (Trilerp.hi (Trilerp.coord x1 n 0 h w)) := by
  unfold val_main_v70
  exact (concat3_apply_0 _ _ _ _ n h w).trans v67_at

theorem v61_at : val_main_v61 (F := Ideal) x1 (ix3 n h w) = Scalar.select (IntOp.cmpi .slt (Trilerp.lo (Trilerp.coord x1 n 1 h w)) 0#32) (IntOp.addi (Trilerp.lo (Trilerp.coord x1 n 1 h w)) 33#32) (Trilerp.lo (Trilerp.coord x1 n 1 h w)) := by
  rw [val_main_v61_apply, val_main_v58_apply, val_main_v60_apply, val_main_v57_apply, val_main_v59_apply, v16_at]
  first | done | rfl
theorem v68_at : val_main_v68 (F := Ideal) x1 (ix4 n h w (0 : Fin 1)) = Scalar.select (IntOp.cmpi .slt (Trilerp.lo (Trilerp.coord x1 n 1 h w)) 0#32) (IntOp.addi (Trilerp.lo (Trilerp.coord x1 n 1 h w)) 33#32) (Trilerp.lo (Trilerp.coord x1 n 1 h w)) := by
  rw [val_main_v68_apply, idx_v68, v61_at]
  first | done | rfl
theorem v70_at1 : val_main_v70 (F := Ideal) x1 (ix4 n h w (1 : Fin 3)) = Scalar.select (IntOp.cmpi .slt (Trilerp.lo (Trilerp.coord x1 n 1 h w)) 0#32) (IntOp.addi (Trilerp.lo (Trilerp.coord x1 n 1 h w)) 33#32) (Trilerp.lo (Trilerp.coord x1 n 1 h w)) := by
  unfold val_main_v70
  exact (concat3_apply_1 _ _ _ _ n h w).trans v68_at

theorem v66_at : val_main_v66 (F := Ideal) x1 (ix3 n h w) = Scalar.select (IntOp.cmpi .slt (Trilerp.lo (Trilerp.coord x1 n 2 h w)) 0#32) (IntOp.addi (Trilerp.lo (Trilerp.coord x1 n 2 h w)) 33#32) (Trilerp.lo (Trilerp.coord x1 n 2 h w)) := by
  rw [val_main_v66_apply, val_main_v63_apply, val_main_v65_apply, val_main_v62_apply, val_main_v64_apply, v18_at]
  first | done | rfl
theorem v69_at : val_main_v69 (F := Ideal) x1 (ix4 n h w (0 : Fin 1)) = Scalar.select (IntOp.cmpi .slt (Trilerp.lo (Trilerp.coord x1 n 2 h w)) 0#32) (IntOp.addi (Trilerp.lo (Trilerp.coord x1 n 2 h w)) 33#32) (Trilerp.lo (Trilerp.coord x1 n 2 h w)) := by
  rw [val_main_v69_apply, idx_v69, v66_at]
  first | done | rfl
theorem v70_at2 : val_main_v70 (F := Ideal) x1 (ix4 n h w (2 : Fin 3)) = Scalar.select (IntOp.cmpi .slt (Trilerp.lo (Trilerp.coord x1 n 2 h w)) 0#32) (IntOp.addi (Trilerp.lo (Trilerp.coord x1 n 2 h w)) 33#32) (Trilerp.lo (Trilerp.coord x1 n 2 h w)) := by
  unfold val_main_v70
  exact (concat3_apply_2 _ _ _ _ n h w).trans v69_at

theorem v71_at : val_main_v71 (F := Ideal) x0 x1 (ix4 c n h w) = Trilerp.table x0 c (Trilerp.cell (Trilerp.hi (Trilerp.coord x1 n 0 h w))) (Trilerp.cell (Trilerp.lo (Trilerp.coord x1 n 1 h w))) (Trilerp.cell (Trilerp.lo (Trilerp.coord x1 n 2 h w))) := by
  unfold val_main_v71
  refine (gather_lut_eq _ (val_main_v0 (F := Ideal) x0) (val_main_v70 (F := Ideal) x1) c n h w
    (Trilerp.cell (Trilerp.hi (Trilerp.coord x1 n 0 h w))) (Trilerp.cell (Trilerp.lo (Trilerp.coord x1 n 1 h w))) (Trilerp.cell (Trilerp.lo (Trilerp.coord x1 n 2 h w)))
    (by rw [v70_at0]; rfl) (by rw [v70_at1]; rfl) (by rw [v70_at2]; rfl)).trans ?_
  rw [val_main_v0_apply, idx_v0]
  first | done | rfl
theorem v72_at : val_main_v72 (F := Ideal) x0 x1 (ix4 n c h w) = Trilerp.table x0 c (Trilerp.cell (Trilerp.hi (Trilerp.coord x1 n 0 h w))) (Trilerp.cell (Trilerp.lo (Trilerp.coord x1 n 1 h w))) (Trilerp.cell (Trilerp.lo (Trilerp.coord x1 n 2 h w))) := by
  rw [val_main_v72_apply, idx_v72, v71_at]
  first | done | rfl

theorem v77_at : val_main_v77 (F := Ideal) x1 (ix3 n h w) = Scalar.select (IntOp.cmpi .slt (Trilerp.lo (Trilerp.coord x1 n 0 h w)) 0#32) (IntOp.addi (Trilerp.lo (Trilerp.coord x1 n 0 h w)) 33#32) (Trilerp.lo (Trilerp.coord x1 n 0 h w)) := by
  rw [val_main_v77_apply, val_main_v74_apply, val_main_v76_apply, val_main_v73_apply, val_main_v75_apply, v14_at]
  first | done | rfl
theorem v88_at : val_main_v88 (F := Ideal) x1 (ix4 n h w (0 : Fin 1)) = Scalar.select (IntOp.cmpi .slt (Trilerp.lo (Trilerp.coord x1 n 0 h w)) 0#32) (IntOp.addi (Trilerp.lo (Trilerp.coord x1 n 0 h w)) 33#32) (Trilerp.lo (Trilerp.coord x1 n 0 h w)) := by
  rw [val_main_v88_apply, idx_v88, v77_at]
  first | done | rfl
theorem v91_at0 : val_main_v91 (F := Ideal) x1 (ix4 n h w (0 : Fin 3)) = Scalar.select (IntOp.cmpi .slt (Trilerp.lo (Trilerp.coord x1 n 0 h w)) 0#32) (IntOp.addi (Trilerp.lo (Trilerp.coord x1 n 0 h w)) 33#32) (Trilerp.lo (Trilerp.coord x1 n 0 h w)) := by
  unfold val_main_v91
  exact (concat3_apply_0 _ _ _ _ n h w).trans v88_at

theorem v82_at : val_main_v82 (F := Ideal) x1 (ix3 n h w) = Scalar.select (IntOp.cmpi .slt (Trilerp.hi (Trilerp.coord x1 n 1 h w)) 0#32) (IntOp.addi (Trilerp.hi (Trilerp.coord x1 n 1 h w)) 33#32) (Trilerp.hi (Trilerp.coord x1 n 1 h w)) := by
  rw [val_main_v82_apply, val_main_v79_apply, val_main_v81_apply, val_main_v78_apply, val_main_v80_apply, v22_at]
  first | done | rfl
theorem v89_at : val_main_v89 (F := Ideal) x1 (ix4 n h w (0 : Fin 1)) = Scalar.select (IntOp.cmpi .slt (Trilerp.hi (Trilerp.coord x1 n 1 h w)) 0#32) (IntOp.addi (Trilerp.hi (Trilerp.coord x1 n 1 h w)) 33#32) (Trilerp.hi (Trilerp.coord x1 n 1 h w)) := by
  rw [val_main_v89_apply, idx_v89, v82_at]
  first | done | rfl
theorem v91_at1 : val_main_v91 (F := Ideal) x1 (ix4 n h w (1 : Fin 3)) = Scalar.select (IntOp.cmpi .slt (Trilerp.hi (Trilerp.coord x1 n 1 h w)) 0#32) (IntOp.addi (Trilerp.hi (Trilerp.coord x1 n 1 h w)) 33#32) (Trilerp.hi (Trilerp.coord x1 n 1 h w)) := by
  unfold val_main_v91
  exact (concat3_apply_1 _ _ _ _ n h w).trans v89_at

theorem v87_at : val_main_v87 (F := Ideal) x1 (ix3 n h w) = Scalar.select (IntOp.cmpi .slt (Trilerp.lo (Trilerp.coord x1 n 2 h w)) 0#32) (IntOp.addi (Trilerp.lo (Trilerp.coord x1 n 2 h w)) 33#32) (Trilerp.lo (Trilerp.coord x1 n 2 h w)) := by
  rw [val_main_v87_apply, val_main_v84_apply, val_main_v86_apply, val_main_v83_apply, val_main_v85_apply, v18_at]
  first | done | rfl
theorem v90_at : val_main_v90 (F := Ideal) x1 (ix4 n h w (0 : Fin 1)) = Scalar.select (IntOp.cmpi .slt (Trilerp.lo (Trilerp.coord x1 n 2 h w)) 0#32) (IntOp.addi (Trilerp.lo (Trilerp.coord x1 n 2 h w)) 33#32) (Trilerp.lo (Trilerp.coord x1 n 2 h w)) := by
  rw [val_main_v90_apply, idx_v90, v87_at]
  first | done | rfl
theorem v91_at2 : val_main_v91 (F := Ideal) x1 (ix4 n h w (2 : Fin 3)) = Scalar.select (IntOp.cmpi .slt (Trilerp.lo (Trilerp.coord x1 n 2 h w)) 0#32) (IntOp.addi (Trilerp.lo (Trilerp.coord x1 n 2 h w)) 33#32) (Trilerp.lo (Trilerp.coord x1 n 2 h w)) := by
  unfold val_main_v91
  exact (concat3_apply_2 _ _ _ _ n h w).trans v90_at

theorem v92_at : val_main_v92 (F := Ideal) x0 x1 (ix4 c n h w) = Trilerp.table x0 c (Trilerp.cell (Trilerp.lo (Trilerp.coord x1 n 0 h w))) (Trilerp.cell (Trilerp.hi (Trilerp.coord x1 n 1 h w))) (Trilerp.cell (Trilerp.lo (Trilerp.coord x1 n 2 h w))) := by
  unfold val_main_v92
  refine (gather_lut_eq _ (val_main_v0 (F := Ideal) x0) (val_main_v91 (F := Ideal) x1) c n h w
    (Trilerp.cell (Trilerp.lo (Trilerp.coord x1 n 0 h w))) (Trilerp.cell (Trilerp.hi (Trilerp.coord x1 n 1 h w))) (Trilerp.cell (Trilerp.lo (Trilerp.coord x1 n 2 h w)))
    (by rw [v91_at0]; rfl) (by rw [v91_at1]; rfl) (by rw [v91_at2]; rfl)).trans ?_
  rw [val_main_v0_apply, idx_v0]
  first | done | rfl
theorem v93_at : val_main_v93 (F := Ideal) x0 x1 (ix4 n c h w) = Trilerp.table x0 c (Trilerp.cell (Trilerp.lo (Trilerp.coord x1 n 0 h w))) (Trilerp.cell (Trilerp.hi (Trilerp.coord x1 n 1 h w))) (Trilerp.cell (Trilerp.lo (Trilerp.coord x1 n 2 h w))) := by
  rw [val_main_v93_apply, idx_v93, v92_at]
  first | done | rfl

theorem v98_at : val_main_v98 (F := Ideal) x1 (ix3 n h w) = Scalar.select (IntOp.cmpi .slt (Trilerp.hi (Trilerp.coord x1 n 0 h w)) 0#32) (IntOp.addi (Trilerp.hi (Trilerp.coord x1 n 0 h w)) 33#32) (Trilerp.hi (Trilerp.coord x1 n 0 h w)) := by
  rw [val_main_v98_apply, val_main_v95_apply, val_main_v97_apply, val_main_v94_apply, val_main_v96_apply, v20_at]
  first | done | rfl
theorem v109_at : val_main_v109 (F := Ideal) x1 (ix4 n h w (0 : Fin 1)) = Scalar.select (IntOp.cmpi .slt (Trilerp.hi (Trilerp.coord x1 n 0 h w)) 0#32) (IntOp.addi (Trilerp.hi (Trilerp.coord x1 n 0 h w)) 33#32) (Trilerp.hi (Trilerp.coord x1 n 0 h w)) := by
  rw [val_main_v109_apply, idx_v109, v98_at]
  first | done | rfl
theorem v112_at0 : val_main_v112 (F := Ideal) x1 (ix4 n h w (0 : Fin 3)) = Scalar.select (IntOp.cmpi .slt (Trilerp.hi (Trilerp.coord x1 n 0 h w)) 0#32) (IntOp.addi (Trilerp.hi (Trilerp.coord x1 n 0 h w)) 33#32) (Trilerp.hi (Trilerp.coord x1 n 0 h w)) := by
  unfold val_main_v112
  exact (concat3_apply_0 _ _ _ _ n h w).trans v109_at

theorem v103_at : val_main_v103 (F := Ideal) x1 (ix3 n h w) = Scalar.select (IntOp.cmpi .slt (Trilerp.hi (Trilerp.coord x1 n 1 h w)) 0#32) (IntOp.addi (Trilerp.hi (Trilerp.coord x1 n 1 h w)) 33#32) (Trilerp.hi (Trilerp.coord x1 n 1 h w)) := by
  rw [val_main_v103_apply, val_main_v100_apply, val_main_v102_apply, val_main_v99_apply, val_main_v101_apply, v22_at]
  first | done | rfl
theorem v110_at : val_main_v110 (F := Ideal) x1 (ix4 n h w (0 : Fin 1)) = Scalar.select (IntOp.cmpi .slt (Trilerp.hi (Trilerp.coord x1 n 1 h w)) 0#32) (IntOp.addi (Trilerp.hi (Trilerp.coord x1 n 1 h w)) 33#32) (Trilerp.hi (Trilerp.coord x1 n 1 h w)) := by
  rw [val_main_v110_apply, idx_v110, v103_at]
  first | done | rfl
theorem v112_at1 : val_main_v112 (F := Ideal) x1 (ix4 n h w (1 : Fin 3)) = Scalar.select (IntOp.cmpi .slt (Trilerp.hi (Trilerp.coord x1 n 1 h w)) 0#32) (IntOp.addi (Trilerp.hi (Trilerp.coord x1 n 1 h w)) 33#32) (Trilerp.hi (Trilerp.coord x1 n 1 h w)) := by
  unfold val_main_v112
  exact (concat3_apply_1 _ _ _ _ n h w).trans v110_at

theorem v108_at : val_main_v108 (F := Ideal) x1 (ix3 n h w) = Scalar.select (IntOp.cmpi .slt (Trilerp.lo (Trilerp.coord x1 n 2 h w)) 0#32) (IntOp.addi (Trilerp.lo (Trilerp.coord x1 n 2 h w)) 33#32) (Trilerp.lo (Trilerp.coord x1 n 2 h w)) := by
  rw [val_main_v108_apply, val_main_v105_apply, val_main_v107_apply, val_main_v104_apply, val_main_v106_apply, v18_at]
  first | done | rfl
theorem v111_at : val_main_v111 (F := Ideal) x1 (ix4 n h w (0 : Fin 1)) = Scalar.select (IntOp.cmpi .slt (Trilerp.lo (Trilerp.coord x1 n 2 h w)) 0#32) (IntOp.addi (Trilerp.lo (Trilerp.coord x1 n 2 h w)) 33#32) (Trilerp.lo (Trilerp.coord x1 n 2 h w)) := by
  rw [val_main_v111_apply, idx_v111, v108_at]
  first | done | rfl
theorem v112_at2 : val_main_v112 (F := Ideal) x1 (ix4 n h w (2 : Fin 3)) = Scalar.select (IntOp.cmpi .slt (Trilerp.lo (Trilerp.coord x1 n 2 h w)) 0#32) (IntOp.addi (Trilerp.lo (Trilerp.coord x1 n 2 h w)) 33#32) (Trilerp.lo (Trilerp.coord x1 n 2 h w)) := by
  unfold val_main_v112
  exact (concat3_apply_2 _ _ _ _ n h w).trans v111_at

theorem v113_at : val_main_v113 (F := Ideal) x0 x1 (ix4 c n h w) = Trilerp.table x0 c (Trilerp.cell (Trilerp.hi (Trilerp.coord x1 n 0 h w))) (Trilerp.cell (Trilerp.hi (Trilerp.coord x1 n 1 h w))) (Trilerp.cell (Trilerp.lo (Trilerp.coord x1 n 2 h w))) := by
  unfold val_main_v113
  refine (gather_lut_eq _ (val_main_v0 (F := Ideal) x0) (val_main_v112 (F := Ideal) x1) c n h w
    (Trilerp.cell (Trilerp.hi (Trilerp.coord x1 n 0 h w))) (Trilerp.cell (Trilerp.hi (Trilerp.coord x1 n 1 h w))) (Trilerp.cell (Trilerp.lo (Trilerp.coord x1 n 2 h w)))
    (by rw [v112_at0]; rfl) (by rw [v112_at1]; rfl) (by rw [v112_at2]; rfl)).trans ?_
  rw [val_main_v0_apply, idx_v0]
  first | done | rfl
theorem v114_at : val_main_v114 (F := Ideal) x0 x1 (ix4 n c h w) = Trilerp.table x0 c (Trilerp.cell (Trilerp.hi (Trilerp.coord x1 n 0 h w))) (Trilerp.cell (Trilerp.hi (Trilerp.coord x1 n 1 h w))) (Trilerp.cell (Trilerp.lo (Trilerp.coord x1 n 2 h w))) := by
  rw [val_main_v114_apply, idx_v114, v113_at]
  first | done | rfl

theorem v119_at : val_main_v119 (F := Ideal) x1 (ix3 n h w) = Scalar.select (IntOp.cmpi .slt (Trilerp.lo (Trilerp.coord x1 n 0 h w)) 0#32) (IntOp.addi (Trilerp.lo (Trilerp.coord x1 n 0 h w)) 33#32) (Trilerp.lo (Trilerp.coord x1 n 0 h w)) := by
  rw [val_main_v119_apply, val_main_v116_apply, val_main_v118_apply, val_main_v115_apply, val_main_v117_apply, v14_at]
  first | done | rfl
theorem v130_at : val_main_v130 (F := Ideal) x1 (ix4 n h w (0 : Fin 1)) = Scalar.select (IntOp.cmpi .slt (Trilerp.lo (Trilerp.coord x1 n 0 h w)) 0#32) (IntOp.addi (Trilerp.lo (Trilerp.coord x1 n 0 h w)) 33#32) (Trilerp.lo (Trilerp.coord x1 n 0 h w)) := by
  rw [val_main_v130_apply, idx_v130, v119_at]
  first | done | rfl
theorem v133_at0 : val_main_v133 (F := Ideal) x1 (ix4 n h w (0 : Fin 3)) = Scalar.select (IntOp.cmpi .slt (Trilerp.lo (Trilerp.coord x1 n 0 h w)) 0#32) (IntOp.addi (Trilerp.lo (Trilerp.coord x1 n 0 h w)) 33#32) (Trilerp.lo (Trilerp.coord x1 n 0 h w)) := by
  unfold val_main_v133
  exact (concat3_apply_0 _ _ _ _ n h w).trans v130_at

theorem v124_at : val_main_v124 (F := Ideal) x1 (ix3 n h w) = Scalar.select (IntOp.cmpi .slt (Trilerp.lo (Trilerp.coord x1 n 1 h w)) 0#32) (IntOp.addi (Trilerp.lo (Trilerp.coord x1 n 1 h w)) 33#32) (Trilerp.lo (Trilerp.coord x1 n 1 h w)) := by
  rw [val_main_v124_apply, val_main_v121_apply, val_main_v123_apply, val_main_v120_apply, val_main_v122_apply, v16_at]
  first | done | rfl
theorem v131_at : val_main_v131 (F := Ideal) x1 (ix4 n h w (0 : Fin 1)) = Scalar.select (IntOp.cmpi .slt (Trilerp.lo (Trilerp.coord x1 n 1 h w)) 0#32) (IntOp.addi (Trilerp.lo (Trilerp.coord x1 n 1 h w)) 33#32) (Trilerp.lo (Trilerp.coord x1 n 1 h w)) := by
  rw [val_main_v131_apply, idx_v131, v124_at]
  first | done | rfl
theorem v133_at1 : val_main_v133 (F := Ideal) x1 (ix4 n h w (1 : Fin 3)) = Scalar.select (IntOp.cmpi .slt (Trilerp.lo (Trilerp.coord x1 n 1 h w)) 0#32) (IntOp.addi (Trilerp.lo (Trilerp.coord x1 n 1 h w)) 33#32) (Trilerp.lo (Trilerp.coord x1 n 1 h w)) := by
  unfold val_main_v133
  exact (concat3_apply_1 _ _ _ _ n h w).trans v131_at

theorem v129_at : val_main_v129 (F := Ideal) x1 (ix3 n h w) = Scalar.select (IntOp.cmpi .slt (Trilerp.hi (Trilerp.coord x1 n 2 h w)) 0#32) (IntOp.addi (Trilerp.hi (Trilerp.coord x1 n 2 h w)) 33#32) (Trilerp.hi (Trilerp.coord x1 n 2 h w)) := by
  rw [val_main_v129_apply, val_main_v126_apply, val_main_v128_apply, val_main_v125_apply, val_main_v127_apply, v24_at]
  first | done | rfl
theorem v132_at : val_main_v132 (F := Ideal) x1 (ix4 n h w (0 : Fin 1)) = Scalar.select (IntOp.cmpi .slt (Trilerp.hi (Trilerp.coord x1 n 2 h w)) 0#32) (IntOp.addi (Trilerp.hi (Trilerp.coord x1 n 2 h w)) 33#32) (Trilerp.hi (Trilerp.coord x1 n 2 h w)) := by
  rw [val_main_v132_apply, idx_v132, v129_at]
  first | done | rfl
theorem v133_at2 : val_main_v133 (F := Ideal) x1 (ix4 n h w (2 : Fin 3)) = Scalar.select (IntOp.cmpi .slt (Trilerp.hi (Trilerp.coord x1 n 2 h w)) 0#32) (IntOp.addi (Trilerp.hi (Trilerp.coord x1 n 2 h w)) 33#32) (Trilerp.hi (Trilerp.coord x1 n 2 h w)) := by
  unfold val_main_v133
  exact (concat3_apply_2 _ _ _ _ n h w).trans v132_at

theorem v134_at : val_main_v134 (F := Ideal) x0 x1 (ix4 c n h w) = Trilerp.table x0 c (Trilerp.cell (Trilerp.lo (Trilerp.coord x1 n 0 h w))) (Trilerp.cell (Trilerp.lo (Trilerp.coord x1 n 1 h w))) (Trilerp.cell (Trilerp.hi (Trilerp.coord x1 n 2 h w))) := by
  unfold val_main_v134
  refine (gather_lut_eq _ (val_main_v0 (F := Ideal) x0) (val_main_v133 (F := Ideal) x1) c n h w
    (Trilerp.cell (Trilerp.lo (Trilerp.coord x1 n 0 h w))) (Trilerp.cell (Trilerp.lo (Trilerp.coord x1 n 1 h w))) (Trilerp.cell (Trilerp.hi (Trilerp.coord x1 n 2 h w)))
    (by rw [v133_at0]; rfl) (by rw [v133_at1]; rfl) (by rw [v133_at2]; rfl)).trans ?_
  rw [val_main_v0_apply, idx_v0]
  first | done | rfl
theorem v135_at : val_main_v135 (F := Ideal) x0 x1 (ix4 n c h w) = Trilerp.table x0 c (Trilerp.cell (Trilerp.lo (Trilerp.coord x1 n 0 h w))) (Trilerp.cell (Trilerp.lo (Trilerp.coord x1 n 1 h w))) (Trilerp.cell (Trilerp.hi (Trilerp.coord x1 n 2 h w))) := by
  rw [val_main_v135_apply, idx_v135, v134_at]
  first | done | rfl

theorem v140_at : val_main_v140 (F := Ideal) x1 (ix3 n h w) = Scalar.select (IntOp.cmpi .slt (Trilerp.hi (Trilerp.coord x1 n 0 h w)) 0#32) (IntOp.addi (Trilerp.hi (Trilerp.coord x1 n 0 h w)) 33#32) (Trilerp.hi (Trilerp.coord x1 n 0 h w)) := by
  rw [val_main_v140_apply, val_main_v137_apply, val_main_v139_apply, val_main_v136_apply, val_main_v138_apply, v20_at]
  first | done | rfl
theorem v151_at : val_main_v151 (F := Ideal) x1 (ix4 n h w (0 : Fin 1)) = Scalar.select (IntOp.cmpi .slt (Trilerp.hi (Trilerp.coord x1 n 0 h w)) 0#32) (IntOp.addi (Trilerp.hi (Trilerp.coord x1 n 0 h w)) 33#32) (Trilerp.hi (Trilerp.coord x1 n 0 h w)) := by
  rw [val_main_v151_apply, idx_v151, v140_at]
  first | done | rfl
theorem v154_at0 : val_main_v154 (F := Ideal) x1 (ix4 n h w (0 : Fin 3)) = Scalar.select (IntOp.cmpi .slt (Trilerp.hi (Trilerp.coord x1 n 0 h w)) 0#32) (IntOp.addi (Trilerp.hi (Trilerp.coord x1 n 0 h w)) 33#32) (Trilerp.hi (Trilerp.coord x1 n 0 h w)) := by
  unfold val_main_v154
  exact (concat3_apply_0 _ _ _ _ n h w).trans v151_at

theorem v145_at : val_main_v145 (F := Ideal) x1 (ix3 n h w) = Scalar.select (IntOp.cmpi .slt (Trilerp.lo (Trilerp.coord x1 n 1 h w)) 0#32) (IntOp.addi (Trilerp.lo (Trilerp.coord x1 n 1 h w)) 33#32) (Trilerp.lo (Trilerp.coord x1 n 1 h w)) := by
  rw [val_main_v145_apply, val_main_v142_apply, val_main_v144_apply, val_main_v141_apply, val_main_v143_apply, v16_at]
  first | done | rfl
theorem v152_at : val_main_v152 (F := Ideal) x1 (ix4 n h w (0 : Fin 1)) = Scalar.select (IntOp.cmpi .slt (Trilerp.lo (Trilerp.coord x1 n 1 h w)) 0#32) (IntOp.addi (Trilerp.lo (Trilerp.coord x1 n 1 h w)) 33#32) (Trilerp.lo (Trilerp.coord x1 n 1 h w)) := by
  rw [val_main_v152_apply, idx_v152, v145_at]
  first | done | rfl
theorem v154_at1 : val_main_v154 (F := Ideal) x1 (ix4 n h w (1 : Fin 3)) = Scalar.select (IntOp.cmpi .slt (Trilerp.lo (Trilerp.coord x1 n 1 h w)) 0#32) (IntOp.addi (Trilerp.lo (Trilerp.coord x1 n 1 h w)) 33#32) (Trilerp.lo (Trilerp.coord x1 n 1 h w)) := by
  unfold val_main_v154
  exact (concat3_apply_1 _ _ _ _ n h w).trans v152_at

theorem v150_at : val_main_v150 (F := Ideal) x1 (ix3 n h w) = Scalar.select (IntOp.cmpi .slt (Trilerp.hi (Trilerp.coord x1 n 2 h w)) 0#32) (IntOp.addi (Trilerp.hi (Trilerp.coord x1 n 2 h w)) 33#32) (Trilerp.hi (Trilerp.coord x1 n 2 h w)) := by
  rw [val_main_v150_apply, val_main_v147_apply, val_main_v149_apply, val_main_v146_apply, val_main_v148_apply, v24_at]
  first | done | rfl
theorem v153_at : val_main_v153 (F := Ideal) x1 (ix4 n h w (0 : Fin 1)) = Scalar.select (IntOp.cmpi .slt (Trilerp.hi (Trilerp.coord x1 n 2 h w)) 0#32) (IntOp.addi (Trilerp.hi (Trilerp.coord x1 n 2 h w)) 33#32) (Trilerp.hi (Trilerp.coord x1 n 2 h w)) := by
  rw [val_main_v153_apply, idx_v153, v150_at]
  first | done | rfl
theorem v154_at2 : val_main_v154 (F := Ideal) x1 (ix4 n h w (2 : Fin 3)) = Scalar.select (IntOp.cmpi .slt (Trilerp.hi (Trilerp.coord x1 n 2 h w)) 0#32) (IntOp.addi (Trilerp.hi (Trilerp.coord x1 n 2 h w)) 33#32) (Trilerp.hi (Trilerp.coord x1 n 2 h w)) := by
  unfold val_main_v154
  exact (concat3_apply_2 _ _ _ _ n h w).trans v153_at

theorem v155_at : val_main_v155 (F := Ideal) x0 x1 (ix4 c n h w) = Trilerp.table x0 c (Trilerp.cell (Trilerp.hi (Trilerp.coord x1 n 0 h w))) (Trilerp.cell (Trilerp.lo (Trilerp.coord x1 n 1 h w))) (Trilerp.cell (Trilerp.hi (Trilerp.coord x1 n 2 h w))) := by
  unfold val_main_v155
  refine (gather_lut_eq _ (val_main_v0 (F := Ideal) x0) (val_main_v154 (F := Ideal) x1) c n h w
    (Trilerp.cell (Trilerp.hi (Trilerp.coord x1 n 0 h w))) (Trilerp.cell (Trilerp.lo (Trilerp.coord x1 n 1 h w))) (Trilerp.cell (Trilerp.hi (Trilerp.coord x1 n 2 h w)))
    (by rw [v154_at0]; rfl) (by rw [v154_at1]; rfl) (by rw [v154_at2]; rfl)).trans ?_
  rw [val_main_v0_apply, idx_v0]
  first | done | rfl
theorem v156_at : val_main_v156 (F := Ideal) x0 x1 (ix4 n c h w) = Trilerp.table x0 c (Trilerp.cell (Trilerp.hi (Trilerp.coord x1 n 0 h w))) (Trilerp.cell (Trilerp.lo (Trilerp.coord x1 n 1 h w))) (Trilerp.cell (Trilerp.hi (Trilerp.coord x1 n 2 h w))) := by
  rw [val_main_v156_apply, idx_v156, v155_at]
  first | done | rfl

theorem v161_at : val_main_v161 (F := Ideal) x1 (ix3 n h w) = Scalar.select (IntOp.cmpi .slt (Trilerp.lo (Trilerp.coord x1 n 0 h w)) 0#32) (IntOp.addi (Trilerp.lo (Trilerp.coord x1 n 0 h w)) 33#32) (Trilerp.lo (Trilerp.coord x1 n 0 h w)) := by
  rw [val_main_v161_apply, val_main_v158_apply, val_main_v160_apply, val_main_v157_apply, val_main_v159_apply, v14_at]
  first | done | rfl
theorem v172_at : val_main_v172 (F := Ideal) x1 (ix4 n h w (0 : Fin 1)) = Scalar.select (IntOp.cmpi .slt (Trilerp.lo (Trilerp.coord x1 n 0 h w)) 0#32) (IntOp.addi (Trilerp.lo (Trilerp.coord x1 n 0 h w)) 33#32) (Trilerp.lo (Trilerp.coord x1 n 0 h w)) := by
  rw [val_main_v172_apply, idx_v172, v161_at]
  first | done | rfl
theorem v175_at0 : val_main_v175 (F := Ideal) x1 (ix4 n h w (0 : Fin 3)) = Scalar.select (IntOp.cmpi .slt (Trilerp.lo (Trilerp.coord x1 n 0 h w)) 0#32) (IntOp.addi (Trilerp.lo (Trilerp.coord x1 n 0 h w)) 33#32) (Trilerp.lo (Trilerp.coord x1 n 0 h w)) := by
  unfold val_main_v175
  exact (concat3_apply_0 _ _ _ _ n h w).trans v172_at

theorem v166_at : val_main_v166 (F := Ideal) x1 (ix3 n h w) = Scalar.select (IntOp.cmpi .slt (Trilerp.hi (Trilerp.coord x1 n 1 h w)) 0#32) (IntOp.addi (Trilerp.hi (Trilerp.coord x1 n 1 h w)) 33#32) (Trilerp.hi (Trilerp.coord x1 n 1 h w)) := by
  rw [val_main_v166_apply, val_main_v163_apply, val_main_v165_apply, val_main_v162_apply, val_main_v164_apply, v22_at]
  first | done | rfl
theorem v173_at : val_main_v173 (F := Ideal) x1 (ix4 n h w (0 : Fin 1)) = Scalar.select (IntOp.cmpi .slt (Trilerp.hi (Trilerp.coord x1 n 1 h w)) 0#32) (IntOp.addi (Trilerp.hi (Trilerp.coord x1 n 1 h w)) 33#32) (Trilerp.hi (Trilerp.coord x1 n 1 h w)) := by
  rw [val_main_v173_apply, idx_v173, v166_at]
  first | done | rfl
theorem v175_at1 : val_main_v175 (F := Ideal) x1 (ix4 n h w (1 : Fin 3)) = Scalar.select (IntOp.cmpi .slt (Trilerp.hi (Trilerp.coord x1 n 1 h w)) 0#32) (IntOp.addi (Trilerp.hi (Trilerp.coord x1 n 1 h w)) 33#32) (Trilerp.hi (Trilerp.coord x1 n 1 h w)) := by
  unfold val_main_v175
  exact (concat3_apply_1 _ _ _ _ n h w).trans v173_at

theorem v171_at : val_main_v171 (F := Ideal) x1 (ix3 n h w) = Scalar.select (IntOp.cmpi .slt (Trilerp.hi (Trilerp.coord x1 n 2 h w)) 0#32) (IntOp.addi (Trilerp.hi (Trilerp.coord x1 n 2 h w)) 33#32) (Trilerp.hi (Trilerp.coord x1 n 2 h w)) := by
  rw [val_main_v171_apply, val_main_v168_apply, val_main_v170_apply, val_main_v167_apply, val_main_v169_apply, v24_at]
  first | done | rfl
theorem v174_at : val_main_v174 (F := Ideal) x1 (ix4 n h w (0 : Fin 1)) = Scalar.select (IntOp.cmpi .slt (Trilerp.hi (Trilerp.coord x1 n 2 h w)) 0#32) (IntOp.addi (Trilerp.hi (Trilerp.coord x1 n 2 h w)) 33#32) (Trilerp.hi (Trilerp.coord x1 n 2 h w)) := by
  rw [val_main_v174_apply, idx_v174, v171_at]
  first | done | rfl
theorem v175_at2 : val_main_v175 (F := Ideal) x1 (ix4 n h w (2 : Fin 3)) = Scalar.select (IntOp.cmpi .slt (Trilerp.hi (Trilerp.coord x1 n 2 h w)) 0#32) (IntOp.addi (Trilerp.hi (Trilerp.coord x1 n 2 h w)) 33#32) (Trilerp.hi (Trilerp.coord x1 n 2 h w)) := by
  unfold val_main_v175
  exact (concat3_apply_2 _ _ _ _ n h w).trans v174_at

theorem v176_at : val_main_v176 (F := Ideal) x0 x1 (ix4 c n h w) = Trilerp.table x0 c (Trilerp.cell (Trilerp.lo (Trilerp.coord x1 n 0 h w))) (Trilerp.cell (Trilerp.hi (Trilerp.coord x1 n 1 h w))) (Trilerp.cell (Trilerp.hi (Trilerp.coord x1 n 2 h w))) := by
  unfold val_main_v176
  refine (gather_lut_eq _ (val_main_v0 (F := Ideal) x0) (val_main_v175 (F := Ideal) x1) c n h w
    (Trilerp.cell (Trilerp.lo (Trilerp.coord x1 n 0 h w))) (Trilerp.cell (Trilerp.hi (Trilerp.coord x1 n 1 h w))) (Trilerp.cell (Trilerp.hi (Trilerp.coord x1 n 2 h w)))
    (by rw [v175_at0]; rfl) (by rw [v175_at1]; rfl) (by rw [v175_at2]; rfl)).trans ?_
  rw [val_main_v0_apply, idx_v0]
  first | done | rfl
theorem v177_at : val_main_v177 (F := Ideal) x0 x1 (ix4 n c h w) = Trilerp.table x0 c (Trilerp.cell (Trilerp.lo (Trilerp.coord x1 n 0 h w))) (Trilerp.cell (Trilerp.hi (Trilerp.coord x1 n 1 h w))) (Trilerp.cell (Trilerp.hi (Trilerp.coord x1 n 2 h w))) := by
  rw [val_main_v177_apply, idx_v177, v176_at]
  first | done | rfl

theorem v182_at : val_main_v182 (F := Ideal) x1 (ix3 n h w) = Scalar.select (IntOp.cmpi .slt (Trilerp.hi (Trilerp.coord x1 n 0 h w)) 0#32) (IntOp.addi (Trilerp.hi (Trilerp.coord x1 n 0 h w)) 33#32) (Trilerp.hi (Trilerp.coord x1 n 0 h w)) := by
  rw [val_main_v182_apply, val_main_v179_apply, val_main_v181_apply, val_main_v178_apply, val_main_v180_apply, v20_at]
  first | done | rfl
theorem v193_at : val_main_v193 (F := Ideal) x1 (ix4 n h w (0 : Fin 1)) = Scalar.select (IntOp.cmpi .slt (Trilerp.hi (Trilerp.coord x1 n 0 h w)) 0#32) (IntOp.addi (Trilerp.hi (Trilerp.coord x1 n 0 h w)) 33#32) (Trilerp.hi (Trilerp.coord x1 n 0 h w)) := by
  rw [val_main_v193_apply, idx_v193, v182_at]
  first | done | rfl
theorem v196_at0 : val_main_v196 (F := Ideal) x1 (ix4 n h w (0 : Fin 3)) = Scalar.select (IntOp.cmpi .slt (Trilerp.hi (Trilerp.coord x1 n 0 h w)) 0#32) (IntOp.addi (Trilerp.hi (Trilerp.coord x1 n 0 h w)) 33#32) (Trilerp.hi (Trilerp.coord x1 n 0 h w)) := by
  unfold val_main_v196
  exact (concat3_apply_0 _ _ _ _ n h w).trans v193_at

theorem v187_at : val_main_v187 (F := Ideal) x1 (ix3 n h w) = Scalar.select (IntOp.cmpi .slt (Trilerp.hi (Trilerp.coord x1 n 1 h w)) 0#32) (IntOp.addi (Trilerp.hi (Trilerp.coord x1 n 1 h w)) 33#32) (Trilerp.hi (Trilerp.coord x1 n 1 h w)) := by
  rw [val_main_v187_apply, val_main_v184_apply, val_main_v186_apply, val_main_v183_apply, val_main_v185_apply, v22_at]
  first | done | rfl
theorem v194_at : val_main_v194 (F := Ideal) x1 (ix4 n h w (0 : Fin 1)) = Scalar.select (IntOp.cmpi .slt (Trilerp.hi (Trilerp.coord x1 n 1 h w)) 0#32) (IntOp.addi (Trilerp.hi (Trilerp.coord x1 n 1 h w)) 33#32) (Trilerp.hi (Trilerp.coord x1 n 1 h w)) := by
  rw [val_main_v194_apply, idx_v194, v187_at]
  first | done | rfl
theorem v196_at1 : val_main_v196 (F := Ideal) x1 (ix4 n h w (1 : Fin 3)) = Scalar.select (IntOp.cmpi .slt (Trilerp.hi (Trilerp.coord x1 n 1 h w)) 0#32) (IntOp.addi (Trilerp.hi (Trilerp.coord x1 n 1 h w)) 33#32) (Trilerp.hi (Trilerp.coord x1 n 1 h w)) := by
  unfold val_main_v196
  exact (concat3_apply_1 _ _ _ _ n h w).trans v194_at

theorem v192_at : val_main_v192 (F := Ideal) x1 (ix3 n h w) = Scalar.select (IntOp.cmpi .slt (Trilerp.hi (Trilerp.coord x1 n 2 h w)) 0#32) (IntOp.addi (Trilerp.hi (Trilerp.coord x1 n 2 h w)) 33#32) (Trilerp.hi (Trilerp.coord x1 n 2 h w)) := by
  rw [val_main_v192_apply, val_main_v189_apply, val_main_v191_apply, val_main_v188_apply, val_main_v190_apply, v24_at]
  first | done | rfl
theorem v195_at : val_main_v195 (F := Ideal) x1 (ix4 n h w (0 : Fin 1)) = Scalar.select (IntOp.cmpi .slt (Trilerp.hi (Trilerp.coord x1 n 2 h w)) 0#32) (IntOp.addi (Trilerp.hi (Trilerp.coord x1 n 2 h w)) 33#32) (Trilerp.hi (Trilerp.coord x1 n 2 h w)) := by
  rw [val_main_v195_apply, idx_v195, v192_at]
  first | done | rfl
theorem v196_at2 : val_main_v196 (F := Ideal) x1 (ix4 n h w (2 : Fin 3)) = Scalar.select (IntOp.cmpi .slt (Trilerp.hi (Trilerp.coord x1 n 2 h w)) 0#32) (IntOp.addi (Trilerp.hi (Trilerp.coord x1 n 2 h w)) 33#32) (Trilerp.hi (Trilerp.coord x1 n 2 h w)) := by
  unfold val_main_v196
  exact (concat3_apply_2 _ _ _ _ n h w).trans v195_at

theorem v197_at : val_main_v197 (F := Ideal) x0 x1 (ix4 c n h w) = Trilerp.table x0 c (Trilerp.cell (Trilerp.hi (Trilerp.coord x1 n 0 h w))) (Trilerp.cell (Trilerp.hi (Trilerp.coord x1 n 1 h w))) (Trilerp.cell (Trilerp.hi (Trilerp.coord x1 n 2 h w))) := by
  unfold val_main_v197
  refine (gather_lut_eq _ (val_main_v0 (F := Ideal) x0) (val_main_v196 (F := Ideal) x1) c n h w
    (Trilerp.cell (Trilerp.hi (Trilerp.coord x1 n 0 h w))) (Trilerp.cell (Trilerp.hi (Trilerp.coord x1 n 1 h w))) (Trilerp.cell (Trilerp.hi (Trilerp.coord x1 n 2 h w)))
    (by rw [v196_at0]; rfl) (by rw [v196_at1]; rfl) (by rw [v196_at2]; rfl)).trans ?_
  rw [val_main_v0_apply, idx_v0]
  first | done | rfl
theorem v198_at : val_main_v198 (F := Ideal) x0 x1 (ix4 n c h w) = Trilerp.table x0 c (Trilerp.cell (Trilerp.hi (Trilerp.coord x1 n 0 h w))) (Trilerp.cell (Trilerp.hi (Trilerp.coord x1 n 1 h w))) (Trilerp.cell (Trilerp.hi (Trilerp.coord x1 n 2 h w))) := by
  rw [val_main_v198_apply, idx_v198, v197_at]
  first | done | rfl

/-! ## The eight weights -/

theorem v206_at : val_main_v206 (F := Ideal) x1 (ix3 n h w) = (((Trilerp.oneW - Trilerp.frac (Trilerp.coord x1 n 0 h w)) * (Trilerp.oneW - Trilerp.frac (Trilerp.coord x1 n 1 h w))) * (Trilerp.oneW - Trilerp.frac (Trilerp.coord x1 n 2 h w))) := by
  rw [val_main_v206_apply, val_main_v203_apply, val_main_v200_apply, val_main_v199_apply, val_main_v202_apply, val_main_v201_apply, val_main_v205_apply, val_main_v204_apply, v26_at, v28_at, v30_at]
  first | done | rfl
theorem v207_at : val_main_v207 (F := Ideal) x1 (ix4 n (0 : Fin 1) h w) = (((Trilerp.oneW - Trilerp.frac (Trilerp.coord x1 n 0 h w)) * (Trilerp.oneW - Trilerp.frac (Trilerp.coord x1 n 1 h w))) * (Trilerp.oneW - Trilerp.frac (Trilerp.coord x1 n 2 h w))) := by
  rw [val_main_v207_apply, idx_v207, v206_at]
  first | done | rfl
theorem v247_at : val_main_v247 (F := Ideal) x1 (ix4 n c h w) = (((Trilerp.oneW - Trilerp.frac (Trilerp.coord x1 n 0 h w)) * (Trilerp.oneW - Trilerp.frac (Trilerp.coord x1 n 1 h w))) * (Trilerp.oneW - Trilerp.frac (Trilerp.coord x1 n 2 h w))) := by
  rw [val_main_v247_apply, idx_v247, v207_at]
  first | done | rfl

theorem v213_at : val_main_v213 (F := Ideal) x1 (ix3 n h w) = ((Trilerp.frac (Trilerp.coord x1 n 0 h w) * (Trilerp.oneW - Trilerp.frac (Trilerp.coord x1 n 1 h w))) * (Trilerp.oneW - Trilerp.frac (Trilerp.coord x1 n 2 h w))) := by
  rw [val_main_v213_apply, val_main_v210_apply, val_main_v209_apply, val_main_v208_apply, val_main_v212_apply, val_main_v211_apply, v26_at, v28_at, v30_at]
  first | done | rfl
theorem v214_at : val_main_v214 (F := Ideal) x1 (ix4 n (0 : Fin 1) h w) = ((Trilerp.frac (Trilerp.coord x1 n 0 h w) * (Trilerp.oneW - Trilerp.frac (Trilerp.coord x1 n 1 h w))) * (Trilerp.oneW - Trilerp.frac (Trilerp.coord x1 n 2 h w))) := by
  rw [val_main_v214_apply, idx_v214, v213_at]
  first | done | rfl
theorem v249_at : val_main_v249 (F := Ideal) x1 (ix4 n c h w) = ((Trilerp.frac (Trilerp.coord x1 n 0 h w) * (Trilerp.oneW - Trilerp.frac (Trilerp.coord x1 n 1 h w))) * (Trilerp.oneW - Trilerp.frac (Trilerp.coord x1 n 2 h w))) := by
  rw [val_main_v249_apply, idx_v249, v214_at]
  first | done | rfl

theorem v220_at : val_main_v220 (F := Ideal) x1 (ix3 n h w) = (((Trilerp.oneW - Trilerp.frac (Trilerp.coord x1 n 0 h w)) * Trilerp.frac (Trilerp.coord x1 n 1 h w)) * (Trilerp.oneW - Trilerp.frac (Trilerp.coord x1 n 2 h w))) := by
  rw [val_main_v220_apply, val_main_v217_apply, val_main_v216_apply, val_main_v215_apply, val_main_v219_apply, val_main_v218_apply, v26_at, v28_at, v30_at]
  first | done | rfl
theorem v221_at : val_main_v221 (F := Ideal) x1 (ix4 n (0 : Fin 1) h w) = (((Trilerp.oneW - Trilerp.frac (Trilerp.coord x1 n 0 h w)) * Trilerp.frac (Trilerp.coord x1 n 1 h w)) * (Trilerp.oneW - Trilerp.frac (Trilerp.coord x1 n 2 h w))) := by
  rw [val_main_v221_apply, idx_v221, v220_at]
  first | done | rfl
theorem v252_at : val_main_v252 (F := Ideal) x1 (ix4 n c h w) = (((Trilerp.oneW - Trilerp.frac (Trilerp.coord x1 n 0 h w)) * Trilerp.frac (Trilerp.coord x1 n 1 h w)) * (Trilerp.oneW - Trilerp.frac (Trilerp.coord x1 n 2 h w))) := by
  rw [val_main_v252_apply, idx_v252, v221_at]
  first | done | rfl

theorem v225_at : val_main_v225 (F := Ideal) x1 (ix3 n h w) = ((Trilerp.frac (Trilerp.coord x1 n 0 h w) * Trilerp.frac (Trilerp.coord x1 n 1 h w)) * (Trilerp.oneW - Trilerp.frac (Trilerp.coord x1 n 2 h w))) := by
  rw [val_main_v225_apply, val_main_v222_apply, val_main_v224_apply, val_main_v223_apply, v26_at, v28_at, v30_at]
  first | done | rfl
theorem v226_at : val_main_v226 (F := Ideal) x1 (ix4 n (0 : Fin 1) h w) = ((Trilerp.frac (Trilerp.coord x1 n 0 h w) * Trilerp.frac (Trilerp.coord x1 n 1 h w)) * (Trilerp.oneW - Trilerp.frac (Trilerp.coord x1 n 2 h w))) := by
  rw [val_main_v226_apply, idx_v226, v225_at]
  first | done | rfl
theorem v255_at : val_main_v255 (F := Ideal) x1 (ix4 n c h w) = ((Trilerp.frac (Trilerp.coord x1 n 0 h w) * Trilerp.frac (Trilerp.coord x1 n 1 h w)) * (Trilerp.oneW - Trilerp.frac (Trilerp.coord x1 n 2 h w))) := by
  rw [val_main_v255_apply, idx_v255, v226_at]
  first | done | rfl

theorem v232_at : val_main_v232 (F := Ideal) x1 (ix3 n h w) = (((Trilerp.oneW - Trilerp.frac (Trilerp.coord x1 n 0 h w)) * (Trilerp.oneW - Trilerp.frac (Trilerp.coord x1 n 1 h w))) * Trilerp.frac (Trilerp.coord x1 n 2 h w)) := by
  rw [val_main_v232_apply, val_main_v231_apply, val_main_v228_apply, val_main_v227_apply, val_main_v230_apply, val_main_v229_apply, v26_at, v28_at, v30_at]
  first | done | rfl
theorem v233_at : val_main_v233 (F := Ideal) x1 (ix4 n (0 : Fin 1) h w) = (((Trilerp.oneW - Trilerp.frac (Trilerp.coord x1 n 0 h w)) * (Trilerp.oneW - Trilerp.frac (Trilerp.coord x1 n 1 h w))) * Trilerp.frac (Trilerp.coord x1 n 2 h w)) := by
  rw [val_main_v233_apply, idx_v233, v232_at]
  first | done | rfl
theorem v258_at : val_main_v258 (F := Ideal) x1 (ix4 n c h w) = (((Trilerp.oneW - Trilerp.frac (Trilerp.coord x1 n 0 h w)) * (Trilerp.oneW - Trilerp.frac (Trilerp.coord x1 n 1 h w))) * Trilerp.frac (Trilerp.coord x1 n 2 h w)) := by
  rw [val_main_v258_apply, idx_v258, v233_at]
  first | done | rfl

theorem v237_at : val_main_v237 (F := Ideal) x1 (ix3 n h w) = ((Trilerp.frac (Trilerp.coord x1 n 0 h w) * (Trilerp.oneW - Trilerp.frac (Trilerp.coord x1 n 1 h w))) * Trilerp.frac (Trilerp.coord x1 n 2 h w)) := by
  rw [val_main_v237_apply, val_main_v236_apply, val_main_v235_apply, val_main_v234_apply, v26_at, v28_at, v30_at]
  first | done | rfl
theorem v238_at : val_main_v238 (F := Ideal) x1 (ix4 n (0 : Fin 1) h w) = ((Trilerp.frac (Trilerp.coord x1 n 0 h w) * (Trilerp.oneW - Trilerp.frac (Trilerp.coord x1 n 1 h w))) * Trilerp.frac (Trilerp.coord x1 n 2 h w)) := by
  rw [val_main_v238_apply, idx_v238, v237_at]
  first | done | rfl
theorem v261_at : val_main_v261 (F := Ideal) x1 (ix4 n c h w) = ((Trilerp.frac (Trilerp.coord x1 n 0 h w) * (Trilerp.oneW - Trilerp.frac (Trilerp.coord x1 n 1 h w))) * Trilerp.frac (Trilerp.coord x1 n 2 h w)) := by
  rw [val_main_v261_apply, idx_v261, v238_at]
  first | done | rfl

theorem v242_at : val_main_v242 (F := Ideal) x1 (ix3 n h w) = (((Trilerp.oneW - Trilerp.frac (Trilerp.coord x1 n 0 h w)) * Trilerp.frac (Trilerp.coord x1 n 1 h w)) * Trilerp.frac (Trilerp.coord x1 n 2 h w)) := by
  rw [val_main_v242_apply, val_main_v241_apply, val_main_v240_apply, val_main_v239_apply, v26_at, v28_at, v30_at]
  first | done | rfl
theorem v243_at : val_main_v243 (F := Ideal) x1 (ix4 n (0 : Fin 1) h w) = (((Trilerp.oneW - Trilerp.frac (Trilerp.coord x1 n 0 h w)) * Trilerp.frac (Trilerp.coord x1 n 1 h w)) * Trilerp.frac (Trilerp.coord x1 n 2 h w)) := by
  rw [val_main_v243_apply, idx_v243, v242_at]
  first | done | rfl
theorem v264_at : val_main_v264 (F := Ideal) x1 (ix4 n c h w) = (((Trilerp.oneW - Trilerp.frac (Trilerp.coord x1 n 0 h w)) * Trilerp.frac (Trilerp.coord x1 n 1 h w)) * Trilerp.frac (Trilerp.coord x1 n 2 h w)) := by
  rw [val_main_v264_apply, idx_v264, v243_at]
  first | done | rfl

theorem v245_at : val_main_v245 (F := Ideal) x1 (ix3 n h w) = ((Trilerp.frac (Trilerp.coord x1 n 0 h w) * Trilerp.frac (Trilerp.coord x1 n 1 h w)) * Trilerp.frac (Trilerp.coord x1 n 2 h w)) := by
  rw [val_main_v245_apply, val_main_v244_apply, v26_at, v28_at, v30_at]
  first | done | rfl
theorem v246_at : val_main_v246 (F := Ideal) x1 (ix4 n (0 : Fin 1) h w) = ((Trilerp.frac (Trilerp.coord x1 n 0 h w) * Trilerp.frac (Trilerp.coord x1 n 1 h w)) * Trilerp.frac (Trilerp.coord x1 n 2 h w)) := by
  rw [val_main_v246_apply, idx_v246, v245_at]
  first | done | rfl
theorem v267_at : val_main_v267 (F := Ideal) x1 (ix4 n c h w) = ((Trilerp.frac (Trilerp.coord x1 n 0 h w) * Trilerp.frac (Trilerp.coord x1 n 1 h w)) * Trilerp.frac (Trilerp.coord x1 n 2 h w)) := by
  rw [val_main_v267_apply, idx_v267, v246_at]
  first | done | rfl

/-! ## The sum of the eight corners -/

theorem v269_at : val_main_v269 (F := Ideal) x0 x1 (ix4 n c h w) = Trilerp.Gref x0 x1 (ix4 n c h w) := by
  rw [val_main_v269_apply, val_main_v266_apply, val_main_v263_apply, val_main_v260_apply, val_main_v257_apply, val_main_v254_apply, val_main_v251_apply, val_main_v248_apply, val_main_v250_apply, val_main_v253_apply, val_main_v256_apply, val_main_v259_apply, val_main_v262_apply, val_main_v265_apply, val_main_v268_apply,
    v51_at, v247_at, v72_at, v249_at, v93_at, v252_at, v114_at, v255_at, v135_at, v258_at, v156_at, v261_at, v177_at, v264_at, v198_at, v267_at]
  show _ = Trilerp.refPix (Trilerp.table x0 c) (Trilerp.coord x1 n 0 h w) (Trilerp.coord x1 n 1 h w) (Trilerp.coord x1 n 2 h w)
  unfold Trilerp.refPix
  first | done | rfl

/-- THE REFERENCE'S VALUE: every entry of the program's result is the corner-by-corner interpolation. -/
theorem ref_apply (x0 : (⟨S1x3x33x33x33, .f32⟩ : BufTy).Contents (Elt Ideal)) (x1 : (⟨S8x3x1024x1024, .f32⟩ : BufTy).Contents (Elt Ideal))
    (i : S8x3x1024x1024.Idx) :
    Cert.ReferenceIdeal.Read.val_main_v269 (F := Ideal) x0 x1 i = Trilerp.Gref x0 x1 i := by
  obtain ⟨n, c, h, w, rfl⟩ : ∃ n c h w, i = ix4 n c h w := ⟨i 0, i 1, i 2, i 3, eq_ix4 i⟩
  exact v269_at

end Cert.ReferenceIdeal.RefValue

end
-- ==== Proof.lean ====
/-
  A colour image is passed through a 33 × 33 × 33 colour table with trilinear interpolation.

  Every output entry (n, c, h, w) depends on channel c's table and on the pixel (n, ·, h, w): its three colour
  coordinates are clamped to [0, 1] and scaled by 32; the integer parts pick a cell of the table and the
  fractional parts weigh the cell's eight corners.

  The kernel computes the value separably: per axis a 33-entry weight vector that is zero away from the two
  neighbouring cells, and the table contracted with the three vectors one axis after the other (the first
  contraction a matrix product); the grid cuts the image into [3, 8, 512] blocks, each entry of a block depending
  only on its own pixel, so the output array is ONE function `Trilerp.G` of the two argument arrays
  (Proof/KernelChannel.lean, Proof/KernelPixel.lean, Proof/KernelArray.lean). The reference looks the eight corners
  up and sums them with the products of their one-axis weights: `Trilerp.Gref` (Proof/RefValue.lean). For a real
  table and a real image the two are equal — a polynomial identity once each weight vector is known to pick out
  its two cells (Proof/Algebra.lean); the precondition, every entry finite, is what makes the data real
  (Proof/Finite.lean), and distributing products over sums needs it: on the extended reals that law fails at
  the infinities.

  The three removals of a bf16 round trip that separate the idealized kernel from the kernel are each the
  identity on the extended reals (`preserves`).
-/
import proofs.«122885_j82171314307385_1_alg».proof.Defs
import proofs.«122885_j82171314307385_1_alg».proof.Proof.Gen.Kernel
import proofs.«122885_j82171314307385_1_alg».proof.Proof.Gen.Kernel.Skeleton
import proofs.«122885_j82171314307385_1_alg».proof.Proof.Gen.Kernel.Launch
import proofs.«122885_j82171314307385_1_alg».proof.Proof.Gen.Kernel.Points
import proofs.«122885_j82171314307385_1_alg».proof.Proof.Gen.Kernel.Frame
import proofs.«122885_j82171314307385_1_alg».proof.Proof.Gen.KernelIdeal
import proofs.«122885_j82171314307385_1_alg».proof.Proof.Gen.KernelIdeal.Skeleton
import proofs.«122885_j82171314307385_1_alg».proof.Proof.Gen.KernelIdeal.Launch
import proofs.«122885_j82171314307385_1_alg».proof.Proof.Gen.KernelIdeal.Points
import proofs.«122885_j82171314307385_1_alg».proof.Proof.Gen.KernelIdeal.Frame
import proofs.«122885_j82171314307385_1_alg».proof.Proof.Gen.ReferenceIdeal
import proofs.«122885_j82171314307385_1_alg».proof.Proof.Gen.KernelIdeal.Value
import proofs.«122885_j82171314307385_1_alg».proof.Proof.Gen.Pre_finite_inputs
import proofs.«122885_j82171314307385_1_alg».proof.Proof.RefRunPatched
import proofs.«122885_j82171314307385_1_alg».proof.Proof.RefReadPatched
import proofs.«122885_j82171314307385_1_alg».proof.Proof.Algebra
import proofs.«122885_j82171314307385_1_alg».proof.Proof.Finite
import proofs.«122885_j82171314307385_1_alg».proof.Proof.KernelArray
import proofs.«122885_j82171314307385_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Rounding a vector of extended reals to bf16 and widening it back changes nothing, three times. -/
theorem preserves : Cert.preserves_Kernel_KernelIdeal :=
  ⟨IdealRules.truncf_extf.statement _ .f32 .bf16, IdealRules.truncf_extf.statement _ .f32 .bf16,
    IdealRules.truncf_extf.statement _ .f32 .bf16⟩

/-- Both programs end with the interpolated image: the kernel with the axis-by-axis form, the reference with the
    eight-corner form, equal because the precondition makes the table and the image real. -/
theorem algebraic : Cert.algebraic_KernelIdeal_ReferenceIdeal := by
  intro m ρ m' ρ' hpre hagree
  refine ⟨fun c => Trilerp.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨hl, hx⟩ := Cert.Proof.Finite.real_of_pre _ _ (hpre c)
  rw [Cert.ReferenceIdeal.Read.val_main_v269_eq, (hagree c).1, (hagree c).2]
  exact (funext (Cert.ReferenceIdeal.RefValue.ref_apply _ _)).trans (Trilerp.G_eq_Gref _ _ hl hx).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
